-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1000000 32) (main_arg2 : IVec S1000000 32) (main_arg3 : FVec F S128x256 .f32) (main_arg4 : FVec F S256 .f32) (main_arg5 : FVec F S256x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg5
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg6 main_v13 main_v16
-- ==== Kernel.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S100000x256 : Shape := ⟨2, ![100000, 256]⟩
abbrev S100000x1 : Shape := ⟨2, ![100000, 1]⟩
abbrev S2000x128 : Shape := ⟨2, ![2000, 128]⟩
abbrev S2000x256 : Shape := ⟨2, ![2000, 256]⟩
abbrev S2000x1 : Shape := ⟨2, ![2000, 1]⟩
abbrev S2000 : Shape := ⟨1, ![2000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S1000000x256 : Shape := ⟨2, ![1000000, 256]⟩
abbrev S1x256 : Shape := ⟨2, ![1, 256]⟩
abbrev S100000x40 : Shape := ⟨2, ![100000, 40]⟩
abbrev S2000x40 : Shape := ⟨2, ![2000, 40]⟩
abbrev S1000000x40 : Shape := ⟨2, ![1000000, 40]⟩
abbrev S1x40 : Shape := ⟨2, ![1, 40]⟩

abbrev nBuf : Space → Nat
  | .hbm => 215
  | .vmem => 88
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S128x256, .f32⟩
  | 4 => ⟨S256, .f32⟩
  | 5 => ⟨S256x40, .f32⟩
  | 6 => ⟨S40, .f32⟩
  | 7 => ⟨S100000x256, .f32⟩
  | 8 => ⟨S100000x1, .f32⟩
  | 9 => ⟨S_, .f32⟩
  | 10 => ⟨S1000000x1, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x1, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x1, .f32⟩
  | 47 => ⟨S1000000x1, .i32⟩
  | 48 => ⟨S1000000x1, .i32⟩
  | 49 => ⟨S1000000x1, .f32⟩
  | 50 => ⟨S1000000x1, .f32⟩
  | 51 => ⟨S_, .f32⟩
  | 52 => ⟨S100000, .f32⟩
  | 53 => ⟨S1000000, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S100000, .f32⟩
  | 63 => ⟨S_, .f32⟩
  | 64 => ⟨S100000, .f32⟩
  | 65 => ⟨S100000, .f32⟩
  | 66 => ⟨S100000, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000, .f32⟩
  | 76 => ⟨S1000000x1, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000, .f32⟩
  | 86 => ⟨S1000000x1, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x256, .f32⟩
  | 96 => ⟨S1000000x256, .f32⟩
  | 97 => ⟨S_, .f32⟩
  | 98 => ⟨S100000x256, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S100000x256, .f32⟩
  | 108 => ⟨S100000, .f32⟩
  | 109 => ⟨S100000x1, .f32⟩
  | 110 => ⟨S1x256, .f32⟩
  | 111 => ⟨S100000x256, .f32⟩
  | 112 => ⟨S100000x40, .f32⟩
  | 113 => ⟨S100000x1, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x256, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x128, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x256, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x1, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x1, .f32⟩
  | 22 => ⟨S1000000x1, .i32⟩
  | 23 => ⟨S1000000x1, .i32⟩
  | 24 => ⟨S1000000x1, .f32⟩
  | 25 => ⟨S1000000x1, .f32⟩
  | 26 => ⟨S_, .f32⟩
  | 27 => ⟨S100000, .f32⟩
  | 28 => ⟨S1000000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S100000, .f32⟩
  | 38 => ⟨S_, .f32⟩
  | 39 => ⟨S100000, .f32⟩
  | 40 => ⟨S100000, .f32⟩
  | 41 => ⟨S100000, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000, .f32⟩
  | 51 => ⟨S1000000x1, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000, .f32⟩
  | 61 => ⟨S1000000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x40, .f32⟩
  | 71 => ⟨S1000000x40, .f32⟩
  | 72 => ⟨S_, .f32⟩
  | 73 => ⟨S100000x40, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S100000x40, .f32⟩
  | 83 => ⟨S100000, .f32⟩
  | 84 => ⟨S100000x1, .f32⟩
  | 85 => ⟨S1x40, .f32⟩
  | 86 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x1, .f32⟩
  | .local _ .vmem, ⟨6, _⟩ => ⟨S2000x1, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .i32⟩
  | .local _ .vmem, ⟨16, _⟩ => ⟨S2000x1, .i32⟩
  | .local _ .vmem, ⟨17, _⟩ => ⟨S2000x1, .i32⟩
  | .local _ .vmem, ⟨18, _⟩ => ⟨S2000x1, .i32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x1, .f32⟩
  | .local _ .vmem, ⟨38, _⟩ => ⟨S2000x1, .f32⟩
  | .local _ .vmem, ⟨39, _⟩ => ⟨S2000x256, .f32⟩
  | .local _ .vmem, ⟨40, _⟩ => ⟨S2000x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x40, .f32⟩
  | .local _ .vmem, ⟨47, _⟩ => ⟨S2000x40, .f32⟩
  | .local _ .vmem, ⟨48, _⟩ => ⟨S2000x40, .f32⟩
  | .local _ .vmem, ⟨49, _⟩ => ⟨S2000x1, .f32⟩
  | .local _ .vmem, ⟨50, _⟩ => ⟨S2000x1, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x1, .f32⟩
  | .local _ .vmem, ⟨56, _⟩ => ⟨S2000x1, .f32⟩
  | .local _ .vmem, ⟨57, _⟩ => ⟨S2000x1, .f32⟩
  | .local _ .vmem, ⟨58, _⟩ => ⟨S2000x1, .f32⟩
  | .local _ .vmem, ⟨59, _⟩ => ⟨S2000x1, .i32⟩
  | .local _ .vmem, ⟨60, _⟩ => ⟨S2000x1, .i32⟩
  | .local _ .vmem, ⟨61, _⟩ => ⟨S2000x1, .i32⟩
  | .local _ .vmem, ⟨62, _⟩ => ⟨S2000x1, .i32⟩
  | .local _ .vmem, ⟨63, _⟩ => ⟨S2000x1, .f32⟩
  | .local _ .vmem, ⟨64, _⟩ => ⟨S2000x1, .f32⟩
  | .local _ .vmem, ⟨65, _⟩ => ⟨S2000x1, .f32⟩
  | .local _ .vmem, ⟨66, _⟩ => ⟨S2000x1, .f32⟩
  | .local _ .vmem, ⟨67, _⟩ => ⟨S2000x1, .f32⟩
  | .local _ .vmem, ⟨68, _⟩ => ⟨S2000x1, .f32⟩
  | .local _ .vmem, ⟨69, _⟩ => ⟨S2000x1, .f32⟩
  | .local _ .vmem, ⟨70, _⟩ => ⟨S2000x1, .f32⟩
  | .local _ .vmem, ⟨71, _⟩ => ⟨S2000x1, .f32⟩
  | .local _ .vmem, ⟨72, _⟩ => ⟨S2000x1, .f32⟩
  | .local _ .vmem, ⟨73, _⟩ => ⟨S2000x1, .f32⟩
  | .local _ .vmem, ⟨74, _⟩ => ⟨S2000x1, .f32⟩
  | .local _ .vmem, ⟨75, _⟩ => ⟨S2000x40, .f32⟩
  | .local _ .vmem, ⟨76, _⟩ => ⟨S2000x40, .f32⟩
  | .local _ .vmem, ⟨77, _⟩ => ⟨S2000x40, .f32⟩
  | .local _ .vmem, ⟨78, _⟩ => ⟨S2000x40, .f32⟩
  | .local _ .vmem, ⟨79, _⟩ => ⟨S2000x40, .f32⟩
  | .local _ .vmem, ⟨80, _⟩ => ⟨S2000x40, .f32⟩
  | .local _ .vmem, ⟨81, _⟩ => ⟨S2000x1, .f32⟩
  | .local _ .vmem, ⟨82, _⟩ => ⟨S2000x1, .f32⟩
  | .local _ .vmem, ⟨83, _⟩ => ⟨S2000x40, .f32⟩
  | .local _ .vmem, ⟨84, _⟩ => ⟨S2000x40, .f32⟩
  | .local _ .vmem, ⟨85, _⟩ => ⟨S1x40, .f32⟩
  | .local _ .vmem, ⟨86, _⟩ => ⟨S2000x40, .f32⟩
  | .local _ .vmem, ⟨87, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_15 : Ref sig .tc := ⟨.hbm, 87, rfl⟩
abbrev main_v61 : Ref sig .tc := ⟨.hbm, 88, rfl⟩
abbrev main_v62 : Ref sig .tc := ⟨.hbm, 89, rfl⟩
abbrev main_c_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_c_18 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81_0 : Ref sig .tc := ⟨.hbm, 112, rfl⟩
abbrev main_v81_1 : Ref sig .tc := ⟨.hbm, 113, rfl⟩
abbrev main_c_20 : Ref sig .tc := ⟨.hbm, 114, rfl⟩
abbrev main_v82 : Ref sig .tc := ⟨.hbm, 115, rfl⟩
abbrev main_v83 : Ref sig .tc := ⟨.hbm, 116, rfl⟩
abbrev main_c_21 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_22 : Ref sig .tc := ⟨.hbm, 123, rfl⟩
abbrev main_v89 : Ref sig .tc := ⟨.hbm, 124, rfl⟩
abbrev main_v90 : Ref sig .tc := ⟨.hbm, 125, rfl⟩
abbrev main_c_23 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_24 : Ref sig .tc := ⟨.hbm, 132, rfl⟩
abbrev main_v96 : Ref sig .tc := ⟨.hbm, 133, rfl⟩
abbrev main_v97 : Ref sig .tc := ⟨.hbm, 134, rfl⟩
abbrev main_c_25 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_26 : Ref sig .tc := ⟨.hbm, 141, rfl⟩
abbrev main_v103 : Ref sig .tc := ⟨.hbm, 142, rfl⟩
abbrev main_v104 : Ref sig .tc := ⟨.hbm, 143, rfl⟩
abbrev main_c_27 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112_0 : Ref sig .tc := ⟨.hbm, 152, rfl⟩
abbrev main_v112_1 : Ref sig .tc := ⟨.hbm, 153, rfl⟩
abbrev main_cst_28 : Ref sig .tc := ⟨.hbm, 154, rfl⟩
abbrev main_v113 : Ref sig .tc := ⟨.hbm, 155, rfl⟩
abbrev main_v114 : Ref sig .tc := ⟨.hbm, 156, rfl⟩
abbrev main_c_29 : Ref sig .tc := ⟨.hbm, 157, rfl⟩
abbrev main_v115 : Ref sig .tc := ⟨.hbm, 158, rfl⟩
abbrev main_v116 : Ref sig .tc := ⟨.hbm, 159, rfl⟩
abbrev main_c_30 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_31 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_32 : Ref sig .tc := ⟨.hbm, 170, rfl⟩
abbrev main_v125 : Ref sig .tc := ⟨.hbm, 171, rfl⟩
abbrev main_v126 : Ref sig .tc := ⟨.hbm, 172, rfl⟩
abbrev main_c_33 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_34 : Ref sig .tc := ⟨.hbm, 180, rfl⟩
abbrev main_v133 : Ref sig .tc := ⟨.hbm, 181, rfl⟩
abbrev main_v134 : Ref sig .tc := ⟨.hbm, 182, rfl⟩
abbrev main_c_35 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_36 : Ref sig .tc := ⟨.hbm, 190, rfl⟩
abbrev main_v141 : Ref sig .tc := ⟨.hbm, 191, rfl⟩
abbrev main_v142 : Ref sig .tc := ⟨.hbm, 192, rfl⟩
abbrev main_c_37 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_38 : Ref sig .tc := ⟨.hbm, 200, rfl⟩
abbrev main_v149 : Ref sig .tc := ⟨.hbm, 201, rfl⟩
abbrev main_c_39 : Ref sig .tc := ⟨.hbm, 202, rfl⟩
abbrev main_v150 : Ref sig .tc := ⟨.hbm, 203, rfl⟩
abbrev main_v151 : Ref sig .tc := ⟨.hbm, 204, rfl⟩
abbrev main_c_40 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg3_1 : Ref sig .tc := ⟨.vmem, 58, rfl⟩
abbrev cc5_stg4_0 : Ref sig .tc := ⟨.vmem, 59, rfl⟩
abbrev cc5_stg4_1 : Ref sig .tc := ⟨.vmem, 60, rfl⟩
abbrev cc5_stg5_0 : Ref sig .tc := ⟨.vmem, 61, rfl⟩
abbrev cc5_stg5_1 : Ref sig .tc := ⟨.vmem, 62, rfl⟩
abbrev cc5_stg6_0 : Ref sig .tc := ⟨.vmem, 63, rfl⟩
abbrev cc5_stg6_1 : Ref sig .tc := ⟨.vmem, 64, rfl⟩
abbrev cc5_stg7_0 : Ref sig .tc := ⟨.vmem, 65, rfl⟩
abbrev cc5_stg7_1 : Ref sig .tc := ⟨.vmem, 66, rfl⟩
abbrev cc5_stg8_0 : Ref sig .tc := ⟨.vmem, 67, rfl⟩
abbrev cc5_stg8_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg3_1 : Ref sig .tc := ⟨.vmem, 76, rfl⟩
abbrev cc6_stg4_0 : Ref sig .tc := ⟨.vmem, 77, rfl⟩
abbrev cc6_stg4_1 : Ref sig .tc := ⟨.vmem, 78, rfl⟩
abbrev cc7_stg0_0 : Ref sig .tc := ⟨.vmem, 79, rfl⟩
abbrev cc7_stg0_1 : Ref sig .tc := ⟨.vmem, 80, rfl⟩
abbrev cc7_stg1_0 : Ref sig .tc := ⟨.vmem, 81, rfl⟩
abbrev cc7_stg1_1 : Ref sig .tc := ⟨.vmem, 82, rfl⟩
abbrev cc7_stg2_0 : Ref sig .tc := ⟨.vmem, 83, rfl⟩
abbrev cc7_stg2_1 : Ref sig .tc := ⟨.vmem, 84, rfl⟩
abbrev cc7_stg3_0 : Ref sig .tc := ⟨.vmem, 85, rfl⟩
abbrev cc7_stg4_0 : Ref sig .tc := ⟨.vmem, 86, rfl⟩
abbrev cc7_stg4_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem2_1 : DmaSem sig := 48
abbrev cc4_sem3_0 : DmaSem sig := 49
abbrev cc4_sem3_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem3_1 : DmaSem sig := 58
abbrev cc5_sem4_0 : DmaSem sig := 59
abbrev cc5_sem4_1 : DmaSem sig := 60
abbrev cc5_sem5_0 : DmaSem sig := 61
abbrev cc5_sem5_1 : DmaSem sig := 62
abbrev cc5_sem6_0 : DmaSem sig := 63
abbrev cc5_sem6_1 : DmaSem sig := 64
abbrev cc5_sem7_0 : DmaSem sig := 65
abbrev cc5_sem7_1 : DmaSem sig := 66
abbrev cc5_sem8_0 : DmaSem sig := 67
abbrev cc5_sem8_1 : DmaSem sig := 68
abbrev cc6_sem0_0 : DmaSem sig := 69
abbrev cc6_sem0_1 : DmaSem sig := 70
abbrev cc6_sem1_0 : DmaSem sig := 71
abbrev cc6_sem1_1 : DmaSem sig := 72
abbrev cc6_sem2_0 : DmaSem sig := 73
abbrev cc6_sem2_1 : DmaSem sig := 74
abbrev cc6_sem3_0 : DmaSem sig := 75
abbrev cc6_sem3_1 : DmaSem sig := 76
abbrev cc6_sem4_0 : DmaSem sig := 77
abbrev cc6_sem4_1 : DmaSem sig := 78
abbrev cc7_sem0_0 : DmaSem sig := 79
abbrev cc7_sem0_1 : DmaSem sig := 80
abbrev cc7_sem1_0 : DmaSem sig := 81
abbrev cc7_sem1_1 : DmaSem sig := 82
abbrev cc7_sem2_0 : DmaSem sig := 83
abbrev cc7_sem2_1 : DmaSem sig := 84
abbrev cc7_sem3_0 : DmaSem sig := 85
abbrev cc7_sem4_0 : DmaSem sig := 86
abbrev cc7_sem4_1 : DmaSem sig := 87

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![500], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x1 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S2000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![500], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x40 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  shapeCasts_S2000x128_S2000x128 : S2000x128.ShapeCasts S2000x128
  shapeCasts_S2000x1_S2000x1 : S2000x1.ShapeCasts S2000x1
  bcast_S_S100000 : S_.BroadcastsInDim S100000 (![] : Fin 0 → Fin S100000.rank)
  shapeCasts_S1000000x1_S1000000 : S1000000x1.ShapeCasts S1000000
  shapeCasts_S2000x256_S2000x256 : S2000x256.ShapeCasts S2000x256
  broadcasts_S2000x1_S2000x256 : S2000x1.Broadcasts S2000x256
  bcast_S_S100000x256 : S_.BroadcastsInDim S100000x256 (![] : Fin 0 → Fin S100000x256.rank)
  shapeCasts_S100000_S100000x1 : S100000.ShapeCasts S100000x1
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  bitsLt_bf16_f32 : FTy.bits .bf16 < FTy.bits .f32
  inb_S2000x40_S2000x40_0_0 : ∀ a, (![0, 0] : Fin 2 → Nat) a + S2000x40.size a ≤ S2000x40.size a
  h_S2000x40 : 0 < S2000x40.numel
  reduces_S2000x256_S2000 : S2000x256.Reduces [1] S2000
  shapeCasts_S2000x40_S2000x40 : S2000x40.ShapeCasts S2000x40
  broadcasts_S2000x1_S2000x40 : S2000x1.Broadcasts S2000x40
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  dot_S2000x128_S128x256_S2000x256_1_0_0_1_n_n_wf : DotDims.WF S2000x128 S128x256 S2000x256 [1] [0] [0] [1] [] []
  gather_S100000x128_S1000000x1_S1000000x128_1_0_n_n_0_1_1128_wf : GatherDims.WF S100000x128 S1000000x1 S1000000x128 [1] [0] [] [0] [] 1 ![1, 128]
  gather_S100000x1_S1000000x1_S1000000x1_1_0_n_n_0_1_11_wf : GatherDims.WF S100000x1 S1000000x1 S1000000x1 [1] [0] [] [0] [] 1 ![1, 1]
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S2000x256_S256x40_S2000x40_1_0_0_1_n_n_wf : DotDims.WF S2000x256 S256x40 S2000x40 [1] [0] [0] [1] [] []
  gather_S100000x40_S1000000x1_S1000000x40_1_0_n_n_0_1_140_wf : GatherDims.WF S100000x40 S1000000x1 S1000000x40 [1] [0] [] [0] [] 1 ![1, 40]
  scatter_S100000x40_S1000000x1_S1000000x40_1_0_0_1_wf : ScatterDims.WF S100000x40 S1000000x1 S1000000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S1000000x128.size a
  hwx1_0 : ∀ i : grid1.Coords, EltTy.bits .f32 = 32 ∨ (Rect.block (s := S1000000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S1000000x128.size a
  hwx1_1 : ∀ i : grid1.Coords, EltTy.bits .f32 = 32 ∨ (Rect.block (s := S1000000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S1000000x1.size a
  hwx1_2 : ∀ i : grid1.Coords, EltTy.bits .f32 = 32 ∨ (Rect.block (s := S1000000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S1000000x1.size a
  hwx1_3 : ∀ i : grid1.Coords, EltTy.bits .f32 = 32 ∨ (Rect.block (s := S1000000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S1000000x1.size a
  hwx1_4 : ∀ i : grid1.Coords, EltTy.bits .i32 = 32 ∨ (Rect.block (s := S1000000x1) S2000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S1000000x1.size a
  hwx1_5 : ∀ i : grid1.Coords, EltTy.bits .i32 = 32 ∨ (Rect.block (s := S1000000x1) S2000x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S1000000x1.size a
  hwx1_6 : ∀ i : grid1.Coords, EltTy.bits .f32 = 32 ∨ (Rect.block (s := S1000000x1) S2000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S1000000x1.size a
  hwx1_7 : ∀ i : grid1.Coords, EltTy.bits .f32 = 32 ∨ (Rect.block (s := S1000000x1) S2000x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S1000000x1.size a
  hwx1_8 : ∀ i : grid1.Coords, EltTy.bits .f32 = 32 ∨ (Rect.block (s := S1000000x1) S2000x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S1000000x1.size a
  hwx2_0 : ∀ i : grid2.Coords, EltTy.bits .f32 = 32 ∨ (Rect.block (s := S1000000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S1000000x1.size a
  hwx2_1 : ∀ i : grid2.Coords, EltTy.bits .f32 = 32 ∨ (Rect.block (s := S1000000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S1000000x1.size a
  hwx2_2 : ∀ i : grid2.Coords, EltTy.bits .f32 = 32 ∨ (Rect.block (s := S1000000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S1000000x256.size a
  hwx2_3 : ∀ i : grid2.Coords, EltTy.bits .f32 = 32 ∨ (Rect.block (s := S1000000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S1000000x256.size a
  hwx2_4 : ∀ i : grid2.Coords, EltTy.bits .f32 = 32 ∨ (Rect.block (s := S1000000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S100000x256.size a
  hwx3_4 : ∀ i : grid3.Coords, EltTy.bits .f32 = 32 ∨ (Rect.block (s := S100000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S1000000x256.size a
  hwx5_0 : ∀ i : grid5.Coords, EltTy.bits .f32 = 32 ∨ (Rect.block (s := S1000000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S1000000x256.size a
  hwx5_1 : ∀ i : grid5.Coords, EltTy.bits .f32 = 32 ∨ (Rect.block (s := S1000000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S1000000x1.size a
  hwx5_2 : ∀ i : grid5.Coords, EltTy.bits .f32 = 32 ∨ (Rect.block (s := S1000000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S1000000x1.size a
  hwx5_3 : ∀ i : grid5.Coords, EltTy.bits .f32 = 32 ∨ (Rect.block (s := S1000000x1) S2000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S1000000x1.size a
  hwx5_4 : ∀ i : grid5.Coords, EltTy.bits .i32 = 32 ∨ (Rect.block (s := S1000000x1) S2000x1.size (cc5_transform_4 i) (hinb5_4 i)).WholeWords (EltTy.packing .i32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S1000000x1.size a
  hwx5_5 : ∀ i : grid5.Coords, EltTy.bits .i32 = 32 ∨ (Rect.block (s := S1000000x1) S2000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x1.size a ≤ S1000000x1.size a
  hwx5_6 : ∀ i : grid5.Coords, EltTy.bits .f32 = 32 ∨ (Rect.block (s := S1000000x1) S2000x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x1.size a ≤ S1000000x1.size a
  hwx5_7 : ∀ i : grid5.Coords, EltTy.bits .f32 = 32 ∨ (Rect.block (s := S1000000x1) S2000x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x1.size a ≤ S1000000x1.size a
  hwx5_8 : ∀ i : grid5.Coords, EltTy.bits .f32 = 32 ∨ (Rect.block (s := S1000000x1) S2000x1.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1.size a ≤ S1000000x1.size a
  hwx6_0 : ∀ i : grid6.Coords, EltTy.bits .f32 = 32 ∨ (Rect.block (s := S1000000x1) S2000x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S1000000x1.size a
  hwx6_1 : ∀ i : grid6.Coords, EltTy.bits .f32 = 32 ∨ (Rect.block (s := S1000000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S1000000x1.size a
  hwx6_2 : ∀ i : grid6.Coords, EltTy.bits .f32 = 32 ∨ (Rect.block (s := S1000000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S1000000x40.size a
  hwx6_3 : ∀ i : grid6.Coords, EltTy.bits .f32 = 32 ∨ (Rect.block (s := S1000000x40) S2000x40.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x40.size a ≤ S1000000x40.size a
  hwx6_4 : ∀ i : grid6.Coords, EltTy.bits .f32 = 32 ∨ (Rect.block (s := S1000000x40) S2000x40.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S100000x40.size a
  hwx7_2 : ∀ i : grid7.Coords, EltTy.bits .f32 = 32 ∨ (Rect.block (s := S100000x40) S2000x40.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x40.size a ≤ S1x40.size a
  hwx7_3 : ∀ i : grid7.Coords, EltTy.bits .f32 = 32 ∨ (Rect.block (s := S1x40) S1x40.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x40.size a ≤ S100000x40.size a
  hwx7_4 : ∀ i : grid7.Coords, EltTy.bits .f32 = 32 ∨ (Rect.block (s := S100000x40) S2000x40.size (cc7_transform_4 i) (hinb7_4 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32_0) S2000x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32_1) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v52) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_0) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v68) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v76) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81_0) S2000x40.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81_1) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v88) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v109) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v110) S2000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v111) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v32_1) S2000x1.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v112_0) S2000x1.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v112_1) S2000x1.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v132) S2000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112_0) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v140) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v147) S2000x40.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v148) S2000x40.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v156) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v158) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81_0) S2000x40.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v159) S1x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v160) S2000x40.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S100000x256 : Shape := ⟨2, ![100000, 256]⟩
abbrev S1000000x256 : Shape := ⟨2, ![1000000, 256]⟩
abbrev S100000x1 : Shape := ⟨2, ![100000, 1]⟩
abbrev S1x256 : Shape := ⟨2, ![1, 256]⟩
abbrev S100000x40 : Shape := ⟨2, ![100000, 40]⟩
abbrev S1000000x40 : Shape := ⟨2, ![1000000, 40]⟩
abbrev S1x40 : Shape := ⟨2, ![1, 40]⟩

abbrev nBuf : Space → Nat
  | .hbm => 259
  | .vmem => 0
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S128x256, .f32⟩
  | 4 => ⟨S256, .f32⟩
  | 5 => ⟨S256x40, .f32⟩
  | 6 => ⟨S40, .f32⟩
  | 7 => ⟨S100000x128, .f32⟩
  | 8 => ⟨S_, .f32⟩
  | 9 => ⟨S100000, .f32⟩
  | 10 => ⟨S100000, .f32⟩
  | 11 => ⟨S_, .f32⟩
  | 12 => ⟨S100000, .f32⟩
  | 13 => ⟨S100000, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x128, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S1000000x128, .f32⟩
  | 33 => ⟨S_, .f32⟩
  | 34 => ⟨S1000000, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .i1⟩
  | 58 => ⟨S1000000, .i1⟩
  | 59 => ⟨S1000000, .i1⟩
  | 60 => ⟨S_, .f32⟩
  | 61 => ⟨S_, .f32⟩
  | 62 => ⟨S1000000, .f32⟩
  | 63 => ⟨S1000000, .f32⟩
  | 64 => ⟨S100000x256, .f32⟩
  | 65 => ⟨S_, .f32⟩
  | 66 => ⟨S100000, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000, .f32⟩
  | 89 => ⟨S1000000, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000, .f32⟩
  | 99 => ⟨S1000000, .f32⟩
  | 100 => ⟨S_, .f32⟩
  | 101 => ⟨S100000x256, .f32⟩
  | 102 => ⟨S1000000x1, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x256, .f32⟩
  | 112 => ⟨S1000000x256, .f32⟩
  | 113 => ⟨S1000000x256, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S100000x256, .f32⟩
  | 123 => ⟨S100000, .f32⟩
  | 124 => ⟨S100000x1, .f32⟩
  | 125 => ⟨S100000x256, .f32⟩
  | 126 => ⟨S100000x256, .f32⟩
  | 127 => ⟨S100000x256, .f32⟩
  | _ => ⟨S100000x128, .f32⟩

abbrev hbmTy0_1 (i : Nat) : BufTy := match i % 128 with
  | 0 => ⟨S1x256, .f32⟩
  | 1 => ⟨S100000x256, .f32⟩
  | 2 => ⟨S100000x256, .f32⟩
  | 3 => ⟨S_, .f32⟩
  | 4 => ⟨S100000x256, .f32⟩
  | 5 => ⟨S100000x256, .f32⟩
  | 6 => ⟨S100000x256, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x256, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x256, .f32⟩
  | 31 => ⟨S1000000x256, .f32⟩
  | 32 => ⟨S_, .f32⟩
  | 33 => ⟨S1000000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S1000000, .f32⟩
  | 54 => ⟨S_, .f32⟩
  | 55 => ⟨S1000000, .f32⟩
  | 56 => ⟨S1000000, .i1⟩
  | 57 => ⟨S1000000, .i1⟩
  | 58 => ⟨S1000000, .i1⟩
  | 59 => ⟨S1000000, .i1⟩
  | 60 => ⟨S_, .f32⟩
  | 61 => ⟨S_, .f32⟩
  | 62 => ⟨S1000000, .f32⟩
  | 63 => ⟨S1000000, .f32⟩
  | 64 => ⟨S100000x40, .f32⟩
  | 65 => ⟨S_, .f32⟩
  | 66 => ⟨S100000, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000, .f32⟩
  | 89 => ⟨S1000000, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000, .f32⟩
  | 99 => ⟨S1000000, .f32⟩
  | 100 => ⟨S_, .f32⟩
  | 101 => ⟨S100000x40, .f32⟩
  | 102 => ⟨S1000000x1, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x40, .f32⟩
  | 112 => ⟨S1000000x40, .f32⟩
  | 113 => ⟨S1000000x40, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S100000x40, .f32⟩
  | 123 => ⟨S100000, .f32⟩
  | 124 => ⟨S100000x1, .f32⟩
  | 125 => ⟨S100000x40, .f32⟩
  | 126 => ⟨S100000x40, .f32⟩
  | 127 => ⟨S100000x40, .f32⟩
  | _ => ⟨S100000x128, .f32⟩

abbrev hbmTy0_2 (i : Nat) : BufTy := match i % 128 with
  | 0 => ⟨S1x40, .f32⟩
  | 1 => ⟨S100000x40, .f32⟩
  | 2 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_c_19 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_cst : Ref sig .tc := ⟨.hbm, 131, rfl⟩
abbrev main_call2_v0 : Ref sig .tc := ⟨.hbm, 132, rfl⟩
abbrev main_v94 : Ref sig .tc := ⟨.hbm, 133, rfl⟩
abbrev main_call3_v0 : Ref sig .tc := ⟨.hbm, 134, rfl⟩
abbrev main_call3_cst : Ref sig .tc := ⟨.hbm, 135, rfl⟩
abbrev main_call3_v1 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_c_24 : Ref sig .tc := ⟨.hbm, 141, rfl⟩
abbrev main_v98 : Ref sig .tc := ⟨.hbm, 142, rfl⟩
abbrev main_v99 : Ref sig .tc := ⟨.hbm, 143, rfl⟩
abbrev main_c_25 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_26 : Ref sig .tc := ⟨.hbm, 150, rfl⟩
abbrev main_v105 : Ref sig .tc := ⟨.hbm, 151, rfl⟩
abbrev main_v106 : Ref sig .tc := ⟨.hbm, 152, rfl⟩
abbrev main_c_27 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_28 : Ref sig .tc := ⟨.hbm, 160, rfl⟩
abbrev main_v113 : Ref sig .tc := ⟨.hbm, 161, rfl⟩
abbrev main_c_29 : Ref sig .tc := ⟨.hbm, 162, rfl⟩
abbrev main_v114 : Ref sig .tc := ⟨.hbm, 163, rfl⟩
abbrev main_v115 : Ref sig .tc := ⟨.hbm, 164, rfl⟩
abbrev main_c_30 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_31 : Ref sig .tc := ⟨.hbm, 171, rfl⟩
abbrev main_v121 : Ref sig .tc := ⟨.hbm, 172, rfl⟩
abbrev main_v122 : Ref sig .tc := ⟨.hbm, 173, rfl⟩
abbrev main_c_32 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_33 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_34 : Ref sig .tc := ⟨.hbm, 188, rfl⟩
abbrev main_call4_v0 : Ref sig .tc := ⟨.hbm, 189, rfl⟩
abbrev main_call4_v1 : Ref sig .tc := ⟨.hbm, 190, rfl⟩
abbrev main_v135 : Ref sig .tc := ⟨.hbm, 191, rfl⟩
abbrev main_v136 : Ref sig .tc := ⟨.hbm, 192, rfl⟩
abbrev main_cst_35 : Ref sig .tc := ⟨.hbm, 193, rfl⟩
abbrev main_v137 : Ref sig .tc := ⟨.hbm, 194, rfl⟩
abbrev main_c_36 : Ref sig .tc := ⟨.hbm, 195, rfl⟩
abbrev main_v138 : Ref sig .tc := ⟨.hbm, 196, rfl⟩
abbrev main_v139 : Ref sig .tc := ⟨.hbm, 197, rfl⟩
abbrev main_c_37 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_38 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_c_39 : Ref sig .tc := ⟨.hbm, 208, rfl⟩
abbrev main_v148 : Ref sig .tc := ⟨.hbm, 209, rfl⟩
abbrev main_v149 : Ref sig .tc := ⟨.hbm, 210, rfl⟩
abbrev main_c_40 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_c_41 : Ref sig .tc := ⟨.hbm, 218, rfl⟩
abbrev main_v156 : Ref sig .tc := ⟨.hbm, 219, rfl⟩
abbrev main_v157 : Ref sig .tc := ⟨.hbm, 220, rfl⟩
abbrev main_c_42 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_43 : Ref sig .tc := ⟨.hbm, 228, rfl⟩
abbrev main_v164 : Ref sig .tc := ⟨.hbm, 229, rfl⟩
abbrev main_v165 : Ref sig .tc := ⟨.hbm, 230, rfl⟩
abbrev main_c_44 : Ref sig .tc := ⟨.hbm, 231, rfl⟩
abbrev main_v166 : Ref sig .tc := ⟨.hbm, 232, rfl⟩
abbrev main_v167 : Ref sig .tc := ⟨.hbm, 233, rfl⟩
abbrev main_c_45 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_c_46 : Ref sig .tc := ⟨.hbm, 242, rfl⟩
abbrev main_v175 : Ref sig .tc := ⟨.hbm, 243, rfl⟩
abbrev main_v176 : Ref sig .tc := ⟨.hbm, 244, rfl⟩
abbrev main_c_47 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S_S100000 : S_.BroadcastsInDim S100000 (![] : Fin 0 → Fin S100000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  bcast_S_S100000x256 : S_.BroadcastsInDim S100000x256 (![] : Fin 0 → Fin S100000x256.rank)
  bcast_S1000000x1_S1000000x256_0_1 : S1000000x1.BroadcastsInDim S1000000x256 (![0, 1] : Fin 2 → Fin S1000000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  reducesTo_S1000000x256_S1000000_d1 : S1000000x256.ReducesTo [1] S1000000
  bcast_S_S100000x40 : S_.BroadcastsInDim S100000x40 (![] : Fin 0 → Fin S100000x40.rank)
  bcast_S1000000x1_S1000000x40_0_1 : S1000000x1.BroadcastsInDim S1000000x40 (![0, 1] : Fin 2 → Fin S1000000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1000000x1_S1000000x128_1_0_n_n_0_1_1128_wf : GatherDims.WF S100000x128 S1000000x1 S1000000x128 [1] [0] [] [0] [] 1 ![1, 128]
  gather_S100000_S1000000x1_S1000000_n_0_n_n_0_1_1_wf : GatherDims.WF S100000 S1000000x1 S1000000 [] [0] [] [0] [] 1 ![1]
  dot_S100000x128_S128x256_S100000x256_1_0_0_1_n_n_wf : DotDims.WF S100000x128 S128x256 S100000x256 [1] [0] [0] [1] [] []
  scatter_S100000_S1000000x1_S1000000_n_0_0_1_wf : ScatterDims.WF S100000 S1000000x1 S1000000 [] [0] [0] 1
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x40_S100000x40_1_0_0_1_n_n_wf : DotDims.WF S100000x256 S256x40 S100000x40 [1] [0] [0] [1] [] []
  gather_S100000x40_S1000000x1_S1000000x40_1_0_n_n_0_1_140_wf : GatherDims.WF S100000x40 S1000000x1 S1000000x40 [1] [0] [] [0] [] 1 ![1, 40]
  scatter_S100000x40_S1000000x1_S1000000x40_1_0_0_1_wf : ScatterDims.WF S100000x40 S1000000x1 S1000000x40 [1] [0] [0] 1

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf

class Facts : Prop extends Facts₀ where

variable [Facts]
-- ==== Proof.ResultRun.lean ====
/-
  The idealized kernel's run with its RESULT named. The program is eight pallas_call regions among stretches of host
  operations; the generated frame certificate folds the TensorCore's buffer contents through them, boundary by
  boundary, from the launch memory to the contents `Gen.W14` at the return, and proves that every weakly fair execution
  ends with every unscoped buffer at those contents. Read at the result buffer `main_v160` (and at the seven argument
  buffers, which no region and no host operation writes) this is the run the value claim needs: the result array IS
  `Gen.W14 m ρ c main_v160`, a term the other modules evaluate region by region.
-/
import proofs.«160892_j10402410791110_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and the argument arrays as launched. -/
theorem run : θ_run defs (onTc (τ := τ) (main (F := F))) ⟨m, fun _ => 0, ρ⟩ (fun r => ∀ c : Dev nD,
      r.2.mem ((c.tc : Thread nD τ).loc main_v160) = W14 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v160 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.ResultRun

end
-- ==== Proof.MaskGate.lean ====
/-
  The float mask and the boolean mask. The kernel keeps its edge mask as a float, the indicator `1.0` / `0.0` of a
  condition, combines two masks by MULTIPLYING the indicators, and then keeps an edge where the product exceeds `0.5`;
  the reference combines the two conditions with a boolean `and`. Over the extended reals the indicators are `1` and
  `0`, their product is `1` exactly when both conditions hold, and `1 > 1/2 > 0`: the two selections agree.
-/
import Idealize.ShloMosaic.PureOps.Ideal
import Idealize.ShloMosaic.PureOps.Ideal.Laws

noncomputable section

namespace Cert.MaskGate

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `0.5` denotes `1/2`. -/
theorem ofBits_half : Ideal.ofBits .f32 0x3F000000#32 = ((1 / 2 : ℝ) : EReal) := by
  simp [Ideal.ofBits, Ideal.ieee, -EReal.coe_mul]; norm_num

/-- The float indicator of a bit: `1.0` where it is set, `0.0` where it is not. -/
def ind (b : BitVec 1) : EReal :=
  Scalar.select b (Ideal.ofBits .f32 0x3F800000#32) (Ideal.ofBits .f32 0x00000000#32)

theorem ind_one : ind 1#1 = 1 := by
  unfold ind; rw [show Scalar.select 1#1 (Ideal.ofBits .f32 0x3F800000#32) (Ideal.ofBits .f32 0x00000000#32)
    = Ideal.ofBits .f32 0x3F800000#32 from if_pos rfl, ofBits_one]

theorem ind_zero : ind 0#1 = 0 := by
  unfold ind; rw [show Scalar.select 0#1 (Ideal.ofBits .f32 0x3F800000#32) (Ideal.ofBits .f32 0x00000000#32)
    = Ideal.ofBits .f32 0x00000000#32 from if_neg (by decide), Ideal.ofBits_zero_f32]

theorem half_lt_one : (((1 / 2 : ℝ) : EReal)) < 1 := by
  rw [show (1 : EReal) = ((1 : ℝ) : EReal) from rfl, EReal.coe_lt_coe_iff]; norm_num

theorem not_half_lt_zero : ¬ (((1 / 2 : ℝ) : EReal)) < 0 := by
  rw [show (0 : EReal) = ((0 : ℝ) : EReal) from rfl, EReal.coe_lt_coe_iff]; norm_num

/-- The product of two indicators exceeds `0.5` exactly when both bits are set. -/
theorem gate_and (b b' : BitVec 1) :
    Ideal.cmp .ogt (ind b * ind b') (Ideal.ofBits .f32 0x3F000000#32) = IntOp.andi b b' := by
  rw [ofBits_half]
  rcases BitVec.eq_zero_or_eq_one b with h | h <;> rcases BitVec.eq_zero_or_eq_one b' with h' | h' <;> subst h <;> subst h'
  · rw [ind_zero, zero_mul]; unfold Ideal.cmp; rw [decide_eq_false not_half_lt_zero]; decide
  · rw [ind_zero, zero_mul]; unfold Ideal.cmp; rw [decide_eq_false not_half_lt_zero]; decide
  · rw [ind_zero, mul_zero]; unfold Ideal.cmp; rw [decide_eq_false not_half_lt_zero]; decide
  · rw [ind_one, one_mul]; unfold Ideal.cmp; rw [decide_eq_true half_lt_one]; decide

/-- Against the all-ones mask `1.0` the product is the indicator itself. -/
theorem gate_one (b : BitVec 1) :
    Ideal.cmp .ogt (ind b * Ideal.ofBits .f32 0x3F800000#32) (Ideal.ofBits .f32 0x3F000000#32) = b := by
  rw [ofBits_half, ofBits_one, mul_one]
  rcases BitVec.eq_zero_or_eq_one b with h | h <;> subst h
  · rw [ind_zero]; unfold Ideal.cmp; rw [decide_eq_false not_half_lt_zero]; decide
  · rw [ind_one]; unfold Ideal.cmp; rw [decide_eq_true half_lt_one]; decide

/-! ## The attention kernel's three scalar functions

An edge's cosine similarity `sim`: the dot product of its two endpoint rows over the product of their norms. Its float
mask `maskOf`: the indicator of "similar enough and not a self loop", times the mask handed in from the previous
layer. Its weight `weightOf`: the similarity where the mask exceeds `0.5`, else `0.0`. -/

/-- The cosine similarity of two rows of length `n` with norms `nr`, `nc`. -/
def sim (n : ℕ) (fr fc : Fin n → EReal) (nr nc : EReal) : EReal := Ideal.div (∑ k, fr k * fc k) (nr * nc)

/-- The condition of an edge: its similarity is at least the threshold `0.1` and its endpoints differ. -/
def keep (s : EReal) (r cc : BitVec 32) : BitVec 1 :=
  IntOp.andi (FloatOps.cmpf (F := Ideal) .oge s (Ideal.ofBits .f32 0x3DCCCCCD#32)) (IntOp.cmpi .ne r cc)

/-- The float mask: the indicator of the condition, times the previous mask `pm`. -/
def maskOf (s : EReal) (r cc : BitVec 32) (pm : EReal) : EReal :=
  Scalar.select (IntOp.andi (FloatOps.cmpf (F := Ideal) .oge s (Ideal.ofBits .f32 0x3DCCCCCD#32)) (IntOp.cmpi .ne r cc))
    (Ideal.ofBits .f32 0x3F800000#32) (Ideal.ofBits .f32 0x00000000#32) * pm

/-- The weight: the similarity where the mask exceeds `0.5`, else `0.0`. -/
def weightOf (s mk : EReal) : EReal :=
  Scalar.select (FloatOps.cmpf (F := Ideal) .ogt mk (Ideal.ofBits .f32 0x3F000000#32)) s (Ideal.ofBits .f32 0x00000000#32)

theorem maskOf_eq (s : EReal) (r cc : BitVec 32) (pm : EReal) : maskOf s r cc pm = ind (keep s r cc) * pm := rfl

/-- First layer (the previous mask is all ones): the mask is the condition's indicator, and the weight is the
    similarity exactly on the edges that meet the condition. -/
theorem mask_first (s : EReal) (r cc : BitVec 32) :
    maskOf s r cc (Ideal.ofBits .f32 0x3F800000#32) = ind (keep s r cc) := by
  rw [maskOf_eq, ofBits_one, mul_one]

theorem weight_first (s : EReal) (r cc : BitVec 32) :
    weightOf s (maskOf s r cc (Ideal.ofBits .f32 0x3F800000#32))
      = Scalar.select (keep s r cc) s (Ideal.ofBits .f32 0x00000000#32) := by
  unfold weightOf
  rw [maskOf_eq, show FloatOps.cmpf (F := Ideal) .ogt (ind (keep s r cc) * Ideal.ofBits .f32 0x3F800000#32)
    (Ideal.ofBits .f32 0x3F000000#32) = keep s r cc from gate_one _]

/-- Second layer (the previous mask is the first layer's indicator): the weight is the similarity exactly on the edges
    that meet this layer's condition AND met the first layer's. -/
theorem weight_second (s : EReal) (r cc : BitVec 32) (b' : BitVec 1) :
    weightOf s (maskOf s r cc (ind b'))
      = Scalar.select (IntOp.andi (keep s r cc) b') s (Ideal.ofBits .f32 0x00000000#32) := by
  unfold weightOf
  rw [maskOf_eq, show FloatOps.cmpf (F := Ideal) .ogt (ind (keep s r cc) * ind b')
    (Ideal.ofBits .f32 0x3F000000#32) = IntOp.andi (keep s r cc) b' from gate_and _ _]

end Cert.MaskGate

end
-- ==== Proof.RegionFacts.lean ====
/-
  What the eight regions compute, as one record of twelve facts: for each output array of each region, its entry at
  an index as an explicit expression in the entries of the arrays the region finds at its entry (`V`, arbitrary). The
  modules that prove these facts read them off the regions' bodies and blocks; the modules that compare the kernel's
  program with the reference take the record as a hypothesis, so the two halves meet only here.
-/
import proofs.«160892_j10402410791110_2_alg».proof.Proof.Gen.KernelIdeal.Frame
import proofs.«160892_j10402410791110_2_alg».proof.Proof.MaskGate
import Idealize.ShloMosaic.Lib.ValueIdx

noncomputable section

namespace Cert.Bridge

open Idealize.ShloMosaic Idealize.ShloMosaic.TcCoe Idealize.SL.Sem Idealize.ShloMosaic.ValueIdx
open Idealize.ShloMosaic.Pipeline (Dat Cfg Window)
open Cert.KernelIdeal Cert.KernelIdeal.Gen
open Cert.MaskGate

/-- Entry `(i, j)` of a matrix product `x · w`: the sum over the shared axis. -/
def dotAt {a n b : ℕ} (x : (⟨2, ![a, n]⟩ : Shape).Idx → EReal) (w : (⟨2, ![n, b]⟩ : Shape).Idx → EReal) (i : Fin a) (j : Fin b) : EReal :=
  ∑ k : Fin n, x (ix2 i k) * w (ix2 k j)

/-- The clamped Euclidean norm of row `i`: `max (sqrt (∑ k, x[i,k]²)) ε`. -/
def normAt {a n : ℕ} (x : (⟨2, ![a, n]⟩ : Shape).Idx → EReal) (i : Fin a) : EReal :=
  max (Ideal.sqrt (∑ k : Fin n, x (ix2 i k) * x (ix2 i k))) (Ideal.ofBits .f32 0x322BCC77#32)

/-- Entry `(e, j)` of the weighted neighbour rows: `((d[row] · w) · d[col]) · h[col]`, the three factors columns. -/
def weightedAt {E F : ℕ} (dr w dc : (⟨2, ![E, 1]⟩ : Shape).Idx → EReal) (h : (⟨2, ![E, F]⟩ : Shape).Idx → EReal) (e : Fin E) (j : Fin F) : EReal :=
  ((dr (ix2 e (0 : Fin 1)) * w (ix2 e (0 : Fin 1))) * dc (ix2 e (0 : Fin 1))) * h (ix2 e j)

/-- Entry `(i, j)` of a layer's combination: aggregated row, plus the self loop `d² · h`, plus the bias. -/
def combineAt {N F : ℕ} (agg : (⟨2, ![N, F]⟩ : Shape).Idx → EReal) (dsq : (⟨2, ![N, 1]⟩ : Shape).Idx → EReal)
    (h : (⟨2, ![N, F]⟩ : Shape).Idx → EReal) (bias : (⟨2, ![1, F]⟩ : Shape).Idx → EReal) (i : Fin N) (j : Fin F) : EReal :=
  (agg (ix2 i j) + dsq (ix2 i (0 : Fin 1)) * h (ix2 i j)) + bias (ix2 (0 : Fin 1) j)

/-- The similarity of edge `e` as region 1 computes it from the arrays `V` it finds. -/
def simAt1 (V : (c : Dev nD) → (b : Ref sig .tc) → Buf (Elt Ideal) ((c : Thread nD τ).loc b)) (c : Dev nD) (e : Fin 1000000) : EReal :=
  sim 128 (fun k => (V c main_v8 : S1000000x128.Idx → EReal) (ix2 e k)) (fun k => (V c main_v15 : S1000000x128.Idx → EReal) (ix2 e k))
    ((V c main_v22 : S1000000x1.Idx → EReal) (ix2 e (0 : Fin 1))) ((V c main_v29 : S1000000x1.Idx → EReal) (ix2 e (0 : Fin 1)))

/-- The float mask of edge `e` as region 1 computes it. -/
def maskAt1 (V : (c : Dev nD) → (b : Ref sig .tc) → Buf (Elt Ideal) ((c : Thread nD τ).loc b)) (c : Dev nD) (e : Fin 1000000) : EReal :=
  maskOf (simAt1 V c e) ((V c main_v30 : S1000000x1.Idx → BitVec 32) (ix2 e (0 : Fin 1)))
    ((V c main_v31 : S1000000x1.Idx → BitVec 32) (ix2 e (0 : Fin 1))) ((V c main_v1 : S1000000x1.Idx → EReal) (ix2 e (0 : Fin 1)))

/-- The similarity of edge `e` as region 5 computes it (rows of length 256). -/
def simAt5 (V : (c : Dev nD) → (b : Ref sig .tc) → Buf (Elt Ideal) ((c : Thread nD τ).loc b)) (c : Dev nD) (e : Fin 1000000) : EReal :=
  sim 256 (fun k => (V c main_v88 : S1000000x256.Idx → EReal) (ix2 e k)) (fun k => (V c main_v95 : S1000000x256.Idx → EReal) (ix2 e k))
    ((V c main_v102 : S1000000x1.Idx → EReal) (ix2 e (0 : Fin 1))) ((V c main_v109 : S1000000x1.Idx → EReal) (ix2 e (0 : Fin 1)))

/-- The float mask of edge `e` as region 5 computes it: the previous mask is the first layer's. -/
def maskAt5 (V : (c : Dev nD) → (b : Ref sig .tc) → Buf (Elt Ideal) ((c : Thread nD τ).loc b)) (c : Dev nD) (e : Fin 1000000) : EReal :=
  maskOf (simAt5 V c e) ((V c main_v110 : S1000000x1.Idx → BitVec 32) (ix2 e (0 : Fin 1)))
    ((V c main_v111 : S1000000x1.Idx → BitVec 32) (ix2 e (0 : Fin 1))) ((V c main_v32_1 : S1000000x1.Idx → EReal) (ix2 e (0 : Fin 1)))

/-- The twelve output arrays of the eight regions, entry by entry. -/
structure Regions : Prop where
  prod0 : ∀ (V : (c : Dev nD) → (b : Ref sig .tc) → Buf (Elt Ideal) ((c : Thread nD τ).loc b)) (c : Dev nD) (i : Fin 100000) (j : Fin 256),
    (dat0 (F := Ideal) V c).arrAt 2 cfg0.N (ix2 i j)
      = dotAt (V c main_arg0 : S100000x128.Idx → EReal) (V c main_arg3 : S128x256.Idx → EReal) i j
  nrm0 : ∀ (V : (c : Dev nD) → (b : Ref sig .tc) → Buf (Elt Ideal) ((c : Thread nD τ).loc b)) (c : Dev nD) (i : Fin 100000),
    (dat0 (F := Ideal) V c).arrAt 3 cfg0.N (ix2 i (0 : Fin 1)) = normAt (V c main_arg0 : S100000x128.Idx → EReal) i
  att1w : ∀ (V : (c : Dev nD) → (b : Ref sig .tc) → Buf (Elt Ideal) ((c : Thread nD τ).loc b)) (c : Dev nD) (e : Fin 1000000),
    (dat1 (F := Ideal) V c).arrAt 7 cfg1.N (ix2 e (0 : Fin 1)) = weightOf (simAt1 V c e) (maskAt1 V c e)
  att1m : ∀ (V : (c : Dev nD) → (b : Ref sig .tc) → Buf (Elt Ideal) ((c : Thread nD τ).loc b)) (c : Dev nD) (e : Fin 1000000),
    (dat1 (F := Ideal) V c).arrAt 8 cfg1.N (ix2 e (0 : Fin 1)) = maskAt1 V c e
  wt2 : ∀ (V : (c : Dev nD) → (b : Ref sig .tc) → Buf (Elt Ideal) ((c : Thread nD τ).loc b)) (c : Dev nD) (e : Fin 1000000) (j : Fin 256),
    (dat2 (F := Ideal) V c).arrAt 4 cfg2.N (ix2 e j)
      = weightedAt (V c main_v52 : S1000000x1.Idx → EReal) (V c main_v32_0 : S1000000x1.Idx → EReal)
          (V c main_v60 : S1000000x1.Idx → EReal) (V c main_v67 : S1000000x256.Idx → EReal) e j
  comb3 : ∀ (V : (c : Dev nD) → (b : Ref sig .tc) → Buf (Elt Ideal) ((c : Thread nD τ).loc b)) (c : Dev nD) (i : Fin 100000) (j : Fin 256),
    (dat3 (F := Ideal) V c).arrAt 4 cfg3.N (ix2 i j)
      = max (combineAt (V c main_v76 : S100000x256.Idx → EReal) (V c main_v78 : S100000x1.Idx → EReal)
          (V c main_v0_0 : S100000x256.Idx → EReal) (V c main_v79 : S1x256.Idx → EReal) i j) (Ideal.ofBits .f32 0x00000000#32)
  prod4 : ∀ (V : (c : Dev nD) → (b : Ref sig .tc) → Buf (Elt Ideal) ((c : Thread nD τ).loc b)) (c : Dev nD) (i : Fin 100000) (j : Fin 40),
    (dat4 (F := Ideal) V c).arrAt 2 cfg4.N (ix2 i j)
      = dotAt (V c main_v80 : S100000x256.Idx → EReal) (V c main_arg5 : S256x40.Idx → EReal) i j
  nrm4 : ∀ (V : (c : Dev nD) → (b : Ref sig .tc) → Buf (Elt Ideal) ((c : Thread nD τ).loc b)) (c : Dev nD) (i : Fin 100000),
    (dat4 (F := Ideal) V c).arrAt 3 cfg4.N (ix2 i (0 : Fin 1)) = normAt (V c main_v80 : S100000x256.Idx → EReal) i
  att5w : ∀ (V : (c : Dev nD) → (b : Ref sig .tc) → Buf (Elt Ideal) ((c : Thread nD τ).loc b)) (c : Dev nD) (e : Fin 1000000),
    (dat5 (F := Ideal) V c).arrAt 7 cfg5.N (ix2 e (0 : Fin 1)) = weightOf (simAt5 V c e) (maskAt5 V c e)
  att5m : ∀ (V : (c : Dev nD) → (b : Ref sig .tc) → Buf (Elt Ideal) ((c : Thread nD τ).loc b)) (c : Dev nD) (e : Fin 1000000),
    (dat5 (F := Ideal) V c).arrAt 8 cfg5.N (ix2 e (0 : Fin 1)) = maskAt5 V c e
  wt6 : ∀ (V : (c : Dev nD) → (b : Ref sig .tc) → Buf (Elt Ideal) ((c : Thread nD τ).loc b)) (c : Dev nD) (e : Fin 1000000) (j : Fin 40),
    (dat6 (F := Ideal) V c).arrAt 4 cfg6.N (ix2 e j)
      = weightedAt (V c main_v132 : S1000000x1.Idx → EReal) (V c main_v112_0 : S1000000x1.Idx → EReal)
          (V c main_v140 : S1000000x1.Idx → EReal) (V c main_v147 : S1000000x40.Idx → EReal) e j
  comb7 : ∀ (V : (c : Dev nD) → (b : Ref sig .tc) → Buf (Elt Ideal) ((c : Thread nD τ).loc b)) (c : Dev nD) (i : Fin 100000) (j : Fin 40),
    (dat7 (F := Ideal) V c).arrAt 4 cfg7.N (ix2 i j)
      = combineAt (V c main_v156 : S100000x40.Idx → EReal) (V c main_v158 : S100000x1.Idx → EReal)
          (V c main_v81_0 : S100000x40.Idx → EReal) (V c main_v159 : S1x40.Idx → EReal) i j

end Cert.Bridge

end
-- ==== Proof.Region0.lean ====
import proofs.«160892_j10402410791110_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx Cert.KernelIdeal Cert.KernelIdeal.Gen
open Idealize.ShloMosaic.Pipeline (Dat Cfg Window)

/-! # Region 0: a matrix product and the row norms of its left factor

The region walks the 100000 rows of the left array in 50 blocks of 2000 rows. At each block it multiplies the block
(2000 x 128) by the whole right array (128 x 256) into a zero accumulator and writes the 2000 x 256 product to the same
rows of the first output; and it writes, to the same rows of the second output (one column), the square root of each
row's sum of squares of the left block, bounded below by a fixed positive literal. Read at the extended reals every
operation is the exact one, so after the 50 write-backs

* the first output at (i, j) is the sum over k < 128 of left (i, k) * right (k, j), and
* the second output at (i, 0) is max (sqrt (sum over k < 128 of left (i, k) * left (i, k))) literal.

The file first reads the body's two stored values at an index of a block, then carries the blocks to the arrays: each
write-back is the block of ONE function of the input arrays, and the 50 blocks cover the output. -/

namespace Cert.KernelIdeal.Region0

variable (V : (c : Dev nD) → (b : Ref sig .tc) → Buf (Elt Ideal) ((c : Thread nD τ).loc b))

/-! ## The body's arithmetic at an index of a block -/

theorem zero_offsets : (![0, 0] : Fin 2 → Nat) = fun _ => 0 := funext fun a => by fin_cases a <;> rfl

/-- A vector of length a viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product of a 2000 x 128 block with the 128 x 256 matrix, into a zero accumulator, at (p, q): the sum over the
    contracted axis. -/
theorem product_block (x0 : Vec Ideal S2000x128 .f32) (x1 : Vec Ideal S128x256 .f32) (p : Fin 2000) (q : Fin 256) :
    k0_pay1 x0 x1 (ix2 p q) = ∑ k : Fin 128, x0 (ix2 p k) * x1 (ix2 k q) := by
  unfold k0_pay1
  show FloatOps.matmul (F := Ideal) (φ₁ := .f32) (φ₂ := .f32) dot_S2000x128_S128x256_S2000x256_1_0_0_1_n_n (some .fp32) x0 x1 (constant S2000x256 .f32 0x00000000#32) (ix2 p q) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- The index over row p of the block with lane k put back is (p, k). -/
theorem lift_row (p : Fin 2000) (k : Fin 128) : reduces_S2000x128_S2000.lift (ix1 p) k = ix2 p k :=
  funext fun a => Fin.ext (by
    match a with
    | ⟨0, _⟩ => rfl
    | ⟨1, _⟩ => rfl)

/-- The lane sum of squares of a 2000 x 128 block, as a column, square-rooted and bounded below by the literal, at (p, u). -/
theorem norm_block (x0 : Vec Ideal S2000x128 .f32) (p : Fin 2000) (u : Fin 1) :
    k0_pay2 x0 (ix2 p u) = max (Ideal.sqrt (∑ k : Fin 128, x0 (ix2 p k) * x0 (ix2 p k))) (Ideal.ofBits .f32 0x322BCC77#32) := by
  unfold k0_pay2
  show max (Ideal.sqrt (shapeCast S2000x1 (multiReduction (F := Ideal) .add [1] S2000 (mulf (F := Ideal) (φ := .f32) x0 x0) 0x00000000#32 reduces_S2000x128_S2000 (.inl rfl) rfl) shapeCasts_S2000_S2000x1 (ix2 p u))) (Ideal.ofBits .f32 0x322BCC77#32) = _
  rw [shapeCast_a_a1_apply]
  refine congrArg (fun z => max (Ideal.sqrt z) _) ?_
  refine (Ideal.multiReduction_add_single (mulf (F := Ideal) (φ := .f32) x0 x0) 0x00000000#32 reduces_S2000x128_S2000 (.inl rfl) rfl (ix1 p)).trans ?_
  show ∑ k : Fin 128, mulf (F := Ideal) (φ := .f32) x0 x0 (reduces_S2000x128_S2000.lift (ix1 p) k) = _
  refine Finset.sum_congr rfl fun k _ => ?_
  rw [lift_row]
  rfl

/-! ## From blocks to the arrays -/

/-- The product array: row i of the left array against column j of the right one. -/
def productArr (a : S100000x128.Idx → EReal) (b : S128x256.Idx → EReal) : S100000x256.Idx → EReal :=
  fun i => ∑ k : Fin 128, a (ix2 (⟨(i 0).val, idx2_lt0 i⟩ : Fin 100000) k) * b (ix2 k (⟨(i 1).val, idx2_lt1 i⟩ : Fin 256))

/-- The row-norm array: the square root of each row's sum of squares, bounded below by the literal. -/
def normArr (a : S100000x128.Idx → EReal) : S100000x1.Idx → EReal :=
  fun i => max (Ideal.sqrt (∑ k : Fin 128, a (ix2 (⟨(i 0).val, idx2_lt0 i⟩ : Fin 100000) k) * a (ix2 (⟨(i 0).val, idx2_lt0 i⟩ : Fin 100000) k)))
    (Ideal.ofBits .f32 0x322BCC77#32)

/-- The index maps over the grid: the row-blocked windows sit at block (t, 0), the whole matrix at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block product at y is the product array at i when the block's rows are the left array's rows at i's row and
    the matrix is the right array. -/
theorem product_point (x0 : Vec Ideal S2000x128 .f32) (x1 : Vec Ideal S128x256 .f32)
    (a : S100000x128.Idx → EReal) (b : S128x256.Idx → EReal) (y : S2000x256.Idx) (i : S100000x256.Idx)
    (h0 : ∀ k : Fin 128, x0 (ix2 (⟨(y 0).val, idx2_lt0 y⟩ : Fin 2000) k) = a (ix2 (⟨(i 0).val, idx2_lt0 i⟩ : Fin 100000) k))
    (h1 : ∀ k : Fin 128, x1 (ix2 k (⟨(y 1).val, idx2_lt1 y⟩ : Fin 256)) = b (ix2 k (⟨(i 1).val, idx2_lt1 i⟩ : Fin 256))) :
    k0_pay1 x0 x1 y = productArr a b i := by
  have ey : y = ix2 (⟨(y 0).val, idx2_lt0 y⟩ : Fin 2000) (⟨(y 1).val, idx2_lt1 y⟩ : Fin 256) := eq_ix2 y
  rw [ey, product_block]
  exact Finset.sum_congr rfl fun k _ => by rw [h0 k, h1 k]

/-- The block norm at y is the norm array at i when the block's rows are the array's rows at i's row. -/
theorem norm_point (x0 : Vec Ideal S2000x128 .f32) (a : S100000x128.Idx → EReal) (y : S2000x1.Idx) (i : S100000x1.Idx)
    (h0 : ∀ k : Fin 128, x0 (ix2 (⟨(y 0).val, idx2_lt0 y⟩ : Fin 2000) k) = a (ix2 (⟨(i 0).val, idx2_lt0 i⟩ : Fin 100000) k)) :
    k0_pay2 x0 y = normArr a i := by
  have ey : y = ix2 (⟨(y 0).val, idx2_lt0 y⟩ : Fin 2000) (⟨(y 1).val, idx2_lt1 y⟩ : Fin 1) := eq_ix2 y
  rw [ey, norm_block]
  exact congrArg (fun z => max (Ideal.sqrt z) _) (Finset.sum_congr rfl fun k _ => by rw [h0 k])

/-- Row p of the left window's block at point t is row 2000 t + p of the left array. -/
theorem left_block_row (c : Dev nD) (t : Fin cfg0.N) (p : Fin 2000) (r : Fin 100000) (hr : r.val = t.val * 2000 + p.val) (k : Fin 128) :
    iblk0 V c 0 t (ix2 p k) = V c main_arg0 (ix2 r k) := by
  obtain ⟨e00, e01, -, -, -, -, -, -⟩ := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The right window's block at every point is the right array. -/
theorem right_block (c : Dev nD) (t : Fin cfg0.N) (k : Fin 128) (q : Fin 256) :
    iblk0 V c 1 t (ix2 k q) = V c main_arg3 (ix2 k q) := by
  obtain ⟨-, -, e10, e11, -, -, -, -⟩ := index_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- What point t writes back through the product window is block t of the product array. -/
theorem flushed_product (c : Dev nD) (t : Fin cfg0.N) :
    (dat0 (F := Ideal) V c).flushed 2 t = ((cfg0.win 2).blk t).view.read (Elt Ideal) (productArr (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x256) zero_offsets]
  obtain ⟨-, -, -, -, e20, e21, -, -⟩ := index_facts t
  funext y
  show k0_pay1 (iblk0 V c 0 t) (iblk0 V c 1 t) y = productArr (V c main_arg0) (V c main_arg3) (((cfg0.win 2).blk t).view.emb y)
  refine product_point _ _ _ _ y _ (fun k => ?_) (fun k => ?_)
  · refine left_block_row V c t _ _ ?_ k
    show win0_2.index t (0 : Fin 2) * 2000 + 1 * (y 0).val = t.val * 2000 + (y 0).val
    omega
  · refine (right_block V c t k _).trans (congrArg (fun z => V c main_arg3 (ix2 k z)) (Fin.ext ?_))
    show (y 1).val = win0_2.index t (1 : Fin 2) * 256 + 1 * (y 1).val
    omega

/-- What point t writes back through the norm window is block t of the row-norm array. -/
theorem flushed_norm (c : Dev nD) (t : Fin cfg0.N) :
    (dat0 (F := Ideal) V c).flushed 3 t = ((cfg0.win 3).blk t).view.read (Elt Ideal) (normArr (V c main_arg0)) := by
  show (cfg0.win 3).cut (grid0.coords t) ((dat0 V c).after 3 t) = _
  rw [after0_3]
  unfold out0_3
  rw [View.canon_unit_zero zero_offsets]
  simp only [View.ld_unit_zero (S := S2000x128) zero_offsets]
  obtain ⟨-, -, -, -, -, -, e30, e31⟩ := index_facts t
  funext y
  show k0_pay2 (iblk0 V c 0 t) y = normArr (V c main_arg0) (((cfg0.win 3).blk t).view.emb y)
  refine norm_point _ _ y _ (fun k => ?_)
  refine left_block_row V c t _ _ ?_ k
  show win0_3.index t (0 : Fin 2) * 2000 + 1 * (y 0).val = t.val * 2000 + (y 0).val
  omega

/-- An index of the product array is in point t's block iff each coordinate is in the block's range on its axis. -/
theorem mem_product_block (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0_0).slice (win0_2.rect t)).set ↔ _
  rw [View.set_slice_whole, Rect.mem_set_unit]
  exact Iff.rfl

/-- An index of the norm array is in point t's block iff each coordinate is in the block's range on its axis. -/
theorem mem_norm_block (t : Fin cfg0.N) (i : S100000x1.Idx) :
    i ∈ ((cfg0.win 3).blk t).view.set ↔ ∀ a : Fin 2, win0_3.index t a * S2000x1.size a ≤ (i a).val ∧ (i a).val < win0_3.index t a * S2000x1.size a + S2000x1.size a := by
  show i ∈ ((View.whole main_v0_1).slice (win0_3.rect t)).set ↔ _
  rw [View.set_slice_whole, Rect.mem_set_unit]
  exact Iff.rfl

/-- Row r of the product array is written back by point r / 2000. -/
theorem cover_product (i : S100000x256.Idx) :
    ∃ t : Fin cfg0.N, (cfg0.win 2).flush t = true ∧ i ∈ ((cfg0.win 2).blk t).view.set := by
  have hN : cfg0.N = 50 := N_0
  have hi0 : (i 0).val < 100000 := idx2_lt0 i
  have hi1 : (i 1).val < 256 := idx2_lt1 i
  have ht : (i 0).val / 2000 < cfg0.N := by rw [hN]; omega
  obtain ⟨-, -, -, -, e20, e21, -, -⟩ := index_facts ⟨(i 0).val / 2000, ht⟩
  refine ⟨⟨(i 0).val / 2000, ht⟩, flush0_2 _, ?_⟩
  rw [mem_product_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e21]; omega

/-- Row r of the norm array is written back by point r / 2000. -/
theorem cover_norm (i : S100000x1.Idx) :
    ∃ t : Fin cfg0.N, (cfg0.win 3).flush t = true ∧ i ∈ ((cfg0.win 3).blk t).view.set := by
  have hN : cfg0.N = 50 := N_0
  have hi0 : (i 0).val < 100000 := idx2_lt0 i
  have hi1 : (i 1).val < 1 := idx2_lt1 i
  have ht : (i 0).val / 2000 < cfg0.N := by rw [hN]; omega
  obtain ⟨-, -, -, -, -, -, e30, e31⟩ := index_facts ⟨(i 0).val / 2000, ht⟩
  refine ⟨⟨(i 0).val / 2000, ht⟩, flush0_3 _, ?_⟩
  rw [mem_norm_block]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 1 ≤ (i 1).val ∧ (i 1).val < win0_3.index ⟨(i 0).val / 2000, ht⟩ (1 : Fin 2) * 1 + 1
    rw [e31]; omega

/-- After the pipeline the first output array is the product array of the two input arrays. -/
theorem product_array (c : Dev nD) :
    (dat0 (F := Ideal) V c).arrAt 2 cfg0.N = productArr (V c main_arg0) (V c main_arg3) :=
  (dat0 (F := Ideal) V c).arrAt_eq_of_cover 2 (productArr (V c main_arg0) (V c main_arg3)) (fun t _ => flushed_product V c t) cover_product

/-- After the pipeline the second output array is the row-norm array of the left input array. -/
theorem norm_array (c : Dev nD) :
    (dat0 (F := Ideal) V c).arrAt 3 cfg0.N = normArr (V c main_arg0) :=
  (dat0 (F := Ideal) V c).arrAt_eq_of_cover 3 (normArr (V c main_arg0)) (fun t _ => flushed_norm V c t) cover_norm

/-- The product array at (i, j). -/
theorem productArr_apply (a : S100000x128.Idx → EReal) (b : S128x256.Idx → EReal) (i : Fin 100000) (j : Fin 256) :
    productArr a b (ix2 i j) = ∑ k : Fin 128, a (ix2 i k) * b (ix2 k j) := rfl

/-- The row-norm array at (i, 0). -/
theorem normArr_apply (a : S100000x128.Idx → EReal) (i : Fin 100000) (u : Fin 1) :
    normArr a (ix2 i u) = max (Ideal.sqrt (∑ k : Fin 128, a (ix2 i k) * a (ix2 i k))) (Ideal.ofBits .f32 0x322BCC77#32) := rfl

/-- Entry (i, j) of the first output array: row i of the left array against column j of the right one. The input arrays
    enter as the functions a, b they are as the region finds them. -/
theorem matmul_final (c : Dev nD) (a : S100000x128.Idx → EReal) (b : S128x256.Idx → EReal)
    (ha : V c main_arg0 = a) (hb : V c main_arg3 = b) (i : Fin 100000) (j : Fin 256) :
    (Gen.dat0 (F := Ideal) V c).arrAt 2 cfg0.N (ix2 i j) = ∑ k : Fin 128, a (ix2 i k) * b (ix2 k j) := by
  subst ha hb
  rw [product_array]
  rfl

/-- Entry (i, 0) of the second output array: the norm of row i of the left array, bounded below by the literal. -/
theorem norm_final (c : Dev nD) (a : S100000x128.Idx → EReal) (ha : V c main_arg0 = a) (i : Fin 100000) :
    (Gen.dat0 (F := Ideal) V c).arrAt 3 cfg0.N (ix2 i (0 : Fin 1))
      = max (Ideal.sqrt (∑ k : Fin 128, a (ix2 i k) * a (ix2 i k))) (Ideal.ofBits .f32 0x322BCC77#32) := by
  subst ha
  rw [norm_array]
  rfl

end Cert.KernelIdeal.Region0

end
-- ==== Proof.Region1.lean ====
import proofs.«160892_j10402410791110_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

/-! # Region 1: the per-edge attention weights

For every edge `e` (a row of the `[1000000, ·]` arrays) the region computes, from the two gathered feature rows
`x e`, `y e` (128 columns), their two norms `nr e`, `nc e`, the edge's two end points `r e`, `cc e` and the
previous mask `pm e`:

* the similarity `sim e = (∑ k, x e k * y e k) / (nr e * nc e)`;
* the mask `mask e = (if sim e ≥ 0.1 and r e ≠ cc e then 1 else 0) * pm e`;
* the weight `weight e = if mask e > 0.5 then sim e else 0`.

The grid has 500 points; point `t` handles the edges `2000 t … 2000 t + 1999`. First the body's payloads are read
at an index of a block (over arbitrary blocks), then each input block is read as rows of its array, then the blocks
written back are assembled into the two output arrays. The comparisons and the selection are left as the operations
the program applies: they are not interpreted here. -/

set_option maxRecDepth 16384

noncomputable section

open Idealize.ShloMosaic Idealize.ShloMosaic.TcCoe Idealize.SL.Sem Idealize.ShloMosaic.ValueIdx
open Cert.KernelIdeal Cert.KernelIdeal.Gen
open Idealize.ShloMosaic.Pipeline (Dat Cfg Window)

namespace Cert.KernelIdeal.Region1

/-! ## The three scalar functions -/

/-- The similarity of one edge: the inner product of its two feature rows over the product of their norms. -/
def sim (n : ℕ) (fr fc : Fin n → EReal) (nr nc : EReal) : EReal :=
  Ideal.div (∑ k, fr k * fc k) (nr * nc)

/-- The mask of one edge: one where the similarity is at least 0.1 and the end points differ, zero elsewhere,
    times the previous mask. -/
def maskOf (s : EReal) (r cc : BitVec 32) (pm : EReal) : EReal :=
  Scalar.select (IntOp.andi (FloatOps.cmpf (F := Ideal) .oge s (Ideal.ofBits .f32 0x3DCCCCCD#32)) (IntOp.cmpi .ne r cc))
    (Ideal.ofBits .f32 0x3F800000#32) (Ideal.ofBits .f32 0x00000000#32) * pm

/-- The weight of one edge: the similarity where the mask exceeds 0.5, zero elsewhere. -/
def weightOf (s mk : EReal) : EReal :=
  Scalar.select (FloatOps.cmpf (F := Ideal) .ogt mk (Ideal.ofBits .f32 0x3F000000#32)) s (Ideal.ofBits .f32 0x00000000#32)

/-! ## The payloads at an index -/

theorem andi_apply {s : Shape} {w : ℕ} (x y : IVec s w) (i : s.Idx) : andi x y i = IntOp.andi (x i) (y i) := rfl
theorem cmpi_apply {s : Shape} {w : ℕ} (p : CmpIPredicate) (x y : IVec s w) (i : s.Idx) :
    cmpi p x y i = IntOp.cmpi p (x i) (y i) := rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The similarity payload at row `r`: the row sum of the product of the two feature blocks over the product of
    the two norm blocks. -/
theorem pay1_apply (x0 x1 : Vec Ideal S2000x128 .f32) (x2 x3 : Vec Ideal S2000x1 .f32) (r : Fin 2000) (u : Fin 1) :
    k1_pay1 (F := Ideal) x0 x1 x2 x3 (ix2 r u)
      = sim 128 (fun k => x0 (ix2 r k)) (fun k => x1 (ix2 r k)) (x2 (ix2 r u)) (x3 (ix2 r u)) := by
  unfold k1_pay1 sim
  simp only [shapeCast_self]
  rw [divf_apply, mulf_apply, shapeCast_a_a1_apply]
  refine congrArg (fun z => Ideal.div z _) ?_
  refine (Ideal.multiReduction_add_single (mulf x0 x1) 0x00000000#32 reduces_S2000x128_S2000 (.inl rfl) rfl (ix1 r)).trans ?_
  refine Finset.sum_congr rfl fun (k : Fin 128) _ => ?_
  have hl : reduces_S2000x128_S2000.lift (ix1 r) k = ix2 r k := by
    funext a; apply Fin.ext
    match a with
    | ⟨0, _⟩ => rfl
    | ⟨1, _⟩ => rfl
  exact congrArg (fun i : S2000x128.Idx => x0 i * x1 i) hl

/-- The mask payload at row `r`. -/
theorem pay2_apply (x0 x1 : Vec Ideal S2000x128 .f32) (x2 x3 : Vec Ideal S2000x1 .f32) (x4 x5 : Vec Ideal S2000x1 .i32)
    (x6 : Vec Ideal S2000x1 .f32) (r : Fin 2000) (u : Fin 1) :
    k1_pay2 (F := Ideal) x0 x1 x2 x3 x4 x5 x6 (ix2 r u)
      = maskOf (sim 128 (fun k => x0 (ix2 r k)) (fun k => x1 (ix2 r k)) (x2 (ix2 r u)) (x3 (ix2 r u)))
          (x4 (ix2 r u)) (x5 (ix2 r u)) (x6 (ix2 r u)) := by
  unfold k1_pay2 maskOf
  simp only [shapeCast_self]
  rw [mulf_apply, select_apply, andi_apply, cmpf_apply, cmpi_apply, pay1_apply]
  rfl

/-- The weight payload at row `r`. -/
theorem pay3_apply (x0 x1 : Vec Ideal S2000x128 .f32) (x2 x3 : Vec Ideal S2000x1 .f32) (x4 x5 : Vec Ideal S2000x1 .i32)
    (x6 : Vec Ideal S2000x1 .f32) (r : Fin 2000) (u : Fin 1) :
    k1_pay3 (F := Ideal) x0 x1 x2 x3 x4 x5 x6 (ix2 r u)
      = weightOf (sim 128 (fun k => x0 (ix2 r k)) (fun k => x1 (ix2 r k)) (x2 (ix2 r u)) (x3 (ix2 r u)))
          (maskOf (sim 128 (fun k => x0 (ix2 r k)) (fun k => x1 (ix2 r k)) (x2 (ix2 r u)) (x3 (ix2 r u)))
            (x4 (ix2 r u)) (x5 (ix2 r u)) (x6 (ix2 r u))) := by
  unfold k1_pay3 weightOf
  rw [select_apply, cmpf_apply, pay2_apply, pay1_apply]
  rfl

/-! ## From blocks to the arrays -/

section Blocks

variable (V : (c : Dev nD) → (b : Ref sig .tc) → Buf (Elt Ideal) ((c : Thread nD τ).loc b))

/-- The similarity of edge `e`, from the region's input arrays. -/
def simAt (c : Dev nD) (e : Fin 1000000) : EReal :=
  sim 128 (fun k => (V c main_v8 : S1000000x128.Idx → EReal) (ix2 e k)) (fun k => (V c main_v15 : S1000000x128.Idx → EReal) (ix2 e k))
    ((V c main_v22 : S1000000x1.Idx → EReal) (ix2 e (0 : Fin 1))) ((V c main_v29 : S1000000x1.Idx → EReal) (ix2 e (0 : Fin 1)))

/-- The mask of edge `e`, from the region's input arrays. -/
def maskAt (c : Dev nD) (e : Fin 1000000) : EReal :=
  maskOf (simAt V c e) ((V c main_v30 : S1000000x1.Idx → BitVec 32) (ix2 e (0 : Fin 1)))
    ((V c main_v31 : S1000000x1.Idx → BitVec 32) (ix2 e (0 : Fin 1))) ((V c main_v1 : S1000000x1.Idx → EReal) (ix2 e (0 : Fin 1)))

/-- The weight of edge `e`, from the region's input arrays. -/
def weightAt (c : Dev nD) (e : Fin 1000000) : EReal := weightOf (simAt V c e) (maskAt V c e)

/-- The mask array and the weight array, as functions of the array index. -/
def maskArr (c : Dev nD) : S1000000x1.Idx → EReal := fun i => maskAt V c (i 0)
def weightArr (c : Dev nD) : S1000000x1.Idx → EReal := fun i => weightAt V c (i 0)

example : Pipeline.arrRef spec1 0 = main_v8 := rfl
example : Pipeline.arrRef spec1 1 = main_v15 := rfl
example : Pipeline.arrRef spec1 2 = main_v22 := rfl
example : Pipeline.arrRef spec1 3 = main_v29 := rfl
example : Pipeline.arrRef spec1 4 = main_v30 := rfl
example : Pipeline.arrRef spec1 5 = main_v31 := rfl
example : Pipeline.arrRef spec1 6 = main_v1 := rfl
example : Pipeline.arrRef spec1 7 = main_v32_0 := rfl
example : Pipeline.arrRef spec1 8 = main_v32_1 := rfl

theorem hz : (![0, 0] : Fin 2 → Nat) = fun _ => 0 := funext fun a => by fin_cases a <;> rfl

/-- The index maps, decided over the grid: at point `t` every window's block is row block `t`, column block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-! ### Each input block as rows of its array: row `r` of point `t`'s block is row `2000 t + r` -/

theorem blk0 (c : Dev nD) (t : Fin cfg1.N) (r : Fin 2000) (k : Fin 128) (e : Fin 1000000) (he : e.val = t.val * 2000 + r.val) :
    (iblk1 (F := Ideal) V c 0 t : Vec Ideal S2000x128 .f32) (ix2 r k) = (V c main_v8 : S1000000x128.Idx → EReal) (ix2 e k) := by
  obtain ⟨⟨h0, h1⟩, -⟩ := idx_facts t
  show (V c main_v8 : S1000000x128.Idx → EReal) (((cfg1.win 0).blk t).view.emb (ix2 r k)) = _
  refine congrArg _ (funext fun a => Fin.ext ?_)
  match a with
  | ⟨0, _⟩ => show win1_0.index t (0 : Fin 2) * 2000 + 1 * r.val = e.val; rw [h0, he]; omega
  | ⟨1, _⟩ => show win1_0.index t (1 : Fin 2) * 128 + 1 * k.val = k.val; rw [h1]; omega

theorem blk1 (c : Dev nD) (t : Fin cfg1.N) (r : Fin 2000) (k : Fin 128) (e : Fin 1000000) (he : e.val = t.val * 2000 + r.val) :
    (iblk1 (F := Ideal) V c 1 t : Vec Ideal S2000x128 .f32) (ix2 r k) = (V c main_v15 : S1000000x128.Idx → EReal) (ix2 e k) := by
  obtain ⟨-, ⟨h0, h1⟩, -⟩ := idx_facts t
  show (V c main_v15 : S1000000x128.Idx → EReal) (((cfg1.win 1).blk t).view.emb (ix2 r k)) = _
  refine congrArg _ (funext fun a => Fin.ext ?_)
  match a with
  | ⟨0, _⟩ => show win1_1.index t (0 : Fin 2) * 2000 + 1 * r.val = e.val; rw [h0, he]; omega
  | ⟨1, _⟩ => show win1_1.index t (1 : Fin 2) * 128 + 1 * k.val = k.val; rw [h1]; omega

theorem blk2 (c : Dev nD) (t : Fin cfg1.N) (r : Fin 2000) (u : Fin 1) (e : Fin 1000000) (he : e.val = t.val * 2000 + r.val) :
    (iblk1 (F := Ideal) V c 2 t : Vec Ideal S2000x1 .f32) (ix2 r u) = (V c main_v22 : S1000000x1.Idx → EReal) (ix2 e (0 : Fin 1)) := by
  obtain ⟨-, -, ⟨h0, h1⟩, -⟩ := idx_facts t
  show (V c main_v22 : S1000000x1.Idx → EReal) (((cfg1.win 2).blk t).view.emb (ix2 r u)) = _
  refine congrArg _ (funext fun a => Fin.ext ?_)
  have hu : u.val = 0 := by omega
  match a with
  | ⟨0, _⟩ => show win1_2.index t (0 : Fin 2) * 2000 + 1 * r.val = e.val; rw [h0, he]; omega
  | ⟨1, _⟩ => show win1_2.index t (1 : Fin 2) * 1 + 1 * u.val = 0; rw [h1, hu]

theorem blk3 (c : Dev nD) (t : Fin cfg1.N) (r : Fin 2000) (u : Fin 1) (e : Fin 1000000) (he : e.val = t.val * 2000 + r.val) :
    (iblk1 (F := Ideal) V c 3 t : Vec Ideal S2000x1 .f32) (ix2 r u) = (V c main_v29 : S1000000x1.Idx → EReal) (ix2 e (0 : Fin 1)) := by
  obtain ⟨-, -, -, ⟨h0, h1⟩, -⟩ := idx_facts t
  show (V c main_v29 : S1000000x1.Idx → EReal) (((cfg1.win 3).blk t).view.emb (ix2 r u)) = _
  refine congrArg _ (funext fun a => Fin.ext ?_)
  have hu : u.val = 0 := by omega
  match a with
  | ⟨0, _⟩ => show win1_3.index t (0 : Fin 2) * 2000 + 1 * r.val = e.val; rw [h0, he]; omega
  | ⟨1, _⟩ => show win1_3.index t (1 : Fin 2) * 1 + 1 * u.val = 0; rw [h1, hu]

theorem blk4 (c : Dev nD) (t : Fin cfg1.N) (r : Fin 2000) (u : Fin 1) (e : Fin 1000000) (he : e.val = t.val * 2000 + r.val) :
    (iblk1 (F := Ideal) V c 4 t : Vec Ideal S2000x1 .i32) (ix2 r u) = (V c main_v30 : S1000000x1.Idx → BitVec 32) (ix2 e (0 : Fin 1)) := by
  obtain ⟨-, -, -, -, ⟨h0, h1⟩, -⟩ := idx_facts t
  show (V c main_v30 : S1000000x1.Idx → BitVec 32) (((cfg1.win 4).blk t).view.emb (ix2 r u)) = _
  refine congrArg _ (funext fun a => Fin.ext ?_)
  have hu : u.val = 0 := by omega
  match a with
  | ⟨0, _⟩ => show win1_4.index t (0 : Fin 2) * 2000 + 1 * r.val = e.val; rw [h0, he]; omega
  | ⟨1, _⟩ => show win1_4.index t (1 : Fin 2) * 1 + 1 * u.val = 0; rw [h1, hu]

theorem blk5 (c : Dev nD) (t : Fin cfg1.N) (r : Fin 2000) (u : Fin 1) (e : Fin 1000000) (he : e.val = t.val * 2000 + r.val) :
    (iblk1 (F := Ideal) V c 5 t : Vec Ideal S2000x1 .i32) (ix2 r u) = (V c main_v31 : S1000000x1.Idx → BitVec 32) (ix2 e (0 : Fin 1)) := by
  obtain ⟨-, -, -, -, -, ⟨h0, h1⟩, -⟩ := idx_facts t
  show (V c main_v31 : S1000000x1.Idx → BitVec 32) (((cfg1.win 5).blk t).view.emb (ix2 r u)) = _
  refine congrArg _ (funext fun a => Fin.ext ?_)
  have hu : u.val = 0 := by omega
  match a with
  | ⟨0, _⟩ => show win1_5.index t (0 : Fin 2) * 2000 + 1 * r.val = e.val; rw [h0, he]; omega
  | ⟨1, _⟩ => show win1_5.index t (1 : Fin 2) * 1 + 1 * u.val = 0; rw [h1, hu]

theorem blk6 (c : Dev nD) (t : Fin cfg1.N) (r : Fin 2000) (u : Fin 1) (e : Fin 1000000) (he : e.val = t.val * 2000 + r.val) :
    (iblk1 (F := Ideal) V c 6 t : Vec Ideal S2000x1 .f32) (ix2 r u) = (V c main_v1 : S1000000x1.Idx → EReal) (ix2 e (0 : Fin 1)) := by
  obtain ⟨-, -, -, -, -, -, ⟨h0, h1⟩, -⟩ := idx_facts t
  show (V c main_v1 : S1000000x1.Idx → EReal) (((cfg1.win 6).blk t).view.emb (ix2 r u)) = _
  refine congrArg _ (funext fun a => Fin.ext ?_)
  have hu : u.val = 0 := by omega
  match a with
  | ⟨0, _⟩ => show win1_6.index t (0 : Fin 2) * 2000 + 1 * r.val = e.val; rw [h0, he]; omega
  | ⟨1, _⟩ => show win1_6.index t (1 : Fin 2) * 1 + 1 * u.val = 0; rw [h1, hu]

/-- The three scalar functions of the blocks at row `r` of point `t` are those of the arrays at edge `2000 t + r`. -/
theorem sim_block (c : Dev nD) (t : Fin cfg1.N) (r : Fin 2000) (u : Fin 1) (e : Fin 1000000) (he : e.val = t.val * 2000 + r.val) :
    sim 128 (fun k => (iblk1 (F := Ideal) V c 0 t : Vec Ideal S2000x128 .f32) (ix2 r k))
        (fun k => (iblk1 (F := Ideal) V c 1 t : Vec Ideal S2000x128 .f32) (ix2 r k))
        ((iblk1 (F := Ideal) V c 2 t : Vec Ideal S2000x1 .f32) (ix2 r u))
        ((iblk1 (F := Ideal) V c 3 t : Vec Ideal S2000x1 .f32) (ix2 r u)) = simAt V c e :=
  congr (congr (congr (congrArg (sim 128) (funext fun k => blk0 V c t r k e he)) (funext fun k => blk1 V c t r k e he))
    (blk2 V c t r u e he)) (blk3 V c t r u e he)

theorem mask_block (c : Dev nD) (t : Fin cfg1.N) (r : Fin 2000) (u : Fin 1) (e : Fin 1000000) (he : e.val = t.val * 2000 + r.val) :
    k1_pay2 (F := Ideal) (iblk1 V c 0 t) (iblk1 V c 1 t) (iblk1 V c 2 t) (iblk1 V c 3 t) (iblk1 V c 4 t)
      (iblk1 V c 5 t) (iblk1 V c 6 t) (ix2 r u) = maskArr V c (ix2 e (0 : Fin 1)) :=
  (pay2_apply _ _ _ _ _ _ _ r u).trans
    (congr (congr (congr (congrArg maskOf (sim_block V c t r u e he)) (blk4 V c t r u e he)) (blk5 V c t r u e he))
      (blk6 V c t r u e he))

theorem weight_block (c : Dev nD) (t : Fin cfg1.N) (r : Fin 2000) (u : Fin 1) (e : Fin 1000000) (he : e.val = t.val * 2000 + r.val) :
    k1_pay3 (F := Ideal) (iblk1 V c 0 t) (iblk1 V c 1 t) (iblk1 V c 2 t) (iblk1 V c 3 t) (iblk1 V c 4 t)
      (iblk1 V c 5 t) (iblk1 V c 6 t) (ix2 r u) = weightArr V c (ix2 e (0 : Fin 1)) :=
  (pay3_apply _ _ _ _ _ _ _ r u).trans
    (congr (congrArg weightOf (sim_block V c t r u e he))
      (congr (congr (congr (congrArg maskOf (sim_block V c t r u e he)) (blk4 V c t r u e he)) (blk5 V c t r u e he))
        (blk6 V c t r u e he)))

/-! ### The mask array (output window 8) -/

/-- An index of the mask array lies in point `t`'s block iff each coordinate is in the block's range on its axis. -/
theorem mem_blk8 (t : Fin cfg1.N) (i : S1000000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v32_1).slice (win1_8.rect t)).set ↔ _
  rw [View.set_slice_whole, Rect.mem_set_unit]
  exact Iff.rfl

/-- Every edge's entry of the mask array is written back: edge `e` by the point `e / 2000`. -/
theorem cover8 (i : S1000000x1.Idx) : ∃ t : Fin cfg1.N, (cfg1.win 8).flush t = true ∧ i ∈ ((cfg1.win 8).blk t).view.set := by
  have hN : cfg1.N = 500 := N_1
  have hi0 : (i 0).val < 1000000 := (i 0).isLt
  have hi1 : (i 1).val < 1 := (i 1).isLt
  have hlt : (i 0).val / 2000 < cfg1.N := by rw [hN]; omega
  refine ⟨⟨(i 0).val / 2000, hlt⟩, flush1_8 _, ?_⟩
  rw [mem_blk8]
  obtain ⟨-, -, -, -, -, -, -, -, h0, h1⟩ := idx_facts ⟨(i 0).val / 2000, hlt⟩
  intro a
  match a with
  | ⟨0, _⟩ =>
    show win1_8.index ⟨(i 0).val / 2000, hlt⟩ (0 : Fin 2) * 2000 ≤ (i 0).val ∧ (i 0).val < win1_8.index ⟨(i 0).val / 2000, hlt⟩ (0 : Fin 2) * 2000 + 2000
    rw [h0]; show (i 0).val / 2000 * 2000 ≤ (i 0).val ∧ (i 0).val < (i 0).val / 2000 * 2000 + 2000; omega
  | ⟨1, _⟩ =>
    show win1_8.index ⟨(i 0).val / 2000, hlt⟩ (1 : Fin 2) * 1 ≤ (i 1).val ∧ (i 1).val < win1_8.index ⟨(i 0).val / 2000, hlt⟩ (1 : Fin 2) * 1 + 1
    rw [h1]; omega

/-- What point `t` writes back to the mask array is block `t` of `maskArr`. -/
theorem flushed_mask (c : Dev nD) (t : Fin cfg1.N) :
    (dat1 (F := Ideal) V c).flushed 8 t = ((cfg1.win 8).blk t).view.read (Elt Ideal) (maskArr V c) := by
  show (cfg1.win 8).cut (grid1.coords t) ((dat1 (F := Ideal) V c).after 8 t) = _
  rw [after1_8]
  unfold out1_8
  rw [View.canon_unit_zero hz]
  simp only [View.ld_unit_zero (S := S2000x128) hz, View.ld_unit_zero (S := S2000x1) hz]
  funext j
  obtain ⟨r, u, rfl⟩ : ∃ (r : Fin 2000) (u : Fin 1), j = ix2 r u := ⟨j 0, j 1, eq_ix2 j⟩
  have hN : cfg1.N = 500 := N_1
  have ht : t.val < cfg1.N := t.isLt
  have hr : r.val < 2000 := r.isLt
  have hu : u.val = 0 := by omega
  have ht' : t.val < 500 := Nat.lt_of_lt_of_eq ht hN
  have hlt : t.val * 2000 + r.val < 1000000 := by omega
  obtain ⟨-, -, -, -, -, -, -, -, h0, h1⟩ := idx_facts t
  have hemb : ((cfg1.win 8).blk t).view.emb (ix2 r u) = ix2 (⟨t.val * 2000 + r.val, hlt⟩ : Fin 1000000) (0 : Fin 1) := by
    funext a; apply Fin.ext
    match a with
    | ⟨0, _⟩ => show win1_8.index t (0 : Fin 2) * 2000 + 1 * r.val = t.val * 2000 + r.val; rw [h0]; omega
    | ⟨1, _⟩ => show win1_8.index t (1 : Fin 2) * 1 + 1 * u.val = 0; rw [h1, hu]
  show k1_pay2 (F := Ideal) (iblk1 V c 0 t) (iblk1 V c 1 t) (iblk1 V c 2 t) (iblk1 V c 3 t) (iblk1 V c 4 t) (iblk1 V c 5 t) (iblk1 V c 6 t) (ix2 r u)
    = maskArr V c (((cfg1.win 8).blk t).view.emb (ix2 r u))
  rw [hemb]
  exact mask_block V c t r u ⟨t.val * 2000 + r.val, hlt⟩ rfl

/-- THE MASK ARRAY after the region: `maskAt` of the region's input arrays, edge by edge. -/
theorem mask_array (c : Dev nD) : (dat1 (F := Ideal) V c).arrAt 8 cfg1.N = maskArr V c :=
  (dat1 (F := Ideal) V c).arrAt_eq_of_cover 8 (maskArr V c) (fun t _ => flushed_mask V c t) cover8

theorem mask_final (c : Dev nD) (e : Fin 1000000) :
    (dat1 (F := Ideal) V c).arrAt 8 cfg1.N (ix2 e (0 : Fin 1)) = maskAt V c e :=
  congrFun (mask_array V c) (ix2 e (0 : Fin 1))

/-! ### The weight array (output window 7) -/

/-- An index of the weight array lies in point `t`'s block iff each coordinate is in the block's range on its axis. -/
theorem mem_blk7 (t : Fin cfg1.N) (i : S1000000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v32_0).slice (win1_7.rect t)).set ↔ _
  rw [View.set_slice_whole, Rect.mem_set_unit]
  exact Iff.rfl

/-- Every edge's entry of the weight array is written back: edge `e` by the point `e / 2000`. -/
theorem cover7 (i : S1000000x1.Idx) : ∃ t : Fin cfg1.N, (cfg1.win 7).flush t = true ∧ i ∈ ((cfg1.win 7).blk t).view.set := by
  have hN : cfg1.N = 500 := N_1
  have hi0 : (i 0).val < 1000000 := (i 0).isLt
  have hi1 : (i 1).val < 1 := (i 1).isLt
  have hlt : (i 0).val / 2000 < cfg1.N := by rw [hN]; omega
  refine ⟨⟨(i 0).val / 2000, hlt⟩, flush1_7 _, ?_⟩
  rw [mem_blk7]
  obtain ⟨-, -, -, -, -, -, -, ⟨h0, h1⟩, -⟩ := idx_facts ⟨(i 0).val / 2000, hlt⟩
  intro a
  match a with
  | ⟨0, _⟩ =>
    show win1_7.index ⟨(i 0).val / 2000, hlt⟩ (0 : Fin 2) * 2000 ≤ (i 0).val ∧ (i 0).val < win1_7.index ⟨(i 0).val / 2000, hlt⟩ (0 : Fin 2) * 2000 + 2000
    rw [h0]; show (i 0).val / 2000 * 2000 ≤ (i 0).val ∧ (i 0).val < (i 0).val / 2000 * 2000 + 2000; omega
  | ⟨1, _⟩ =>
    show win1_7.index ⟨(i 0).val / 2000, hlt⟩ (1 : Fin 2) * 1 ≤ (i 1).val ∧ (i 1).val < win1_7.index ⟨(i 0).val / 2000, hlt⟩ (1 : Fin 2) * 1 + 1
    rw [h1]; omega

/-- What point `t` writes back to the weight array is block `t` of `weightArr`. -/
theorem flushed_weight (c : Dev nD) (t : Fin cfg1.N) :
    (dat1 (F := Ideal) V c).flushed 7 t = ((cfg1.win 7).blk t).view.read (Elt Ideal) (weightArr V c) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S2000x1) hz]
  funext j
  obtain ⟨r, u, rfl⟩ : ∃ (r : Fin 2000) (u : Fin 1), j = ix2 r u := ⟨j 0, j 1, eq_ix2 j⟩
  have hN : cfg1.N = 500 := N_1
  have ht : t.val < cfg1.N := t.isLt
  have hr : r.val < 2000 := r.isLt
  have hu : u.val = 0 := by omega
  have ht' : t.val < 500 := Nat.lt_of_lt_of_eq ht hN
  have hlt : t.val * 2000 + r.val < 1000000 := by omega
  obtain ⟨-, -, -, -, -, -, -, ⟨h0, h1⟩, -⟩ := idx_facts t
  have hemb : ((cfg1.win 7).blk t).view.emb (ix2 r u) = ix2 (⟨t.val * 2000 + r.val, hlt⟩ : Fin 1000000) (0 : Fin 1) := by
    funext a; apply Fin.ext
    match a with
    | ⟨0, _⟩ => show win1_7.index t (0 : Fin 2) * 2000 + 1 * r.val = t.val * 2000 + r.val; rw [h0]; omega
    | ⟨1, _⟩ => show win1_7.index t (1 : Fin 2) * 1 + 1 * u.val = 0; rw [h1, hu]
  show k1_pay3 (F := Ideal) (iblk1 V c 0 t) (iblk1 V c 1 t) (iblk1 V c 2 t) (iblk1 V c 3 t) (iblk1 V c 4 t) (iblk1 V c 5 t) (iblk1 V c 6 t) (ix2 r u)
    = weightArr V c (((cfg1.win 7).blk t).view.emb (ix2 r u))
  rw [hemb]
  exact weight_block V c t r u ⟨t.val * 2000 + r.val, hlt⟩ rfl

/-- THE WEIGHT ARRAY after the region: `weightAt` of the region's input arrays, edge by edge. -/
theorem weight_array (c : Dev nD) : (dat1 (F := Ideal) V c).arrAt 7 cfg1.N = weightArr V c :=
  (dat1 (F := Ideal) V c).arrAt_eq_of_cover 7 (weightArr V c) (fun t _ => flushed_weight V c t) cover7

theorem weight_final (c : Dev nD) (e : Fin 1000000) :
    (dat1 (F := Ideal) V c).arrAt 7 cfg1.N (ix2 e (0 : Fin 1)) = weightAt V c e :=
  congrFun (weight_array V c) (ix2 e (0 : Fin 1))

end Blocks

end Cert.KernelIdeal.Region1

end
-- ==== Proof.Region2.lean ====
/-
  Region 2 (the first layer's edge weighting), from blocks to the array. Each grid point takes a block of 2000 rows of
  three per-edge weight columns `a`, `b`, `d` [1000000, 1] and of the gathered features `x` [1000000, 256], and writes
  the block of `((a * b) * d) * x` (the weights' product spread along columns). Here: the body's arithmetic at an index
  of a block (`weighted_payload`), what a point writes back as a block of ONE function of the four input arrays
  (`flushed_eq`), the 500 blocks cover the array (`cover`), so after the region the output array is that function
  (`weighted_array`, `weighted_final`).
-/
import proofs.«160892_j10402410791110_2_alg».proof.Proof.Gen.KernelIdeal.Frame
import Idealize.ShloMosaic.Lib.Pipeline.Value
import Idealize.ShloMosaic.Lib.ValueLayout

noncomputable section

namespace Cert.KernelIdeal.Region2

open Idealize.ShloMosaic Idealize.ShloMosaic.TcCoe Idealize.SL.Sem Idealize.ShloMosaic.ValueIdx Cert.KernelIdeal Cert.KernelIdeal.Gen
open Idealize.ShloMosaic.Pipeline (Dat Cfg Window)

variable (V : (c : Dev nD) → (b : Ref sig .tc) → Buf (Elt Ideal) ((c : Thread nD τ).loc b))

/-! ## Layout: a column spread over a matrix -/

theorem hz : (![0, 0] : Fin 2 → Nat) = fun _ => 0 := funext fun a => by fin_cases a <;> rfl

/-- An `[a, 1]` column broadcast to `[a, b]` reads, at `(p, q)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- One entry of the result from the four entries it reads: the product of the row's three weights, times the feature. -/
abbrev weight1 (a b d x : EReal) : EReal := ((a * b) * d) * x

/-- The body's result at row `p`, column `q` of a block. -/
theorem weighted_payload (x0 : Vec Ideal S2000x1 .f32) (x1 : Vec Ideal S2000x1 .f32) (x2 : Vec Ideal S2000x1 .f32)
    (x3 : Vec Ideal S2000x256 .f32) (p : Fin 2000) (q : Fin 256) :
    k2_pay1 x0 x1 x2 x3 (ix2 p q)
      = weight1 (x0 (ix2 p (0 : Fin 1))) (x1 (ix2 p (0 : Fin 1))) (x2 (ix2 p (0 : Fin 1))) (x3 (ix2 p q)) := by
  unfold k2_pay1
  simp only [shapeCast_self]
  rw [mulf_apply, broadcastTo_a1_ab_apply, mulf_apply, mulf_apply]

/-- The same at an index of the block not yet split into its coordinates. -/
theorem weighted_payload_idx (x0 : Vec Ideal S2000x1 .f32) (x1 : Vec Ideal S2000x1 .f32) (x2 : Vec Ideal S2000x1 .f32)
    (x3 : Vec Ideal S2000x256 .f32) (y : S2000x256.Idx) :
    k2_pay1 x0 x1 x2 x3 y
      = weight1 (x0 (ix2 (y 0 : Fin 2000) (0 : Fin 1))) (x1 (ix2 (y 0 : Fin 2000) (0 : Fin 1)))
          (x2 (ix2 (y 0 : Fin 2000) (0 : Fin 1))) (x3 y) := by
  obtain ⟨p, q, rfl⟩ : ∃ (p : Fin 2000) (q : Fin 256), y = ix2 p q := ⟨y 0, y 1, eq_ix2 y⟩
  exact weighted_payload x0 x1 x2 x3 p q

/-! ## From blocks to the array -/

/-- The output array as one function of the four input arrays, index by index. -/
abbrev weighted (w0 : S1000000x1.Idx → EReal) (w1 : S1000000x1.Idx → EReal) (w2 : S1000000x1.Idx → EReal)
    (feat : S1000000x256.Idx → EReal) : S1000000x256.Idx → EReal :=
  fun i => weight1 (w0 (ix2 (i 0 : Fin 1000000) (0 : Fin 1))) (w1 (ix2 (i 0 : Fin 1000000) (0 : Fin 1)))
      (w2 (ix2 (i 0 : Fin 1000000) (0 : Fin 1))) (feat i)

/-- The printed index maps, decided over the grid: every window is at block row `t`, column block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

set_option maxHeartbeats 1000000 in
/-- What point `t` writes back is block `t` of `weighted` of the input arrays as the region finds them. -/
theorem flushed_eq (c : Dev nD) (t : Fin cfg2.N) :
    (dat2 (F := Ideal) V c).flushed 4 t
      = ((cfg2.win 4).blk t).view.read (Elt Ideal)
          (weighted (V c main_v52) (V c main_v32_0) (V c main_v60) (V c main_v67)) := by
  show (cfg2.win 4).cut (grid2.coords t) ((dat2 V c).after 4 t) = _
  rw [after2_4]
  unfold out2_4
  rw [View.canon_unit_zero hz]
  simp only [View.ld_unit_zero (S := S2000x256) hz, View.ld_unit_zero (S := S2000x1) hz]
  obtain ⟨e00, e01, e10, e11, e20, e21, e30, e31, e40, e41⟩ := index_facts t
  funext y
  refine (weighted_payload_idx _ _ _ _ y).trans ?_
  show weight1 (V c main_v52 (((cfg2.win 0).blk t).view.emb (ix2 (y 0 : Fin 2000) (0 : Fin 1))))
        (V c main_v32_0 (((cfg2.win 1).blk t).view.emb (ix2 (y 0 : Fin 2000) (0 : Fin 1))))
        (V c main_v60 (((cfg2.win 2).blk t).view.emb (ix2 (y 0 : Fin 2000) (0 : Fin 1))))
        (V c main_v67 (((cfg2.win 3).blk t).view.emb y))
      = weight1 (V c main_v52 (ix2 ((((cfg2.win 4).blk t).view.emb y) 0 : Fin 1000000) (0 : Fin 1)))
        (V c main_v32_0 (ix2 ((((cfg2.win 4).blk t).view.emb y) 0 : Fin 1000000) (0 : Fin 1)))
        (V c main_v60 (ix2 ((((cfg2.win 4).blk t).view.emb y) 0 : Fin 1000000) (0 : Fin 1)))
        (V c main_v67 (((cfg2.win 4).blk t).view.emb y))
  have hy0 : (y 0).val < 2000 := (y 0).isLt
  have hy1 : (y 1).val < 256 := (y 1).isLt
  have h0 : ((cfg2.win 0).blk t).view.emb (ix2 (y 0 : Fin 2000) (0 : Fin 1))
      = ix2 ((((cfg2.win 4).blk t).view.emb y) 0 : Fin 1000000) (0 : Fin 1) := by
    funext a; apply Fin.ext
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 1 + 1 * 0 = 0; omega
  have h1 : ((cfg2.win 1).blk t).view.emb (ix2 (y 0 : Fin 2000) (0 : Fin 1))
      = ix2 ((((cfg2.win 4).blk t).view.emb y) 0 : Fin 1000000) (0 : Fin 1) := by
    funext a; apply Fin.ext
    match a with
    | ⟨0, _⟩ => show win2_1.index t (0 : Fin 2) * 2000 + 1 * (y 0).val = win2_4.index t (0 : Fin 2) * 2000 + 1 * (y 0).val; omega
    | ⟨1, _⟩ => show win2_1.index t (1 : Fin 2) * 1 + 1 * 0 = 0; omega
  have h2 : ((cfg2.win 2).blk t).view.emb (ix2 (y 0 : Fin 2000) (0 : Fin 1))
      = ix2 ((((cfg2.win 4).blk t).view.emb y) 0 : Fin 1000000) (0 : Fin 1) := by
    funext a; apply Fin.ext
    match a with
    | ⟨0, _⟩ => show win2_2.index t (0 : Fin 2) * 2000 + 1 * (y 0).val = win2_4.index t (0 : Fin 2) * 2000 + 1 * (y 0).val; omega
    | ⟨1, _⟩ => show win2_2.index t (1 : Fin 2) * 1 + 1 * 0 = 0; omega
  have h3 : ((cfg2.win 3).blk t).view.emb y = ((cfg2.win 4).blk t).view.emb y := by
    funext a; apply Fin.ext
    match a with
    | ⟨0, _⟩ => show win2_3.index t (0 : Fin 2) * 2000 + 1 * (y 0).val = win2_4.index t (0 : Fin 2) * 2000 + 1 * (y 0).val; omega
    | ⟨1, _⟩ => show win2_3.index t (1 : Fin 2) * 256 + 1 * (y 1).val = win2_4.index t (1 : Fin 2) * 256 + 1 * (y 1).val; omega
  rw [h0, h1, h2, h3]
  rfl

/-- An index of the array is in point `t`'s block iff each coordinate is in the block's range on its axis. -/
theorem mem_blk (t : Fin cfg2.N) (i : S1000000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v68).slice (win2_4.rect t)).set ↔ _
  rw [View.set_slice_whole, Rect.mem_set_unit]
  exact Iff.rfl

/-- Every index of the array is in the block of the point its row falls in: row `r` is in block `r / 2000`. -/
theorem cover (i : S1000000x256.Idx) :
    ∃ t : Fin cfg2.N, (cfg2.win 4).flush t = true ∧ i ∈ ((cfg2.win 4).blk t).view.set := by
  have hN : cfg2.N = 500 := N_2
  have hi0 : (i 0).val < 1000000 := (i 0).isLt
  have hi1 : (i 1).val < 256 := (i 1).isLt
  have ht : (i 0).val / 2000 < cfg2.N := by rw [hN]; omega
  obtain ⟨-, -, -, -, -, -, -, -, e40, e41⟩ := index_facts ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win2_4.index ⟨(i 0).val / 2000, ht⟩ (1 : Fin 2) * 256 ≤ (i 1).val
      ∧ (i 1).val < win2_4.index ⟨(i 0).val / 2000, ht⟩ (1 : Fin 2) * 256 + 256
    rw [e41]; omega

/-- THE ARRAY after the region: `weighted` of the input arrays as the region finds them. -/
theorem weighted_array (c : Dev nD) :
    (dat2 (F := Ideal) V c).arrAt 4 cfg2.N
      = weighted (V c main_v52) (V c main_v32_0) (V c main_v60) (V c main_v67) :=
  (dat2 (F := Ideal) V c).arrAt_eq_of_cover 4 _ (fun t _ => flushed_eq V c t) cover

/-- The output array at row `e`, column `j`, the four input arrays named as functions to the extended reals: the
    product of the row's three weights, times the feature. -/
theorem weighted_final (c : Dev nD) (w0 w1 w2 : S1000000x1.Idx → EReal) (feat : S1000000x256.Idx → EReal)
    (h0 : V c main_v52 = w0) (h1 : V c main_v32_0 = w1) (h2 : V c main_v60 = w2) (hfeat : V c main_v67 = feat)
    (e : Fin 1000000) (j : Fin 256) :
    (dat2 (F := Ideal) V c).arrAt 4 cfg2.N (ix2 e j)
      = ((w0 (ix2 e (0 : Fin 1)) * w1 (ix2 e (0 : Fin 1))) * w2 (ix2 e (0 : Fin 1))) * feat (ix2 e j) := by
  subst h0 h1 h2 hfeat
  exact congrFun (weighted_array V c) (ix2 e j)

end Cert.KernelIdeal.Region2

end
-- ==== Proof.Region3.lean ====
/-
  Region 3 (the first layer's combine step), from blocks to the array. Each grid point takes a block of 2000 rows
  of the aggregate `agg` [100000, 256], of the per-row scale `s` [100000, 1] and of the features `h` [100000, 256],
  and the whole bias row `b` [1, 256], and writes the block of `max (agg + s * h + b) 0` (the scale spread along
  columns, the bias along rows). Here: the body's arithmetic at an index of a block (`combine_payload`), what a point
  writes back as a block of ONE function of the four input arrays (`flushed_eq`), the 50 blocks cover the array
  (`cover`), so after the region the output array is that function (`combine_array`, `combine_final`).
-/
import proofs.«160892_j10402410791110_2_alg».proof.Proof.Gen.KernelIdeal.Frame
import Idealize.ShloMosaic.Lib.Pipeline.Value
import Idealize.ShloMosaic.Lib.ValueLayout

noncomputable section

namespace Cert.KernelIdeal.Region3

open Idealize.ShloMosaic Idealize.ShloMosaic.TcCoe Idealize.SL.Sem Idealize.ShloMosaic.ValueIdx Cert.KernelIdeal Cert.KernelIdeal.Gen
open Idealize.ShloMosaic.Pipeline (Dat Cfg Window)

variable (V : (c : Dev nD) → (b : Ref sig .tc) → Buf (Elt Ideal) ((c : Thread nD τ).loc b))

/-! ## Layout: a column and a row spread over a matrix -/

theorem hz : (![0, 0] : Fin 2 → Nat) = fun _ => 0 := funext fun a => by fin_cases a <;> rfl

/-- An `[a, 1]` column broadcast to `[a, b]` reads, at `(p, q)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- One entry of the result from the four entries it reads: the aggregate plus the row's scale times the feature, plus the column's
    bias, cut below at zero. -/
abbrev combine1 (a s f b : EReal) : EReal := max ((a + s * f) + b) (Ideal.ofBits .f32 0x00000000#32)

/-- The body's result at row `p`, column `q` of a block. -/
theorem combine_payload (x0 : Vec Ideal S2000x256 .f32) (x1 : Vec Ideal S2000x1 .f32) (x2 : Vec Ideal S2000x256 .f32)
    (x3 : Vec Ideal S1x256 .f32) (p : Fin 2000) (q : Fin 256) :
    k3_pay1 x0 x1 x2 x3 (ix2 p q)
      = combine1 (x0 (ix2 p q)) (x1 (ix2 p (0 : Fin 1))) (x2 (ix2 p q)) (x3 (ix2 (0 : Fin 1) q)) := by
  unfold k3_pay1
  simp only [shapeCast_self]
  rw [maximumf_apply, broadcast_apply, addf_apply, addf_apply, mulf_apply, broadcastTo_a1_ab_apply, broadcastTo_1b_ab_apply]
  rfl

/-- The same at an index of the block not yet split into its coordinates. -/
theorem combine_payload_idx (x0 : Vec Ideal S2000x256 .f32) (x1 : Vec Ideal S2000x1 .f32) (x2 : Vec Ideal S2000x256 .f32)
    (x3 : Vec Ideal S1x256 .f32) (y : S2000x256.Idx) :
    k3_pay1 x0 x1 x2 x3 y
      = combine1 (x0 y) (x1 (ix2 (y 0 : Fin 2000) (0 : Fin 1))) (x2 y) (x3 (ix2 (0 : Fin 1) (y 1 : Fin 256))) := by
  obtain ⟨p, q, rfl⟩ : ∃ (p : Fin 2000) (q : Fin 256), y = ix2 p q := ⟨y 0, y 1, eq_ix2 y⟩
  exact combine_payload x0 x1 x2 x3 p q

/-! ## From blocks to the array -/

/-- The output array as one function of the four input arrays, index by index. -/
abbrev combined (agg : S100000x256.Idx → EReal) (scale : S100000x1.Idx → EReal) (feat : S100000x256.Idx → EReal)
    (bias : S1x256.Idx → EReal) : S100000x256.Idx → EReal :=
  fun i => combine1 (agg i) (scale (ix2 (i 0 : Fin 100000) (0 : Fin 1))) (feat i) (bias (ix2 (0 : Fin 1) (i 1 : Fin 256)))

/-- The printed index maps, decided over the grid: the row-blocked windows are at block row `t`, column block 0;
    the bias window is always its whole array. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1000000 in
/-- What point `t` writes back is block `t` of `combined` of the input arrays as the region finds them. -/
theorem flushed_eq (c : Dev nD) (t : Fin cfg3.N) :
    (dat3 (F := Ideal) V c).flushed 4 t
      = ((cfg3.win 4).blk t).view.read (Elt Ideal)
          (combined (V c main_v76) (V c main_v78) (V c main_v0_0) (V c main_v79)) := by
  show (cfg3.win 4).cut (grid3.coords t) ((dat3 V c).after 4 t) = _
  rw [after3_4]
  unfold out3_4
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41⟩ := index_facts t
  funext y
  refine (combine_payload_idx _ _ _ _ y).trans ?_
  show combine1 (V c main_v76 (((cfg3.win 0).blk t).view.emb y))
        (V c main_v78 (((cfg3.win 1).blk t).view.emb (ix2 (y 0 : Fin 2000) (0 : Fin 1))))
        (V c main_v0_0 (((cfg3.win 2).blk t).view.emb y))
        (V c main_v79 (((cfg3.win 3).blk t).view.emb (ix2 (0 : Fin 1) (y 1 : Fin 256))))
      = combine1 (V c main_v76 (((cfg3.win 4).blk t).view.emb y))
        (V c main_v78 (ix2 ((((cfg3.win 4).blk t).view.emb y) 0 : Fin 100000) (0 : Fin 1)))
        (V c main_v0_0 (((cfg3.win 4).blk t).view.emb y))
        (V c main_v79 (ix2 (0 : Fin 1) ((((cfg3.win 4).blk t).view.emb y) 1 : Fin 256)))
  have hy0 : (y 0).val < 2000 := (y 0).isLt
  have hy1 : (y 1).val < 256 := (y 1).isLt
  have h0 : ((cfg3.win 0).blk t).view.emb y = ((cfg3.win 4).blk t).view.emb y := by
    funext a; apply Fin.ext
    match a with
    | ⟨0, _⟩ => show win3_0.index t (0 : Fin 2) * 2000 + 1 * (y 0).val = win3_4.index t (0 : Fin 2) * 2000 + 1 * (y 0).val; omega
    | ⟨1, _⟩ => show win3_0.index t (1 : Fin 2) * 256 + 1 * (y 1).val = win3_4.index t (1 : Fin 2) * 256 + 1 * (y 1).val; omega
  have h2 : ((cfg3.win 2).blk t).view.emb y = ((cfg3.win 4).blk t).view.emb y := by
    funext a; apply Fin.ext
    match a with
    | ⟨0, _⟩ => show win3_2.index t (0 : Fin 2) * 2000 + 1 * (y 0).val = win3_4.index t (0 : Fin 2) * 2000 + 1 * (y 0).val; omega
    | ⟨1, _⟩ => show win3_2.index t (1 : Fin 2) * 256 + 1 * (y 1).val = win3_4.index t (1 : Fin 2) * 256 + 1 * (y 1).val; omega
  have h1 : ((cfg3.win 1).blk t).view.emb (ix2 (y 0 : Fin 2000) (0 : Fin 1))
      = ix2 ((((cfg3.win 4).blk t).view.emb y) 0 : Fin 100000) (0 : Fin 1) := by
    funext a; apply Fin.ext
    match a with
    | ⟨0, _⟩ => show win3_1.index t (0 : Fin 2) * 2000 + 1 * (y 0).val = win3_4.index t (0 : Fin 2) * 2000 + 1 * (y 0).val; omega
    | ⟨1, _⟩ => show win3_1.index t (1 : Fin 2) * 1 + 1 * 0 = 0; omega
  have h3 : ((cfg3.win 3).blk t).view.emb (ix2 (0 : Fin 1) (y 1 : Fin 256))
      = ix2 (0 : Fin 1) ((((cfg3.win 4).blk t).view.emb y) 1 : Fin 256) := by
    funext a; apply Fin.ext
    match a with
    | ⟨0, _⟩ => show win3_3.index t (0 : Fin 2) * 1 + 1 * 0 = 0; omega
    | ⟨1, _⟩ => show win3_3.index t (1 : Fin 2) * 256 + 1 * (y 1).val = win3_4.index t (1 : Fin 2) * 256 + 1 * (y 1).val; omega
  rw [h0, h1, h2, h3]
  rfl

/-- An index of the array is in point `t`'s block iff each coordinate is in the block's range on its axis. -/
theorem mem_blk (t : Fin cfg3.N) (i : S100000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v80).slice (win3_4.rect t)).set ↔ _
  rw [View.set_slice_whole, Rect.mem_set_unit]
  exact Iff.rfl

/-- Every index of the array is in the block of the point its row falls in: row `r` is in block `r / 2000`. -/
theorem cover (i : S100000x256.Idx) :
    ∃ t : Fin cfg3.N, (cfg3.win 4).flush t = true ∧ i ∈ ((cfg3.win 4).blk t).view.set := by
  have hN : cfg3.N = 50 := N_3
  have hi0 : (i 0).val < 100000 := (i 0).isLt
  have hi1 : (i 1).val < 256 := (i 1).isLt
  have ht : (i 0).val / 2000 < cfg3.N := by rw [hN]; omega
  obtain ⟨-, -, -, -, -, -, -, -, e40, e41⟩ := index_facts ⟨(i 0).val / 2000, ht⟩
  refine ⟨⟨(i 0).val / 2000, ht⟩, flush3_4 _, ?_⟩
  rw [mem_blk]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win3_4.index ⟨(i 0).val / 2000, ht⟩ (1 : Fin 2) * 256 ≤ (i 1).val
      ∧ (i 1).val < win3_4.index ⟨(i 0).val / 2000, ht⟩ (1 : Fin 2) * 256 + 256
    rw [e41]; omega

/-- THE ARRAY after the region: `combined` of the input arrays as the region finds them. -/
theorem combine_array (c : Dev nD) :
    (dat3 (F := Ideal) V c).arrAt 4 cfg3.N
      = combined (V c main_v76) (V c main_v78) (V c main_v0_0) (V c main_v79) :=
  (dat3 (F := Ideal) V c).arrAt_eq_of_cover 4 _ (fun t _ => flushed_eq V c t) cover

/-- The output array at row `i`, column `j`, the four input arrays named as functions to the extended reals:
    the aggregate plus the row's scale times the feature, plus the column's
    bias, cut below at zero. -/
theorem combine_final (c : Dev nD) (agg feat : S100000x256.Idx → EReal) (scale : S100000x1.Idx → EReal)
    (bias : S1x256.Idx → EReal) (hagg : V c main_v76 = agg) (hscale : V c main_v78 = scale)
    (hfeat : V c main_v0_0 = feat) (hbias : V c main_v79 = bias) (i : Fin 100000) (j : Fin 256) :
    (dat3 (F := Ideal) V c).arrAt 4 cfg3.N (ix2 i j)
      = max ((agg (ix2 i j) + scale (ix2 i (0 : Fin 1)) * feat (ix2 i j)) + bias (ix2 (0 : Fin 1) j)) (Ideal.ofBits .f32 0x00000000#32) := by
  subst hagg hscale hfeat hbias
  exact congrFun (combine_array V c) (ix2 i j)

end Cert.KernelIdeal.Region3

end
-- ==== Proof.Region4.lean ====
import proofs.«160892_j10402410791110_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx Cert.KernelIdeal Cert.KernelIdeal.Gen
open Idealize.ShloMosaic.Pipeline (Dat Cfg Window)

/-! # Region 4: a matrix product and the row norms of its left factor, operands narrowed first

The region walks the 100000 rows of the left array in 50 blocks of 2000 rows. At each block it casts the block
(2000 x 256) to its own shape, narrows it and the whole right array (256 x 40) to a shorter float format, multiplies them
into a zero accumulator and writes the 2000 x 40 product to the same rows of the first output; and it writes, to the same
rows of the second output (one column), the square root of each row's sum of squares of the left block, bounded below by
a fixed positive literal. Read at the extended reals the narrowing and the cast are the identity and every other
operation is the exact one, so after the 50 write-backs

* the first output at (i, j) is the sum over k < 256 of left (i, k) * right (k, j), and
* the second output at (i, 0) is max (sqrt (sum over k < 256 of left (i, k) * left (i, k))) literal.

The file first reads the body's stored values at an index of a block, then carries the blocks to the arrays: each
write-back is the block of ONE function of the input arrays, and the 50 blocks cover the output. -/

namespace Cert.KernelIdeal.Region4

variable (V : (c : Dev nD) → (b : Ref sig .tc) → Buf (Elt Ideal) ((c : Thread nD τ).loc b))

/-! ## The body's arithmetic at an index of a block -/

theorem zero_offsets : (![0, 0] : Fin 2 → Nat) = fun _ => 0 := funext fun a => by fin_cases a <;> rfl

/-- A vector of length a viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The cast of a block to its own shape is the block. -/
theorem same_shape (x0 : Vec Ideal S2000x256 .f32) : k4_pay1 x0 = x0 := by
  unfold k4_pay1
  exact shapeCast_self _ _

theorem lhs_row (i : S2000x40.Idx) (q : dot_S2000x256_S256x40_S2000x40_1_0_0_1_n_n.contr.Idx) :
    (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem lhs_col (i : S2000x40.Idx) (q : dot_S2000x256_S256x40_S2000x40_1_0_0_1_n_n.contr.Idx) :
    (dot_S2000x256_S256x40_S2000x40_1_0_0_1_n_n.lhsIdx i q 1).val = (q ⟨0, by decide⟩).val :=
  dot_S2000x256_S256x40_S2000x40_1_0_0_1_n_n.lhsIdx_val_of_single rfl i q
theorem rhs_row (i : S2000x40.Idx) (q : dot_S2000x256_S256x40_S2000x40_1_0_0_1_n_n.contr.Idx) :
    (dot_S2000x256_S256x40_S2000x40_1_0_0_1_n_n.rhsIdx i q 0).val = (q ⟨0, by decide⟩).val :=
  dot_S2000x256_S256x40_S2000x40_1_0_0_1_n_n.rhsIdx_val_of_single rfl i q
theorem rhs_col (i : S2000x40.Idx) (q : dot_S2000x256_S256x40_S2000x40_1_0_0_1_n_n.contr.Idx) :
    (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- The product of a 2000 x 256 block with the 256 x 40 matrix, both first narrowed (the identity on extended reals),
    into a zero accumulator, at (p, q): the sum over the contracted axis. -/
theorem product_block (x0 : Vec Ideal S2000x256 .f32) (x1 : Vec Ideal S256x40 .f32) (p : Fin 2000) (q : Fin 40) :
    k4_pay2 x0 x1 (ix2 p q) = ∑ k : Fin 256, x0 (ix2 p k) * x1 (ix2 k q) := by
  unfold k4_pay2
  show FloatOps.matmul (F := Ideal) (φ₁ := .bf16) (φ₂ := .bf16) dot_S2000x256_S256x40_S2000x40_1_0_0_1_n_n none
    (truncf (F := Ideal) (φ := .f32) .bf16 (k4_pay1 x0) bitsLt_bf16_f32) (truncf (F := Ideal) (φ := .f32) .bf16 x1 bitsLt_bf16_f32)
    (constant S2000x40 .f32 0x00000000#32) (ix2 p q) = _
  rw [Ideal.matmul_constant_zero_apply, ← Equiv.sum_comp (contrEquiv1 dot_S2000x256_S256x40_S2000x40_1_0_0_1_n_n 256 rfl rfl).symm]
  refine Finset.sum_congr rfl fun k _ => ?_
  have hk := contrEquiv1_symm_val dot_S2000x256_S256x40_S2000x40_1_0_0_1_n_n 256 rfl rfl k
  have el : dot_S2000x256_S256x40_S2000x40_1_0_0_1_n_n.lhsIdx (ix2 p q) ((contrEquiv1 dot_S2000x256_S256x40_S2000x40_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x40_S2000x40_1_0_0_1_n_n.rhsIdx (ix2 p q) ((contrEquiv1 dot_S2000x256_S256x40_S2000x40_1_0_0_1_n_n 256 rfl rfl).symm k) = ix2 k q := funext fun a => Fin.ext (by
    match a with
    | ⟨0, _⟩ => exact (rhs_row _ _).trans hk
    | ⟨1, _⟩ => exact rhs_col _ _)
  rw [el, er]
  show k4_pay1 x0 (ix2 p k) * x1 (ix2 k q) = _
  rw [same_shape]

/-- The index over row p of the block with lane k put back is (p, k). -/
theorem lift_row (p : Fin 2000) (k : Fin 256) : reduces_S2000x256_S2000.lift (ix1 p) k = ix2 p k :=
  funext fun a => Fin.ext (by
    match a with
    | ⟨0, _⟩ => rfl
    | ⟨1, _⟩ => rfl)

/-- The lane sum of squares of a 2000 x 256 block, as a column, square-rooted and bounded below by the literal, at (p, u). -/
theorem norm_block (x0 : Vec Ideal S2000x256 .f32) (p : Fin 2000) (u : Fin 1) :
    k4_pay3 x0 (ix2 p u) = max (Ideal.sqrt (∑ k : Fin 256, x0 (ix2 p k) * x0 (ix2 p k))) (Ideal.ofBits .f32 0x322BCC77#32) := by
  unfold k4_pay3
  rw [same_shape]
  show max (Ideal.sqrt (shapeCast S2000x1 (multiReduction (F := Ideal) .add [1] S2000 (mulf (F := Ideal) (φ := .f32) x0 x0) 0x00000000#32 reduces_S2000x256_S2000 (.inl rfl) rfl) shapeCasts_S2000_S2000x1 (ix2 p u))) (Ideal.ofBits .f32 0x322BCC77#32) = _
  rw [shapeCast_a_a1_apply]
  refine congrArg (fun z => max (Ideal.sqrt z) _) ?_
  refine (Ideal.multiReduction_add_single (mulf (F := Ideal) (φ := .f32) x0 x0) 0x00000000#32 reduces_S2000x256_S2000 (.inl rfl) rfl (ix1 p)).trans ?_
  show ∑ k : Fin 256, mulf (F := Ideal) (φ := .f32) x0 x0 (reduces_S2000x256_S2000.lift (ix1 p) k) = _
  refine Finset.sum_congr rfl fun k _ => ?_
  rw [lift_row]
  rfl

/-! ## From blocks to the arrays -/

/-- The product array: row i of the left array against column j of the right one. -/
def productArr (a : S100000x256.Idx → EReal) (b : S256x40.Idx → EReal) : S100000x40.Idx → EReal :=
  fun i => ∑ k : Fin 256, a (ix2 (⟨(i 0).val, idx2_lt0 i⟩ : Fin 100000) k) * b (ix2 k (⟨(i 1).val, idx2_lt1 i⟩ : Fin 40))

/-- The row-norm array: the square root of each row's sum of squares, bounded below by the literal. -/
def normArr (a : S100000x256.Idx → EReal) : S100000x1.Idx → EReal :=
  fun i => max (Ideal.sqrt (∑ k : Fin 256, a (ix2 (⟨(i 0).val, idx2_lt0 i⟩ : Fin 100000) k) * a (ix2 (⟨(i 0).val, idx2_lt0 i⟩ : Fin 100000) k)))
    (Ideal.ofBits .f32 0x322BCC77#32)

/-- The index maps over the grid: the row-blocked windows sit at block (t, 0), the whole matrix at block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The block product at y is the product array at i when the block's rows are the left array's rows at i's row and
    the matrix is the right array. -/
theorem product_point (x0 : Vec Ideal S2000x256 .f32) (x1 : Vec Ideal S256x40 .f32)
    (a : S100000x256.Idx → EReal) (b : S256x40.Idx → EReal) (y : S2000x40.Idx) (i : S100000x40.Idx)
    (h0 : ∀ k : Fin 256, x0 (ix2 (⟨(y 0).val, idx2_lt0 y⟩ : Fin 2000) k) = a (ix2 (⟨(i 0).val, idx2_lt0 i⟩ : Fin 100000) k))
    (h1 : ∀ k : Fin 256, x1 (ix2 k (⟨(y 1).val, idx2_lt1 y⟩ : Fin 40)) = b (ix2 k (⟨(i 1).val, idx2_lt1 i⟩ : Fin 40))) :
    k4_pay2 x0 x1 y = productArr a b i := by
  have ey : y = ix2 (⟨(y 0).val, idx2_lt0 y⟩ : Fin 2000) (⟨(y 1).val, idx2_lt1 y⟩ : Fin 40) := eq_ix2 y
  rw [ey, product_block]
  exact Finset.sum_congr rfl fun k _ => by rw [h0 k, h1 k]

/-- The block norm at y is the norm array at i when the block's rows are the array's rows at i's row. -/
theorem norm_point (x0 : Vec Ideal S2000x256 .f32) (a : S100000x256.Idx → EReal) (y : S2000x1.Idx) (i : S100000x1.Idx)
    (h0 : ∀ k : Fin 256, x0 (ix2 (⟨(y 0).val, idx2_lt0 y⟩ : Fin 2000) k) = a (ix2 (⟨(i 0).val, idx2_lt0 i⟩ : Fin 100000) k)) :
    k4_pay3 x0 y = normArr a i := by
  have ey : y = ix2 (⟨(y 0).val, idx2_lt0 y⟩ : Fin 2000) (⟨(y 1).val, idx2_lt1 y⟩ : Fin 1) := eq_ix2 y
  rw [ey, norm_block]
  exact congrArg (fun z => max (Ideal.sqrt z) _) (Finset.sum_congr rfl fun k _ => by rw [h0 k])

/-- Row p of the left window's block at point t is row 2000 t + p of the left array. -/
theorem left_block_row (c : Dev nD) (t : Fin cfg4.N) (p : Fin 2000) (r : Fin 100000) (hr : r.val = t.val * 2000 + p.val) (k : Fin 256) :
    iblk4 V c 0 t (ix2 p k) = V c main_v80 (ix2 r k) := by
  obtain ⟨e00, e01, -, -, -, -, -, -⟩ := index_facts t
  show V c main_v80 (((cfg4.win 0).blk t).view.emb (ix2 p k)) = V c main_v80 (ix2 r k)
  refine congrArg (V c main_v80) (funext fun a => Fin.ext ?_)
  match a with
  | ⟨0, _⟩ => show win4_0.index t (0 : Fin 2) * 2000 + 1 * p.val = r.val; omega
  | ⟨1, _⟩ => show win4_0.index t (1 : Fin 2) * 256 + 1 * k.val = k.val; omega

/-- The right window's block at every point is the right array. -/
theorem right_block (c : Dev nD) (t : Fin cfg4.N) (k : Fin 256) (q : Fin 40) :
    iblk4 V c 1 t (ix2 k q) = V c main_arg5 (ix2 k q) := by
  obtain ⟨-, -, e10, e11, -, -, -, -⟩ := index_facts t
  show V c main_arg5 (((cfg4.win 1).blk t).view.emb (ix2 k q)) = V c main_arg5 (ix2 k q)
  refine congrArg (V c main_arg5) (funext fun a => Fin.ext ?_)
  match a with
  | ⟨0, _⟩ => show win4_1.index t (0 : Fin 2) * 256 + 1 * k.val = k.val; omega
  | ⟨1, _⟩ => show win4_1.index t (1 : Fin 2) * 40 + 1 * q.val = q.val; omega

/-- What point t writes back through the product window is block t of the product array. -/
theorem flushed_product (c : Dev nD) (t : Fin cfg4.N) :
    (dat4 (F := Ideal) V c).flushed 2 t = ((cfg4.win 2).blk t).view.read (Elt Ideal) (productArr (V c main_v80) (V c main_arg5)) := by
  show (cfg4.win 2).cut (grid4.coords t) ((dat4 V c).after 2 t) = _
  rw [after4_2]
  unfold out4_2
  rw [View.canon_unit_zero zero_offsets]
  simp only [View.ld_unit_zero (S := S2000x256) zero_offsets, View.ld_unit_zero (S := S256x40) zero_offsets]
  obtain ⟨-, -, -, -, e20, e21, -, -⟩ := index_facts t
  funext y
  show k4_pay2 (iblk4 V c 0 t) (iblk4 V c 1 t) y = productArr (V c main_v80) (V c main_arg5) (((cfg4.win 2).blk t).view.emb y)
  refine product_point _ _ _ _ y _ (fun k => ?_) (fun k => ?_)
  · refine left_block_row V c t _ _ ?_ k
    show win4_2.index t (0 : Fin 2) * 2000 + 1 * (y 0).val = t.val * 2000 + (y 0).val
    omega
  · refine (right_block V c t k _).trans (congrArg (fun z => V c main_arg5 (ix2 k z)) (Fin.ext ?_))
    show (y 1).val = win4_2.index t (1 : Fin 2) * 40 + 1 * (y 1).val
    omega

/-- What point t writes back through the norm window is block t of the row-norm array. -/
theorem flushed_norm (c : Dev nD) (t : Fin cfg4.N) :
    (dat4 (F := Ideal) V c).flushed 3 t = ((cfg4.win 3).blk t).view.read (Elt Ideal) (normArr (V c main_v80)) := by
  show (cfg4.win 3).cut (grid4.coords t) ((dat4 V c).after 3 t) = _
  rw [after4_3]
  unfold out4_3
  rw [View.canon_unit_zero zero_offsets]
  simp only [View.ld_unit_zero (S := S2000x256) zero_offsets]
  obtain ⟨-, -, -, -, -, -, e30, e31⟩ := index_facts t
  funext y
  show k4_pay3 (iblk4 V c 0 t) y = normArr (V c main_v80) (((cfg4.win 3).blk t).view.emb y)
  refine norm_point _ _ y _ (fun k => ?_)
  refine left_block_row V c t _ _ ?_ k
  show win4_3.index t (0 : Fin 2) * 2000 + 1 * (y 0).val = t.val * 2000 + (y 0).val
  omega

/-- An index of the product array is in point t's block iff each coordinate is in the block's range on its axis. -/
theorem mem_product_block (t : Fin cfg4.N) (i : S100000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v81_0).slice (win4_2.rect t)).set ↔ _
  rw [View.set_slice_whole, Rect.mem_set_unit]
  exact Iff.rfl

/-- An index of the norm array is in point t's block iff each coordinate is in the block's range on its axis. -/
theorem mem_norm_block (t : Fin cfg4.N) (i : S100000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v81_1).slice (win4_3.rect t)).set ↔ _
  rw [View.set_slice_whole, Rect.mem_set_unit]
  exact Iff.rfl

/-- Row r of the product array is written back by point r / 2000. -/
theorem cover_product (i : S100000x40.Idx) :
    ∃ t : Fin cfg4.N, (cfg4.win 2).flush t = true ∧ i ∈ ((cfg4.win 2).blk t).view.set := by
  have hN : cfg4.N = 50 := N_4
  have hi0 : (i 0).val < 100000 := idx2_lt0 i
  have hi1 : (i 1).val < 40 := idx2_lt1 i
  have ht : (i 0).val / 2000 < cfg4.N := by rw [hN]; omega
  obtain ⟨-, -, -, -, e20, e21, -, -⟩ := index_facts ⟨(i 0).val / 2000, ht⟩
  refine ⟨⟨(i 0).val / 2000, ht⟩, flush4_2 _, ?_⟩
  rw [mem_product_block]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win4_2.index ⟨(i 0).val / 2000, ht⟩ (1 : Fin 2) * 40 ≤ (i 1).val ∧ (i 1).val < win4_2.index ⟨(i 0).val / 2000, ht⟩ (1 : Fin 2) * 40 + 40
    rw [e21]; omega

/-- Row r of the norm array is written back by point r / 2000. -/
theorem cover_norm (i : S100000x1.Idx) :
    ∃ t : Fin cfg4.N, (cfg4.win 3).flush t = true ∧ i ∈ ((cfg4.win 3).blk t).view.set := by
  have hN : cfg4.N = 50 := N_4
  have hi0 : (i 0).val < 100000 := idx2_lt0 i
  have hi1 : (i 1).val < 1 := idx2_lt1 i
  have ht : (i 0).val / 2000 < cfg4.N := by rw [hN]; omega
  obtain ⟨-, -, -, -, -, -, e30, e31⟩ := index_facts ⟨(i 0).val / 2000, ht⟩
  refine ⟨⟨(i 0).val / 2000, ht⟩, flush4_3 _, ?_⟩
  rw [mem_norm_block]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win4_3.index ⟨(i 0).val / 2000, ht⟩ (1 : Fin 2) * 1 ≤ (i 1).val ∧ (i 1).val < win4_3.index ⟨(i 0).val / 2000, ht⟩ (1 : Fin 2) * 1 + 1
    rw [e31]; omega

/-- After the pipeline the first output array is the product array of the two input arrays. -/
theorem product_array (c : Dev nD) :
    (dat4 (F := Ideal) V c).arrAt 2 cfg4.N = productArr (V c main_v80) (V c main_arg5) :=
  (dat4 (F := Ideal) V c).arrAt_eq_of_cover 2 (productArr (V c main_v80) (V c main_arg5)) (fun t _ => flushed_product V c t) cover_product

/-- After the pipeline the second output array is the row-norm array of the left input array. -/
theorem norm_array (c : Dev nD) :
    (dat4 (F := Ideal) V c).arrAt 3 cfg4.N = normArr (V c main_v80) :=
  (dat4 (F := Ideal) V c).arrAt_eq_of_cover 3 (normArr (V c main_v80)) (fun t _ => flushed_norm V c t) cover_norm

/-- The product array at (i, j). -/
theorem productArr_apply (a : S100000x256.Idx → EReal) (b : S256x40.Idx → EReal) (i : Fin 100000) (j : Fin 40) :
    productArr a b (ix2 i j) = ∑ k : Fin 256, a (ix2 i k) * b (ix2 k j) := rfl

/-- The row-norm array at (i, 0). -/
theorem normArr_apply (a : S100000x256.Idx → EReal) (i : Fin 100000) (u : Fin 1) :
    normArr a (ix2 i u) = max (Ideal.sqrt (∑ k : Fin 256, a (ix2 i k) * a (ix2 i k))) (Ideal.ofBits .f32 0x322BCC77#32) := rfl

/-- Entry (i, j) of the first output array: row i of the left array against column j of the right one. The input arrays
    enter as the functions a, b they are as the region finds them. -/
theorem matmul_final (c : Dev nD) (a : S100000x256.Idx → EReal) (b : S256x40.Idx → EReal)
    (ha : V c main_v80 = a) (hb : V c main_arg5 = b) (i : Fin 100000) (j : Fin 40) :
    (Gen.dat4 (F := Ideal) V c).arrAt 2 cfg4.N (ix2 i j) = ∑ k : Fin 256, a (ix2 i k) * b (ix2 k j) := by
  subst ha hb
  rw [product_array]
  rfl

/-- Entry (i, 0) of the second output array: the norm of row i of the left array, bounded below by the literal. -/
theorem norm_final (c : Dev nD) (a : S100000x256.Idx → EReal) (ha : V c main_v80 = a) (i : Fin 100000) :
    (Gen.dat4 (F := Ideal) V c).arrAt 3 cfg4.N (ix2 i (0 : Fin 1))
      = max (Ideal.sqrt (∑ k : Fin 256, a (ix2 i k) * a (ix2 i k))) (Ideal.ofBits .f32 0x322BCC77#32) := by
  subst ha
  rw [norm_array]
  rfl

end Cert.KernelIdeal.Region4

end
-- ==== Proof.Region5.lean ====
import proofs.«160892_j10402410791110_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

/-! # Region 5: the per-edge attention weights

For every edge `e` (a row of the `[1000000, ·]` arrays) the region computes, from the two gathered feature rows
`x e`, `y e` (256 columns), their two norms `nr e`, `nc e`, the edge's two end points `r e`, `cc e` and the
previous mask `pm e`:

* the similarity `sim e = (∑ k, x e k * y e k) / (nr e * nc e)`;
* the mask `mask e = (if sim e ≥ 0.1 and r e ≠ cc e then 1 else 0) * pm e`;
* the weight `weight e = if mask e > 0.5 then sim e else 0`.

The grid has 500 points; point `t` handles the edges `2000 t … 2000 t + 1999`. First the body's payloads are read
at an index of a block (over arbitrary blocks), then each input block is read as rows of its array, then the blocks
written back are assembled into the two output arrays. The comparisons and the selection are left as the operations
the program applies: they are not interpreted here. -/

set_option maxRecDepth 16384

noncomputable section

open Idealize.ShloMosaic Idealize.ShloMosaic.TcCoe Idealize.SL.Sem Idealize.ShloMosaic.ValueIdx
open Cert.KernelIdeal Cert.KernelIdeal.Gen
open Idealize.ShloMosaic.Pipeline (Dat Cfg Window)

namespace Cert.KernelIdeal.Region5

/-! ## The three scalar functions -/

/-- The similarity of one edge: the inner product of its two feature rows over the product of their norms. -/
def sim (n : ℕ) (fr fc : Fin n → EReal) (nr nc : EReal) : EReal :=
  Ideal.div (∑ k, fr k * fc k) (nr * nc)

/-- The mask of one edge: one where the similarity is at least 0.1 and the end points differ, zero elsewhere,
    times the previous mask. -/
def maskOf (s : EReal) (r cc : BitVec 32) (pm : EReal) : EReal :=
  Scalar.select (IntOp.andi (FloatOps.cmpf (F := Ideal) .oge s (Ideal.ofBits .f32 0x3DCCCCCD#32)) (IntOp.cmpi .ne r cc))
    (Ideal.ofBits .f32 0x3F800000#32) (Ideal.ofBits .f32 0x00000000#32) * pm

/-- The weight of one edge: the similarity where the mask exceeds 0.5, zero elsewhere. -/
def weightOf (s mk : EReal) : EReal :=
  Scalar.select (FloatOps.cmpf (F := Ideal) .ogt mk (Ideal.ofBits .f32 0x3F000000#32)) s (Ideal.ofBits .f32 0x00000000#32)

/-! ## The payloads at an index -/

theorem andi_apply {s : Shape} {w : ℕ} (x y : IVec s w) (i : s.Idx) : andi x y i = IntOp.andi (x i) (y i) := rfl
theorem cmpi_apply {s : Shape} {w : ℕ} (p : CmpIPredicate) (x y : IVec s w) (i : s.Idx) :
    cmpi p x y i = IntOp.cmpi p (x i) (y i) := rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The similarity payload at row `r`: the row sum of the product of the two feature blocks over the product of
    the two norm blocks. -/
theorem pay1_apply (x0 x1 : Vec Ideal S2000x256 .f32) (x2 x3 : Vec Ideal S2000x1 .f32) (r : Fin 2000) (u : Fin 1) :
    k5_pay1 (F := Ideal) x0 x1 x2 x3 (ix2 r u)
      = sim 256 (fun k => x0 (ix2 r k)) (fun k => x1 (ix2 r k)) (x2 (ix2 r u)) (x3 (ix2 r u)) := by
  unfold k5_pay1 sim
  simp only [shapeCast_self]
  rw [divf_apply, mulf_apply, shapeCast_a_a1_apply]
  refine congrArg (fun z => Ideal.div z _) ?_
  refine (Ideal.multiReduction_add_single (mulf x0 x1) 0x00000000#32 reduces_S2000x256_S2000 (.inl rfl) rfl (ix1 r)).trans ?_
  refine Finset.sum_congr rfl fun (k : Fin 256) _ => ?_
  have hl : reduces_S2000x256_S2000.lift (ix1 r) k = ix2 r k := by
    funext a; apply Fin.ext
    match a with
    | ⟨0, _⟩ => rfl
    | ⟨1, _⟩ => rfl
  exact congrArg (fun i : S2000x256.Idx => x0 i * x1 i) hl

/-- The mask payload at row `r`. -/
theorem pay2_apply (x0 x1 : Vec Ideal S2000x256 .f32) (x2 x3 : Vec Ideal S2000x1 .f32) (x4 x5 : Vec Ideal S2000x1 .i32)
    (x6 : Vec Ideal S2000x1 .f32) (r : Fin 2000) (u : Fin 1) :
    k5_pay2 (F := Ideal) x0 x1 x2 x3 x4 x5 x6 (ix2 r u)
      = maskOf (sim 256 (fun k => x0 (ix2 r k)) (fun k => x1 (ix2 r k)) (x2 (ix2 r u)) (x3 (ix2 r u)))
          (x4 (ix2 r u)) (x5 (ix2 r u)) (x6 (ix2 r u)) := by
  unfold k5_pay2 maskOf
  simp only [shapeCast_self]
  rw [mulf_apply, select_apply, andi_apply, cmpf_apply, cmpi_apply, pay1_apply]
  rfl

/-- The weight payload at row `r`. -/
theorem pay3_apply (x0 x1 : Vec Ideal S2000x256 .f32) (x2 x3 : Vec Ideal S2000x1 .f32) (x4 x5 : Vec Ideal S2000x1 .i32)
    (x6 : Vec Ideal S2000x1 .f32) (r : Fin 2000) (u : Fin 1) :
    k5_pay3 (F := Ideal) x0 x1 x2 x3 x4 x5 x6 (ix2 r u)
      = weightOf (sim 256 (fun k => x0 (ix2 r k)) (fun k => x1 (ix2 r k)) (x2 (ix2 r u)) (x3 (ix2 r u)))
          (maskOf (sim 256 (fun k => x0 (ix2 r k)) (fun k => x1 (ix2 r k)) (x2 (ix2 r u)) (x3 (ix2 r u)))
            (x4 (ix2 r u)) (x5 (ix2 r u)) (x6 (ix2 r u))) := by
  unfold k5_pay3 weightOf
  rw [select_apply, cmpf_apply, pay2_apply, pay1_apply]
  rfl

/-! ## From blocks to the arrays -/

section Blocks

variable (V : (c : Dev nD) → (b : Ref sig .tc) → Buf (Elt Ideal) ((c : Thread nD τ).loc b))

/-- The similarity of edge `e`, from the region's input arrays. -/
def simAt (c : Dev nD) (e : Fin 1000000) : EReal :=
  sim 256 (fun k => (V c main_v88 : S1000000x256.Idx → EReal) (ix2 e k)) (fun k => (V c main_v95 : S1000000x256.Idx → EReal) (ix2 e k))
    ((V c main_v102 : S1000000x1.Idx → EReal) (ix2 e (0 : Fin 1))) ((V c main_v109 : S1000000x1.Idx → EReal) (ix2 e (0 : Fin 1)))

/-- The mask of edge `e`, from the region's input arrays. -/
def maskAt (c : Dev nD) (e : Fin 1000000) : EReal :=
  maskOf (simAt V c e) ((V c main_v110 : S1000000x1.Idx → BitVec 32) (ix2 e (0 : Fin 1)))
    ((V c main_v111 : S1000000x1.Idx → BitVec 32) (ix2 e (0 : Fin 1))) ((V c main_v32_1 : S1000000x1.Idx → EReal) (ix2 e (0 : Fin 1)))

/-- The weight of edge `e`, from the region's input arrays. -/
def weightAt (c : Dev nD) (e : Fin 1000000) : EReal := weightOf (simAt V c e) (maskAt V c e)

/-- The mask array and the weight array, as functions of the array index. -/
def maskArr (c : Dev nD) : S1000000x1.Idx → EReal := fun i => maskAt V c (i 0)
def weightArr (c : Dev nD) : S1000000x1.Idx → EReal := fun i => weightAt V c (i 0)

example : Pipeline.arrRef spec5 0 = main_v88 := rfl
example : Pipeline.arrRef spec5 1 = main_v95 := rfl
example : Pipeline.arrRef spec5 2 = main_v102 := rfl
example : Pipeline.arrRef spec5 3 = main_v109 := rfl
example : Pipeline.arrRef spec5 4 = main_v110 := rfl
example : Pipeline.arrRef spec5 5 = main_v111 := rfl
example : Pipeline.arrRef spec5 6 = main_v32_1 := rfl
example : Pipeline.arrRef spec5 7 = main_v112_0 := rfl
example : Pipeline.arrRef spec5 8 = main_v112_1 := rfl

theorem hz : (![0, 0] : Fin 2 → Nat) = fun _ => 0 := funext fun a => by fin_cases a <;> rfl

/-- The index maps, decided over the grid: at point `t` every window's block is row block `t`, column block 0. -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = t.val ∧ win5_4.index t (1 : Fin 2) = 0)
    ∧ (win5_5.index t (0 : Fin 2) = t.val ∧ win5_5.index t (1 : Fin 2) = 0)
    ∧ (win5_6.index t (0 : Fin 2) = t.val ∧ win5_6.index t (1 : Fin 2) = 0)
    ∧ (win5_7.index t (0 : Fin 2) = t.val ∧ win5_7.index t (1 : Fin 2) = 0)
    ∧ (win5_8.index t (0 : Fin 2) = t.val ∧ win5_8.index t (1 : Fin 2) = 0) :=
  (by decide +kernel : ∀ t : Fin grid5.N, _)

/-! ### Each input block as rows of its array: row `r` of point `t`'s block is row `2000 t + r` -/

theorem blk0 (c : Dev nD) (t : Fin cfg5.N) (r : Fin 2000) (k : Fin 256) (e : Fin 1000000) (he : e.val = t.val * 2000 + r.val) :
    (iblk5 (F := Ideal) V c 0 t : Vec Ideal S2000x256 .f32) (ix2 r k) = (V c main_v88 : S1000000x256.Idx → EReal) (ix2 e k) := by
  obtain ⟨⟨h0, h1⟩, -⟩ := idx_facts t
  show (V c main_v88 : S1000000x256.Idx → EReal) (((cfg5.win 0).blk t).view.emb (ix2 r k)) = _
  refine congrArg _ (funext fun a => Fin.ext ?_)
  match a with
  | ⟨0, _⟩ => show win5_0.index t (0 : Fin 2) * 2000 + 1 * r.val = e.val; rw [h0, he]; omega
  | ⟨1, _⟩ => show win5_0.index t (1 : Fin 2) * 256 + 1 * k.val = k.val; rw [h1]; omega

theorem blk1 (c : Dev nD) (t : Fin cfg5.N) (r : Fin 2000) (k : Fin 256) (e : Fin 1000000) (he : e.val = t.val * 2000 + r.val) :
    (iblk5 (F := Ideal) V c 1 t : Vec Ideal S2000x256 .f32) (ix2 r k) = (V c main_v95 : S1000000x256.Idx → EReal) (ix2 e k) := by
  obtain ⟨-, ⟨h0, h1⟩, -⟩ := idx_facts t
  show (V c main_v95 : S1000000x256.Idx → EReal) (((cfg5.win 1).blk t).view.emb (ix2 r k)) = _
  refine congrArg _ (funext fun a => Fin.ext ?_)
  match a with
  | ⟨0, _⟩ => show win5_1.index t (0 : Fin 2) * 2000 + 1 * r.val = e.val; rw [h0, he]; omega
  | ⟨1, _⟩ => show win5_1.index t (1 : Fin 2) * 256 + 1 * k.val = k.val; rw [h1]; omega

theorem blk2 (c : Dev nD) (t : Fin cfg5.N) (r : Fin 2000) (u : Fin 1) (e : Fin 1000000) (he : e.val = t.val * 2000 + r.val) :
    (iblk5 (F := Ideal) V c 2 t : Vec Ideal S2000x1 .f32) (ix2 r u) = (V c main_v102 : S1000000x1.Idx → EReal) (ix2 e (0 : Fin 1)) := by
  obtain ⟨-, -, ⟨h0, h1⟩, -⟩ := idx_facts t
  show (V c main_v102 : S1000000x1.Idx → EReal) (((cfg5.win 2).blk t).view.emb (ix2 r u)) = _
  refine congrArg _ (funext fun a => Fin.ext ?_)
  have hu : u.val = 0 := by omega
  match a with
  | ⟨0, _⟩ => show win5_2.index t (0 : Fin 2) * 2000 + 1 * r.val = e.val; rw [h0, he]; omega
  | ⟨1, _⟩ => show win5_2.index t (1 : Fin 2) * 1 + 1 * u.val = 0; rw [h1, hu]

theorem blk3 (c : Dev nD) (t : Fin cfg5.N) (r : Fin 2000) (u : Fin 1) (e : Fin 1000000) (he : e.val = t.val * 2000 + r.val) :
    (iblk5 (F := Ideal) V c 3 t : Vec Ideal S2000x1 .f32) (ix2 r u) = (V c main_v109 : S1000000x1.Idx → EReal) (ix2 e (0 : Fin 1)) := by
  obtain ⟨-, -, -, ⟨h0, h1⟩, -⟩ := idx_facts t
  show (V c main_v109 : S1000000x1.Idx → EReal) (((cfg5.win 3).blk t).view.emb (ix2 r u)) = _
  refine congrArg _ (funext fun a => Fin.ext ?_)
  have hu : u.val = 0 := by omega
  match a with
  | ⟨0, _⟩ => show win5_3.index t (0 : Fin 2) * 2000 + 1 * r.val = e.val; rw [h0, he]; omega
  | ⟨1, _⟩ => show win5_3.index t (1 : Fin 2) * 1 + 1 * u.val = 0; rw [h1, hu]

theorem blk4 (c : Dev nD) (t : Fin cfg5.N) (r : Fin 2000) (u : Fin 1) (e : Fin 1000000) (he : e.val = t.val * 2000 + r.val) :
    (iblk5 (F := Ideal) V c 4 t : Vec Ideal S2000x1 .i32) (ix2 r u) = (V c main_v110 : S1000000x1.Idx → BitVec 32) (ix2 e (0 : Fin 1)) := by
  obtain ⟨-, -, -, -, ⟨h0, h1⟩, -⟩ := idx_facts t
  show (V c main_v110 : S1000000x1.Idx → BitVec 32) (((cfg5.win 4).blk t).view.emb (ix2 r u)) = _
  refine congrArg _ (funext fun a => Fin.ext ?_)
  have hu : u.val = 0 := by omega
  match a with
  | ⟨0, _⟩ => show win5_4.index t (0 : Fin 2) * 2000 + 1 * r.val = e.val; rw [h0, he]; omega
  | ⟨1, _⟩ => show win5_4.index t (1 : Fin 2) * 1 + 1 * u.val = 0; rw [h1, hu]

theorem blk5 (c : Dev nD) (t : Fin cfg5.N) (r : Fin 2000) (u : Fin 1) (e : Fin 1000000) (he : e.val = t.val * 2000 + r.val) :
    (iblk5 (F := Ideal) V c 5 t : Vec Ideal S2000x1 .i32) (ix2 r u) = (V c main_v111 : S1000000x1.Idx → BitVec 32) (ix2 e (0 : Fin 1)) := by
  obtain ⟨-, -, -, -, -, ⟨h0, h1⟩, -⟩ := idx_facts t
  show (V c main_v111 : S1000000x1.Idx → BitVec 32) (((cfg5.win 5).blk t).view.emb (ix2 r u)) = _
  refine congrArg _ (funext fun a => Fin.ext ?_)
  have hu : u.val = 0 := by omega
  match a with
  | ⟨0, _⟩ => show win5_5.index t (0 : Fin 2) * 2000 + 1 * r.val = e.val; rw [h0, he]; omega
  | ⟨1, _⟩ => show win5_5.index t (1 : Fin 2) * 1 + 1 * u.val = 0; rw [h1, hu]

theorem blk6 (c : Dev nD) (t : Fin cfg5.N) (r : Fin 2000) (u : Fin 1) (e : Fin 1000000) (he : e.val = t.val * 2000 + r.val) :
    (iblk5 (F := Ideal) V c 6 t : Vec Ideal S2000x1 .f32) (ix2 r u) = (V c main_v32_1 : S1000000x1.Idx → EReal) (ix2 e (0 : Fin 1)) := by
  obtain ⟨-, -, -, -, -, -, ⟨h0, h1⟩, -⟩ := idx_facts t
  show (V c main_v32_1 : S1000000x1.Idx → EReal) (((cfg5.win 6).blk t).view.emb (ix2 r u)) = _
  refine congrArg _ (funext fun a => Fin.ext ?_)
  have hu : u.val = 0 := by omega
  match a with
  | ⟨0, _⟩ => show win5_6.index t (0 : Fin 2) * 2000 + 1 * r.val = e.val; rw [h0, he]; omega
  | ⟨1, _⟩ => show win5_6.index t (1 : Fin 2) * 1 + 1 * u.val = 0; rw [h1, hu]

/-- The three scalar functions of the blocks at row `r` of point `t` are those of the arrays at edge `2000 t + r`. -/
theorem sim_block (c : Dev nD) (t : Fin cfg5.N) (r : Fin 2000) (u : Fin 1) (e : Fin 1000000) (he : e.val = t.val * 2000 + r.val) :
    sim 256 (fun k => (iblk5 (F := Ideal) V c 0 t : Vec Ideal S2000x256 .f32) (ix2 r k))
        (fun k => (iblk5 (F := Ideal) V c 1 t : Vec Ideal S2000x256 .f32) (ix2 r k))
        ((iblk5 (F := Ideal) V c 2 t : Vec Ideal S2000x1 .f32) (ix2 r u))
        ((iblk5 (F := Ideal) V c 3 t : Vec Ideal S2000x1 .f32) (ix2 r u)) = simAt V c e :=
  congr (congr (congr (congrArg (sim 256) (funext fun k => blk0 V c t r k e he)) (funext fun k => blk1 V c t r k e he))
    (blk2 V c t r u e he)) (blk3 V c t r u e he)

theorem mask_block (c : Dev nD) (t : Fin cfg5.N) (r : Fin 2000) (u : Fin 1) (e : Fin 1000000) (he : e.val = t.val * 2000 + r.val) :
    k5_pay2 (F := Ideal) (iblk5 V c 0 t) (iblk5 V c 1 t) (iblk5 V c 2 t) (iblk5 V c 3 t) (iblk5 V c 4 t)
      (iblk5 V c 5 t) (iblk5 V c 6 t) (ix2 r u) = maskArr V c (ix2 e (0 : Fin 1)) :=
  (pay2_apply _ _ _ _ _ _ _ r u).trans
    (congr (congr (congr (congrArg maskOf (sim_block V c t r u e he)) (blk4 V c t r u e he)) (blk5 V c t r u e he))
      (blk6 V c t r u e he))

theorem weight_block (c : Dev nD) (t : Fin cfg5.N) (r : Fin 2000) (u : Fin 1) (e : Fin 1000000) (he : e.val = t.val * 2000 + r.val) :
    k5_pay3 (F := Ideal) (iblk5 V c 0 t) (iblk5 V c 1 t) (iblk5 V c 2 t) (iblk5 V c 3 t) (iblk5 V c 4 t)
      (iblk5 V c 5 t) (iblk5 V c 6 t) (ix2 r u) = weightArr V c (ix2 e (0 : Fin 1)) :=
  (pay3_apply _ _ _ _ _ _ _ r u).trans
    (congr (congrArg weightOf (sim_block V c t r u e he))
      (congr (congr (congr (congrArg maskOf (sim_block V c t r u e he)) (blk4 V c t r u e he)) (blk5 V c t r u e he))
        (blk6 V c t r u e he)))

/-! ### The mask array (output window 8) -/

/-- An index of the mask array lies in point `t`'s block iff each coordinate is in the block's range on its axis. -/
theorem mem_blk8 (t : Fin cfg5.N) (i : S1000000x1.Idx) :
    i ∈ ((cfg5.win 8).blk t).view.set ↔ ∀ a : Fin 2, win5_8.index t a * S2000x1.size a ≤ (i a).val ∧ (i a).val < win5_8.index t a * S2000x1.size a + S2000x1.size a := by
  show i ∈ ((View.whole main_v112_1).slice (win5_8.rect t)).set ↔ _
  rw [View.set_slice_whole, Rect.mem_set_unit]
  exact Iff.rfl

/-- Every edge's entry of the mask array is written back: edge `e` by the point `e / 2000`. -/
theorem cover8 (i : S1000000x1.Idx) : ∃ t : Fin cfg5.N, (cfg5.win 8).flush t = true ∧ i ∈ ((cfg5.win 8).blk t).view.set := by
  have hN : cfg5.N = 500 := N_5
  have hi0 : (i 0).val < 1000000 := (i 0).isLt
  have hi1 : (i 1).val < 1 := (i 1).isLt
  have hlt : (i 0).val / 2000 < cfg5.N := by rw [hN]; omega
  refine ⟨⟨(i 0).val / 2000, hlt⟩, flush5_8 _, ?_⟩
  rw [mem_blk8]
  obtain ⟨-, -, -, -, -, -, -, -, h0, h1⟩ := idx_facts ⟨(i 0).val / 2000, hlt⟩
  intro a
  match a with
  | ⟨0, _⟩ =>
    show win5_8.index ⟨(i 0).val / 2000, hlt⟩ (0 : Fin 2) * 2000 ≤ (i 0).val ∧ (i 0).val < win5_8.index ⟨(i 0).val / 2000, hlt⟩ (0 : Fin 2) * 2000 + 2000
    rw [h0]; show (i 0).val / 2000 * 2000 ≤ (i 0).val ∧ (i 0).val < (i 0).val / 2000 * 2000 + 2000; omega
  | ⟨1, _⟩ =>
    show win5_8.index ⟨(i 0).val / 2000, hlt⟩ (1 : Fin 2) * 1 ≤ (i 1).val ∧ (i 1).val < win5_8.index ⟨(i 0).val / 2000, hlt⟩ (1 : Fin 2) * 1 + 1
    rw [h1]; omega

/-- What point `t` writes back to the mask array is block `t` of `maskArr`. -/
theorem flushed_mask (c : Dev nD) (t : Fin cfg5.N) :
    (dat5 (F := Ideal) V c).flushed 8 t = ((cfg5.win 8).blk t).view.read (Elt Ideal) (maskArr V c) := by
  show (cfg5.win 8).cut (grid5.coords t) ((dat5 (F := Ideal) V c).after 8 t) = _
  rw [after5_8]
  unfold out5_8
  rw [View.canon_unit_zero hz]
  simp only [View.ld_unit_zero (S := S2000x256) hz, View.ld_unit_zero (S := S2000x1) hz]
  funext j
  obtain ⟨r, u, rfl⟩ : ∃ (r : Fin 2000) (u : Fin 1), j = ix2 r u := ⟨j 0, j 1, eq_ix2 j⟩
  have hN : cfg5.N = 500 := N_5
  have ht : t.val < cfg5.N := t.isLt
  have hr : r.val < 2000 := r.isLt
  have hu : u.val = 0 := by omega
  have ht' : t.val < 500 := Nat.lt_of_lt_of_eq ht hN
  have hlt : t.val * 2000 + r.val < 1000000 := by omega
  obtain ⟨-, -, -, -, -, -, -, -, h0, h1⟩ := idx_facts t
  have hemb : ((cfg5.win 8).blk t).view.emb (ix2 r u) = ix2 (⟨t.val * 2000 + r.val, hlt⟩ : Fin 1000000) (0 : Fin 1) := by
    funext a; apply Fin.ext
    match a with
    | ⟨0, _⟩ => show win5_8.index t (0 : Fin 2) * 2000 + 1 * r.val = t.val * 2000 + r.val; rw [h0]; omega
    | ⟨1, _⟩ => show win5_8.index t (1 : Fin 2) * 1 + 1 * u.val = 0; rw [h1, hu]
  show k5_pay2 (F := Ideal) (iblk5 V c 0 t) (iblk5 V c 1 t) (iblk5 V c 2 t) (iblk5 V c 3 t) (iblk5 V c 4 t) (iblk5 V c 5 t) (iblk5 V c 6 t) (ix2 r u)
    = maskArr V c (((cfg5.win 8).blk t).view.emb (ix2 r u))
  rw [hemb]
  exact mask_block V c t r u ⟨t.val * 2000 + r.val, hlt⟩ rfl

/-- THE MASK ARRAY after the region: `maskAt` of the region's input arrays, edge by edge. -/
theorem mask_array (c : Dev nD) : (dat5 (F := Ideal) V c).arrAt 8 cfg5.N = maskArr V c :=
  (dat5 (F := Ideal) V c).arrAt_eq_of_cover 8 (maskArr V c) (fun t _ => flushed_mask V c t) cover8

theorem mask_final (c : Dev nD) (e : Fin 1000000) :
    (dat5 (F := Ideal) V c).arrAt 8 cfg5.N (ix2 e (0 : Fin 1)) = maskAt V c e :=
  congrFun (mask_array V c) (ix2 e (0 : Fin 1))

/-! ### The weight array (output window 7) -/

/-- An index of the weight array lies in point `t`'s block iff each coordinate is in the block's range on its axis. -/
theorem mem_blk7 (t : Fin cfg5.N) (i : S1000000x1.Idx) :
    i ∈ ((cfg5.win 7).blk t).view.set ↔ ∀ a : Fin 2, win5_7.index t a * S2000x1.size a ≤ (i a).val ∧ (i a).val < win5_7.index t a * S2000x1.size a + S2000x1.size a := by
  show i ∈ ((View.whole main_v112_0).slice (win5_7.rect t)).set ↔ _
  rw [View.set_slice_whole, Rect.mem_set_unit]
  exact Iff.rfl

/-- Every edge's entry of the weight array is written back: edge `e` by the point `e / 2000`. -/
theorem cover7 (i : S1000000x1.Idx) : ∃ t : Fin cfg5.N, (cfg5.win 7).flush t = true ∧ i ∈ ((cfg5.win 7).blk t).view.set := by
  have hN : cfg5.N = 500 := N_5
  have hi0 : (i 0).val < 1000000 := (i 0).isLt
  have hi1 : (i 1).val < 1 := (i 1).isLt
  have hlt : (i 0).val / 2000 < cfg5.N := by rw [hN]; omega
  refine ⟨⟨(i 0).val / 2000, hlt⟩, flush5_7 _, ?_⟩
  rw [mem_blk7]
  obtain ⟨-, -, -, -, -, -, -, ⟨h0, h1⟩, -⟩ := idx_facts ⟨(i 0).val / 2000, hlt⟩
  intro a
  match a with
  | ⟨0, _⟩ =>
    show win5_7.index ⟨(i 0).val / 2000, hlt⟩ (0 : Fin 2) * 2000 ≤ (i 0).val ∧ (i 0).val < win5_7.index ⟨(i 0).val / 2000, hlt⟩ (0 : Fin 2) * 2000 + 2000
    rw [h0]; show (i 0).val / 2000 * 2000 ≤ (i 0).val ∧ (i 0).val < (i 0).val / 2000 * 2000 + 2000; omega
  | ⟨1, _⟩ =>
    show win5_7.index ⟨(i 0).val / 2000, hlt⟩ (1 : Fin 2) * 1 ≤ (i 1).val ∧ (i 1).val < win5_7.index ⟨(i 0).val / 2000, hlt⟩ (1 : Fin 2) * 1 + 1
    rw [h1]; omega

/-- What point `t` writes back to the weight array is block `t` of `weightArr`. -/
theorem flushed_weight (c : Dev nD) (t : Fin cfg5.N) :
    (dat5 (F := Ideal) V c).flushed 7 t = ((cfg5.win 7).blk t).view.read (Elt Ideal) (weightArr V c) := by
  show (cfg5.win 7).cut (grid5.coords t) ((dat5 (F := Ideal) V c).after 7 t) = _
  rw [after5_7]
  unfold out5_7
  rw [View.canon_unit_zero hz]
  simp only [View.ld_unit_zero (S := S2000x256) hz, View.ld_unit_zero (S := S2000x1) hz]
  funext j
  obtain ⟨r, u, rfl⟩ : ∃ (r : Fin 2000) (u : Fin 1), j = ix2 r u := ⟨j 0, j 1, eq_ix2 j⟩
  have hN : cfg5.N = 500 := N_5
  have ht : t.val < cfg5.N := t.isLt
  have hr : r.val < 2000 := r.isLt
  have hu : u.val = 0 := by omega
  have ht' : t.val < 500 := Nat.lt_of_lt_of_eq ht hN
  have hlt : t.val * 2000 + r.val < 1000000 := by omega
  obtain ⟨-, -, -, -, -, -, -, ⟨h0, h1⟩, -⟩ := idx_facts t
  have hemb : ((cfg5.win 7).blk t).view.emb (ix2 r u) = ix2 (⟨t.val * 2000 + r.val, hlt⟩ : Fin 1000000) (0 : Fin 1) := by
    funext a; apply Fin.ext
    match a with
    | ⟨0, _⟩ => show win5_7.index t (0 : Fin 2) * 2000 + 1 * r.val = t.val * 2000 + r.val; rw [h0]; omega
    | ⟨1, _⟩ => show win5_7.index t (1 : Fin 2) * 1 + 1 * u.val = 0; rw [h1, hu]
  show k5_pay3 (F := Ideal) (iblk5 V c 0 t) (iblk5 V c 1 t) (iblk5 V c 2 t) (iblk5 V c 3 t) (iblk5 V c 4 t) (iblk5 V c 5 t) (iblk5 V c 6 t) (ix2 r u)
    = weightArr V c (((cfg5.win 7).blk t).view.emb (ix2 r u))
  rw [hemb]
  exact weight_block V c t r u ⟨t.val * 2000 + r.val, hlt⟩ rfl

/-- THE WEIGHT ARRAY after the region: `weightAt` of the region's input arrays, edge by edge. -/
theorem weight_array (c : Dev nD) : (dat5 (F := Ideal) V c).arrAt 7 cfg5.N = weightArr V c :=
  (dat5 (F := Ideal) V c).arrAt_eq_of_cover 7 (weightArr V c) (fun t _ => flushed_weight V c t) cover7

theorem weight_final (c : Dev nD) (e : Fin 1000000) :
    (dat5 (F := Ideal) V c).arrAt 7 cfg5.N (ix2 e (0 : Fin 1)) = weightAt V c e :=
  congrFun (weight_array V c) (ix2 e (0 : Fin 1))

end Blocks

end Cert.KernelIdeal.Region5

end
-- ==== Proof.Region6.lean ====
/-
  Region 6 (the second layer's edge weighting), from blocks to the array. Each grid point takes a block of 2000 rows of
  three per-edge weight columns `a`, `b`, `d` [1000000, 1] and of the gathered features `x` [1000000, 40], and writes
  the block of `((a * b) * d) * x` (the weights' product spread along columns). Here: the body's arithmetic at an index
  of a block (`weighted_payload`), what a point writes back as a block of ONE function of the four input arrays
  (`flushed_eq`), the 500 blocks cover the array (`cover`), so after the region the output array is that function
  (`weighted_array`, `weighted_final`).
-/
import proofs.«160892_j10402410791110_2_alg».proof.Proof.Gen.KernelIdeal.Frame
import Idealize.ShloMosaic.Lib.Pipeline.Value
import Idealize.ShloMosaic.Lib.ValueLayout

noncomputable section

namespace Cert.KernelIdeal.Region6

open Idealize.ShloMosaic Idealize.ShloMosaic.TcCoe Idealize.SL.Sem Idealize.ShloMosaic.ValueIdx Cert.KernelIdeal Cert.KernelIdeal.Gen
open Idealize.ShloMosaic.Pipeline (Dat Cfg Window)

variable (V : (c : Dev nD) → (b : Ref sig .tc) → Buf (Elt Ideal) ((c : Thread nD τ).loc b))

/-! ## Layout: a column spread over a matrix -/

theorem hz : (![0, 0] : Fin 2 → Nat) = fun _ => 0 := funext fun a => by fin_cases a <;> rfl

/-- An `[a, 1]` column broadcast to `[a, b]` reads, at `(p, q)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- One entry of the result from the four entries it reads: the product of the row's three weights, times the feature. -/
abbrev weight1 (a b d x : EReal) : EReal := ((a * b) * d) * x

/-- The body's result at row `p`, column `q` of a block. -/
theorem weighted_payload (x0 : Vec Ideal S2000x1 .f32) (x1 : Vec Ideal S2000x1 .f32) (x2 : Vec Ideal S2000x1 .f32)
    (x3 : Vec Ideal S2000x40 .f32) (p : Fin 2000) (q : Fin 40) :
    k6_pay1 x0 x1 x2 x3 (ix2 p q)
      = weight1 (x0 (ix2 p (0 : Fin 1))) (x1 (ix2 p (0 : Fin 1))) (x2 (ix2 p (0 : Fin 1))) (x3 (ix2 p q)) := by
  unfold k6_pay1
  simp only [shapeCast_self]
  rw [mulf_apply, broadcastTo_a1_ab_apply, mulf_apply, mulf_apply]

/-- The same at an index of the block not yet split into its coordinates. -/
theorem weighted_payload_idx (x0 : Vec Ideal S2000x1 .f32) (x1 : Vec Ideal S2000x1 .f32) (x2 : Vec Ideal S2000x1 .f32)
    (x3 : Vec Ideal S2000x40 .f32) (y : S2000x40.Idx) :
    k6_pay1 x0 x1 x2 x3 y
      = weight1 (x0 (ix2 (y 0 : Fin 2000) (0 : Fin 1))) (x1 (ix2 (y 0 : Fin 2000) (0 : Fin 1)))
          (x2 (ix2 (y 0 : Fin 2000) (0 : Fin 1))) (x3 y) := by
  obtain ⟨p, q, rfl⟩ : ∃ (p : Fin 2000) (q : Fin 40), y = ix2 p q := ⟨y 0, y 1, eq_ix2 y⟩
  exact weighted_payload x0 x1 x2 x3 p q

/-! ## From blocks to the array -/

/-- The output array as one function of the four input arrays, index by index. -/
abbrev weighted (w0 : S1000000x1.Idx → EReal) (w1 : S1000000x1.Idx → EReal) (w2 : S1000000x1.Idx → EReal)
    (feat : S1000000x40.Idx → EReal) : S1000000x40.Idx → EReal :=
  fun i => weight1 (w0 (ix2 (i 0 : Fin 1000000) (0 : Fin 1))) (w1 (ix2 (i 0 : Fin 1000000) (0 : Fin 1)))
      (w2 (ix2 (i 0 : Fin 1000000) (0 : Fin 1))) (feat i)

/-- The printed index maps, decided over the grid: every window is at block row `t`, column block 0. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

set_option maxHeartbeats 1000000 in
/-- What point `t` writes back is block `t` of `weighted` of the input arrays as the region finds them. -/
theorem flushed_eq (c : Dev nD) (t : Fin cfg6.N) :
    (dat6 (F := Ideal) V c).flushed 4 t
      = ((cfg6.win 4).blk t).view.read (Elt Ideal)
          (weighted (V c main_v132) (V c main_v112_0) (V c main_v140) (V c main_v147)) := by
  show (cfg6.win 4).cut (grid6.coords t) ((dat6 V c).after 4 t) = _
  rw [after6_4]
  unfold out6_4
  rw [View.canon_unit_zero hz]
  simp only [View.ld_unit_zero (S := S2000x40) hz, View.ld_unit_zero (S := S2000x1) hz]
  obtain ⟨e00, e01, e10, e11, e20, e21, e30, e31, e40, e41⟩ := index_facts t
  funext y
  refine (weighted_payload_idx _ _ _ _ y).trans ?_
  show weight1 (V c main_v132 (((cfg6.win 0).blk t).view.emb (ix2 (y 0 : Fin 2000) (0 : Fin 1))))
        (V c main_v112_0 (((cfg6.win 1).blk t).view.emb (ix2 (y 0 : Fin 2000) (0 : Fin 1))))
        (V c main_v140 (((cfg6.win 2).blk t).view.emb (ix2 (y 0 : Fin 2000) (0 : Fin 1))))
        (V c main_v147 (((cfg6.win 3).blk t).view.emb y))
      = weight1 (V c main_v132 (ix2 ((((cfg6.win 4).blk t).view.emb y) 0 : Fin 1000000) (0 : Fin 1)))
        (V c main_v112_0 (ix2 ((((cfg6.win 4).blk t).view.emb y) 0 : Fin 1000000) (0 : Fin 1)))
        (V c main_v140 (ix2 ((((cfg6.win 4).blk t).view.emb y) 0 : Fin 1000000) (0 : Fin 1)))
        (V c main_v147 (((cfg6.win 4).blk t).view.emb y))
  have hy0 : (y 0).val < 2000 := (y 0).isLt
  have hy1 : (y 1).val < 40 := (y 1).isLt
  have h0 : ((cfg6.win 0).blk t).view.emb (ix2 (y 0 : Fin 2000) (0 : Fin 1))
      = ix2 ((((cfg6.win 4).blk t).view.emb y) 0 : Fin 1000000) (0 : Fin 1) := by
    funext a; apply Fin.ext
    match a with
    | ⟨0, _⟩ => show win6_0.index t (0 : Fin 2) * 2000 + 1 * (y 0).val = win6_4.index t (0 : Fin 2) * 2000 + 1 * (y 0).val; omega
    | ⟨1, _⟩ => show win6_0.index t (1 : Fin 2) * 1 + 1 * 0 = 0; omega
  have h1 : ((cfg6.win 1).blk t).view.emb (ix2 (y 0 : Fin 2000) (0 : Fin 1))
      = ix2 ((((cfg6.win 4).blk t).view.emb y) 0 : Fin 1000000) (0 : Fin 1) := by
    funext a; apply Fin.ext
    match a with
    | ⟨0, _⟩ => show win6_1.index t (0 : Fin 2) * 2000 + 1 * (y 0).val = win6_4.index t (0 : Fin 2) * 2000 + 1 * (y 0).val; omega
    | ⟨1, _⟩ => show win6_1.index t (1 : Fin 2) * 1 + 1 * 0 = 0; omega
  have h2 : ((cfg6.win 2).blk t).view.emb (ix2 (y 0 : Fin 2000) (0 : Fin 1))
      = ix2 ((((cfg6.win 4).blk t).view.emb y) 0 : Fin 1000000) (0 : Fin 1) := by
    funext a; apply Fin.ext
    match a with
    | ⟨0, _⟩ => show win6_2.index t (0 : Fin 2) * 2000 + 1 * (y 0).val = win6_4.index t (0 : Fin 2) * 2000 + 1 * (y 0).val; omega
    | ⟨1, _⟩ => show win6_2.index t (1 : Fin 2) * 1 + 1 * 0 = 0; omega
  have h3 : ((cfg6.win 3).blk t).view.emb y = ((cfg6.win 4).blk t).view.emb y := by
    funext a; apply Fin.ext
    match a with
    | ⟨0, _⟩ => show win6_3.index t (0 : Fin 2) * 2000 + 1 * (y 0).val = win6_4.index t (0 : Fin 2) * 2000 + 1 * (y 0).val; omega
    | ⟨1, _⟩ => show win6_3.index t (1 : Fin 2) * 40 + 1 * (y 1).val = win6_4.index t (1 : Fin 2) * 40 + 1 * (y 1).val; omega
  rw [h0, h1, h2, h3]
  rfl

/-- An index of the array is in point `t`'s block iff each coordinate is in the block's range on its axis. -/
theorem mem_blk (t : Fin cfg6.N) (i : S1000000x40.Idx) :
    i ∈ ((cfg6.win 4).blk t).view.set ↔ ∀ a : Fin 2, win6_4.index t a * S2000x40.size a ≤ (i a).val
      ∧ (i a).val < win6_4.index t a * S2000x40.size a + S2000x40.size a := by
  show i ∈ ((View.whole main_v148).slice (win6_4.rect t)).set ↔ _
  rw [View.set_slice_whole, Rect.mem_set_unit]
  exact Iff.rfl

/-- Every index of the array is in the block of the point its row falls in: row `r` is in block `r / 2000`. -/
theorem cover (i : S1000000x40.Idx) :
    ∃ t : Fin cfg6.N, (cfg6.win 4).flush t = true ∧ i ∈ ((cfg6.win 4).blk t).view.set := by
  have hN : cfg6.N = 500 := N_6
  have hi0 : (i 0).val < 1000000 := (i 0).isLt
  have hi1 : (i 1).val < 40 := (i 1).isLt
  have ht : (i 0).val / 2000 < cfg6.N := by rw [hN]; omega
  obtain ⟨-, -, -, -, -, -, -, -, e40, e41⟩ := index_facts ⟨(i 0).val / 2000, ht⟩
  refine ⟨⟨(i 0).val / 2000, ht⟩, flush6_4 _, ?_⟩
  rw [mem_blk]
  intro a
  match a with
  | ⟨0, _⟩ =>
    show win6_4.index ⟨(i 0).val / 2000, ht⟩ (0 : Fin 2) * 2000 ≤ (i 0).val
      ∧ (i 0).val < win6_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win6_4.index ⟨(i 0).val / 2000, ht⟩ (1 : Fin 2) * 40 ≤ (i 1).val
      ∧ (i 1).val < win6_4.index ⟨(i 0).val / 2000, ht⟩ (1 : Fin 2) * 40 + 40
    rw [e41]; omega

/-- THE ARRAY after the region: `weighted` of the input arrays as the region finds them. -/
theorem weighted_array (c : Dev nD) :
    (dat6 (F := Ideal) V c).arrAt 4 cfg6.N
      = weighted (V c main_v132) (V c main_v112_0) (V c main_v140) (V c main_v147) :=
  (dat6 (F := Ideal) V c).arrAt_eq_of_cover 4 _ (fun t _ => flushed_eq V c t) cover

/-- The output array at row `e`, column `j`, the four input arrays named as functions to the extended reals: the
    product of the row's three weights, times the feature. -/
theorem weighted_final (c : Dev nD) (w0 w1 w2 : S1000000x1.Idx → EReal) (feat : S1000000x40.Idx → EReal)
    (h0 : V c main_v132 = w0) (h1 : V c main_v112_0 = w1) (h2 : V c main_v140 = w2) (hfeat : V c main_v147 = feat)
    (e : Fin 1000000) (j : Fin 40) :
    (dat6 (F := Ideal) V c).arrAt 4 cfg6.N (ix2 e j)
      = ((w0 (ix2 e (0 : Fin 1)) * w1 (ix2 e (0 : Fin 1))) * w2 (ix2 e (0 : Fin 1))) * feat (ix2 e j) := by
  subst h0 h1 h2 hfeat
  exact congrFun (weighted_array V c) (ix2 e j)

end Cert.KernelIdeal.Region6

end
-- ==== Proof.Region7.lean ====
/-
  Region 7 (the second layer's combine step), from blocks to the array. Each grid point takes a block of 2000 rows
  of the aggregate `agg` [100000, 40], of the per-row scale `s` [100000, 1] and of the features `h` [100000, 40], and
  the whole bias row `b` [1, 40], and writes the block of `agg + s * h + b` (the scale spread along columns, the bias
  along rows). Here: the body's arithmetic at an index of a block (`combine_payload`), what a point writes back as a
  block of ONE function of the four input arrays (`flushed_eq`), the 50 blocks cover the array (`cover`), so after
  the region the output array is that function (`combine_array`, `combine_final`).
-/
import proofs.«160892_j10402410791110_2_alg».proof.Proof.Gen.KernelIdeal.Frame
import Idealize.ShloMosaic.Lib.Pipeline.Value
import Idealize.ShloMosaic.Lib.ValueLayout

noncomputable section

namespace Cert.KernelIdeal.Region7

open Idealize.ShloMosaic Idealize.ShloMosaic.TcCoe Idealize.SL.Sem Idealize.ShloMosaic.ValueIdx Cert.KernelIdeal Cert.KernelIdeal.Gen
open Idealize.ShloMosaic.Pipeline (Dat Cfg Window)

variable (V : (c : Dev nD) → (b : Ref sig .tc) → Buf (Elt Ideal) ((c : Thread nD τ).loc b))

/-! ## Layout: a column and a row spread over a matrix -/

theorem hz : (![0, 0] : Fin 2 → Nat) = fun _ => 0 := funext fun a => by fin_cases a <;> rfl

/-- An `[a, 1]` column broadcast to `[a, b]` reads, at `(p, q)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- One entry of the result from the four entries it reads: the aggregate plus the row's scale times the feature, plus the
    column's bias. -/
abbrev combine1 (a s f b : EReal) : EReal := (a + s * f) + b

/-- The body's result at row `p`, column `q` of a block. -/
theorem combine_payload (x0 : Vec Ideal S2000x40 .f32) (x1 : Vec Ideal S2000x1 .f32) (x2 : Vec Ideal S2000x40 .f32)
    (x3 : Vec Ideal S1x40 .f32) (p : Fin 2000) (q : Fin 40) :
    k7_pay1 x0 x1 x2 x3 (ix2 p q)
      = combine1 (x0 (ix2 p q)) (x1 (ix2 p (0 : Fin 1))) (x2 (ix2 p q)) (x3 (ix2 (0 : Fin 1) q)) := by
  unfold k7_pay1
  simp only [shapeCast_self]
  rw [addf_apply, addf_apply, mulf_apply, broadcastTo_a1_ab_apply, broadcastTo_1b_ab_apply]

/-- The same at an index of the block not yet split into its coordinates. -/
theorem combine_payload_idx (x0 : Vec Ideal S2000x40 .f32) (x1 : Vec Ideal S2000x1 .f32) (x2 : Vec Ideal S2000x40 .f32)
    (x3 : Vec Ideal S1x40 .f32) (y : S2000x40.Idx) :
    k7_pay1 x0 x1 x2 x3 y
      = combine1 (x0 y) (x1 (ix2 (y 0 : Fin 2000) (0 : Fin 1))) (x2 y) (x3 (ix2 (0 : Fin 1) (y 1 : Fin 40))) := by
  obtain ⟨p, q, rfl⟩ : ∃ (p : Fin 2000) (q : Fin 40), y = ix2 p q := ⟨y 0, y 1, eq_ix2 y⟩
  exact combine_payload x0 x1 x2 x3 p q

/-! ## From blocks to the array -/

/-- The output array as one function of the four input arrays, index by index. -/
abbrev combined (agg : S100000x40.Idx → EReal) (scale : S100000x1.Idx → EReal) (feat : S100000x40.Idx → EReal)
    (bias : S1x40.Idx → EReal) : S100000x40.Idx → EReal :=
  fun i => combine1 (agg i) (scale (ix2 (i 0 : Fin 100000) (0 : Fin 1))) (feat i) (bias (ix2 (0 : Fin 1) (i 1 : Fin 40)))

/-- The printed index maps, decided over the grid: the row-blocked windows are at block row `t`, column block 0;
    the bias window is always its whole array. -/
theorem index_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of `combined` of the input arrays as the region finds them. -/
theorem flushed_eq (c : Dev nD) (t : Fin cfg7.N) :
    (dat7 (F := Ideal) V c).flushed 4 t
      = ((cfg7.win 4).blk t).view.read (Elt Ideal)
          (combined (V c main_v156) (V c main_v158) (V c main_v81_0) (V c main_v159)) := by
  show (cfg7.win 4).cut (grid7.coords t) ((dat7 V c).after 4 t) = _
  rw [after7_4]
  unfold out7_4
  rw [View.canon_unit_zero hz]
  simp only [View.ld_unit_zero (S := S2000x40) hz, View.ld_unit_zero (S := S2000x1) hz, View.ld_unit_zero (S := S1x40) hz]
  obtain ⟨e00, e01, e10, e11, e20, e21, e30, e31, e40, e41⟩ := index_facts t
  funext y
  refine (combine_payload_idx _ _ _ _ y).trans ?_
  show combine1 (V c main_v156 (((cfg7.win 0).blk t).view.emb y))
        (V c main_v158 (((cfg7.win 1).blk t).view.emb (ix2 (y 0 : Fin 2000) (0 : Fin 1))))
        (V c main_v81_0 (((cfg7.win 2).blk t).view.emb y))
        (V c main_v159 (((cfg7.win 3).blk t).view.emb (ix2 (0 : Fin 1) (y 1 : Fin 40))))
      = combine1 (V c main_v156 (((cfg7.win 4).blk t).view.emb y))
        (V c main_v158 (ix2 ((((cfg7.win 4).blk t).view.emb y) 0 : Fin 100000) (0 : Fin 1)))
        (V c main_v81_0 (((cfg7.win 4).blk t).view.emb y))
        (V c main_v159 (ix2 (0 : Fin 1) ((((cfg7.win 4).blk t).view.emb y) 1 : Fin 40)))
  have hy0 : (y 0).val < 2000 := (y 0).isLt
  have hy1 : (y 1).val < 40 := (y 1).isLt
  have h0 : ((cfg7.win 0).blk t).view.emb y = ((cfg7.win 4).blk t).view.emb y := by
    funext a; apply Fin.ext
    match a with
    | ⟨0, _⟩ => show win7_0.index t (0 : Fin 2) * 2000 + 1 * (y 0).val = win7_4.index t (0 : Fin 2) * 2000 + 1 * (y 0).val; omega
    | ⟨1, _⟩ => show win7_0.index t (1 : Fin 2) * 40 + 1 * (y 1).val = win7_4.index t (1 : Fin 2) * 40 + 1 * (y 1).val; omega
  have h2 : ((cfg7.win 2).blk t).view.emb y = ((cfg7.win 4).blk t).view.emb y := by
    funext a; apply Fin.ext
    match a with
    | ⟨0, _⟩ => show win7_2.index t (0 : Fin 2) * 2000 + 1 * (y 0).val = win7_4.index t (0 : Fin 2) * 2000 + 1 * (y 0).val; omega
    | ⟨1, _⟩ => show win7_2.index t (1 : Fin 2) * 40 + 1 * (y 1).val = win7_4.index t (1 : Fin 2) * 40 + 1 * (y 1).val; omega
  have h1 : ((cfg7.win 1).blk t).view.emb (ix2 (y 0 : Fin 2000) (0 : Fin 1))
      = ix2 ((((cfg7.win 4).blk t).view.emb y) 0 : Fin 100000) (0 : Fin 1) := by
    funext a; apply Fin.ext
    match a with
    | ⟨0, _⟩ => show win7_1.index t (0 : Fin 2) * 2000 + 1 * (y 0).val = win7_4.index t (0 : Fin 2) * 2000 + 1 * (y 0).val; omega
    | ⟨1, _⟩ => show win7_1.index t (1 : Fin 2) * 1 + 1 * 0 = 0; omega
  have h3 : ((cfg7.win 3).blk t).view.emb (ix2 (0 : Fin 1) (y 1 : Fin 40))
      = ix2 (0 : Fin 1) ((((cfg7.win 4).blk t).view.emb y) 1 : Fin 40) := by
    funext a; apply Fin.ext
    match a with
    | ⟨0, _⟩ => show win7_3.index t (0 : Fin 2) * 1 + 1 * 0 = 0; omega
    | ⟨1, _⟩ => show win7_3.index t (1 : Fin 2) * 40 + 1 * (y 1).val = win7_4.index t (1 : Fin 2) * 40 + 1 * (y 1).val; omega
  rw [h0, h1, h2, h3]
  rfl

/-- An index of the array is in point `t`'s block iff each coordinate is in the block's range on its axis. -/
theorem mem_blk (t : Fin cfg7.N) (i : S100000x40.Idx) :
    i ∈ ((cfg7.win 4).blk t).view.set ↔ ∀ a : Fin 2, win7_4.index t a * S2000x40.size a ≤ (i a).val
      ∧ (i a).val < win7_4.index t a * S2000x40.size a + S2000x40.size a := by
  show i ∈ ((View.whole main_v160).slice (win7_4.rect t)).set ↔ _
  rw [View.set_slice_whole, Rect.mem_set_unit]
  exact Iff.rfl

/-- Every index of the array is in the block of the point its row falls in: row `r` is in block `r / 2000`. -/
theorem cover (i : S100000x40.Idx) :
    ∃ t : Fin cfg7.N, (cfg7.win 4).flush t = true ∧ i ∈ ((cfg7.win 4).blk t).view.set := by
  have hN : cfg7.N = 50 := N_7
  have hi0 : (i 0).val < 100000 := (i 0).isLt
  have hi1 : (i 1).val < 40 := (i 1).isLt
  have ht : (i 0).val / 2000 < cfg7.N := by rw [hN]; omega
  obtain ⟨-, -, -, -, -, -, -, -, e40, e41⟩ := index_facts ⟨(i 0).val / 2000, ht⟩
  refine ⟨⟨(i 0).val / 2000, ht⟩, flush7_4 _, ?_⟩
  rw [mem_blk]
  intro a
  match a with
  | ⟨0, _⟩ =>
    show win7_4.index ⟨(i 0).val / 2000, ht⟩ (0 : Fin 2) * 2000 ≤ (i 0).val
      ∧ (i 0).val < win7_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win7_4.index ⟨(i 0).val / 2000, ht⟩ (1 : Fin 2) * 40 ≤ (i 1).val
      ∧ (i 1).val < win7_4.index ⟨(i 0).val / 2000, ht⟩ (1 : Fin 2) * 40 + 40
    rw [e41]; omega

/-- THE ARRAY after the region: `combined` of the input arrays as the region finds them. -/
theorem combine_array (c : Dev nD) :
    (dat7 (F := Ideal) V c).arrAt 4 cfg7.N
      = combined (V c main_v156) (V c main_v158) (V c main_v81_0) (V c main_v159) :=
  (dat7 (F := Ideal) V c).arrAt_eq_of_cover 4 _ (fun t _ => flushed_eq V c t) cover

/-- The output array at row `i`, column `j`, the four input arrays named as functions to the extended reals:
    the aggregate plus the row's scale times the feature, plus the
    column's bias. -/
theorem combine_final (c : Dev nD) (agg feat : S100000x40.Idx → EReal) (scale : S100000x1.Idx → EReal)
    (bias : S1x40.Idx → EReal) (hagg : V c main_v156 = agg) (hscale : V c main_v158 = scale)
    (hfeat : V c main_v81_0 = feat) (hbias : V c main_v159 = bias) (i : Fin 100000) (j : Fin 40) :
    (dat7 (F := Ideal) V c).arrAt 4 cfg7.N (ix2 i j)
      = (agg (ix2 i j) + scale (ix2 i (0 : Fin 1)) * feat (ix2 i j)) + bias (ix2 (0 : Fin 1) j) := by
  subst hagg hscale hfeat hbias
  exact congrFun (combine_array V c) (ix2 i j)

end Cert.KernelIdeal.Region7

end
-- ==== Proof.RegionsProved.lean ====
/-
  The twelve region facts, assembled: each field of the record is one region module's entry lemma, at the arrays the
  region finds.
-/
import proofs.«160892_j10402410791110_2_alg».proof.Proof.RegionFacts
import proofs.«160892_j10402410791110_2_alg».proof.Proof.Region0
import proofs.«160892_j10402410791110_2_alg».proof.Proof.Region1
import proofs.«160892_j10402410791110_2_alg».proof.Proof.Region2
import proofs.«160892_j10402410791110_2_alg».proof.Proof.Region3
import proofs.«160892_j10402410791110_2_alg».proof.Proof.Region4
import proofs.«160892_j10402410791110_2_alg».proof.Proof.Region5
import proofs.«160892_j10402410791110_2_alg».proof.Proof.Region6
import proofs.«160892_j10402410791110_2_alg».proof.Proof.Region7

noncomputable section

namespace Cert.Bridge

open Idealize.ShloMosaic Idealize.ShloMosaic.TcCoe Idealize.SL.Sem Idealize.ShloMosaic.ValueIdx
open Cert.KernelIdeal Cert.KernelIdeal.Gen
open Cert.MaskGate

theorem regions : Regions where
  prod0 := fun V c i j => Cert.KernelIdeal.Region0.matmul_final V c _ _ rfl rfl i j
  nrm0 := fun V c i => Cert.KernelIdeal.Region0.norm_final V c _ rfl i
  att1w := fun V c e => Cert.KernelIdeal.Region1.weight_final V c e
  att1m := fun V c e => Cert.KernelIdeal.Region1.mask_final V c e
  wt2 := fun V c e j => Cert.KernelIdeal.Region2.weighted_final V c _ _ _ _ rfl rfl rfl rfl e j
  comb3 := fun V c i j => Cert.KernelIdeal.Region3.combine_final V c _ _ _ _ rfl rfl rfl rfl i j
  prod4 := fun V c i j => Cert.KernelIdeal.Region4.matmul_final V c _ _ rfl rfl i j
  nrm4 := fun V c i => Cert.KernelIdeal.Region4.norm_final V c _ rfl i
  att5w := fun V c e => Cert.KernelIdeal.Region5.weight_final V c e
  att5m := fun V c e => Cert.KernelIdeal.Region5.mask_final V c e
  wt6 := fun V c e j => Cert.KernelIdeal.Region6.weighted_final V c _ _ _ _ rfl rfl rfl rfl e j
  comb7 := fun V c i j => Cert.KernelIdeal.Region7.combine_final V c _ _ _ _ rfl rfl rfl rfl i j

end Cert.Bridge

end
-- ==== Proof.Carried.lean ====
/- Which buffers cross which segments unchanged. The kernel's program is eight regions among stretches of host
   operations, and the buffer contents at the boundaries are a fold `W0, W1, …, W14` from the launch memory. A region
   changes only its own output arrays, and a host stretch only the buffers its operations write, so an array computed
   early (an argument, the first layer's product, a mask, an inverse degree) is still there, unchanged, at the later
   boundary where it is read. Each theorem below is one such walk, boundary by boundary; the table of walks is all
   this module holds. -/
import proofs.«160892_j10402410791110_2_alg».proof.Proof.Gen.KernelIdeal.Frame

set_option maxRecDepth 16384

noncomputable section

namespace Cert.KernelIdeal.Carried

open Idealize.ShloMosaic Idealize.ShloMosaic.TcCoe Idealize.SL.Sem
open Idealize.ShloMosaic.Pipeline (Dat Cfg Window)
open Cert.KernelIdeal Cert.KernelIdeal.Gen

/-- A host stretch leaves a buffer none of its operations writes as it was: the stretch's operations are listed and each
    one's written buffer compared with the buffer at hand. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F] (m : (ℓ : Loc nD τ sig) → Buf (Elt F) ℓ) (ρ : Dev nD → PrngReg) (c : Dev nD)

theorem main_arg0_W1 : W1 m ρ c (Proc.devRef .tc main_arg0) = m ((c : Thread nD τ).loc main_arg0) :=
  calc W1 m ρ c (Proc.devRef .tc main_arg0)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem main_arg1_W1 : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

theorem main_arg1_W3 : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

theorem main_arg1_W5 : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

theorem main_arg1_W8 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := by host_keeps hostOps3
    _ = W4 m ρ c (Proc.devRef .tc main_arg1) := W5_of_ne m ρ c main_arg1 (by decide)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

theorem main_arg1_W10 : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by host_keeps hostOps5
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := by host_keeps hostOps3
    _ = W4 m ρ c (Proc.devRef .tc main_arg1) := W5_of_ne m ρ c main_arg1 (by decide)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

theorem main_arg1_W12 : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := by host_keeps hostOps6
    _ = W9 m ρ c (Proc.devRef .tc main_arg1) := W10_of_ne m ρ c main_arg1 (by decide)
    _ = W8 m ρ c (Proc.devRef .tc main_arg1) := by host_keeps hostOps5
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := by host_keeps hostOps3
    _ = W4 m ρ c (Proc.devRef .tc main_arg1) := W5_of_ne m ρ c main_arg1 (by decide)
    _ = W3 m ρ c (Proc.devRef .tc main_arg1) := by host_keeps hostOps2
    _ = W2 m ρ c (Proc.devRef .tc main_arg1) := W3_of_ne m ρ c main_arg1 (by decide)
    _ = W1 m ρ c (Proc.devRef .tc main_arg1) := by host_keeps hostOps1
    _ = W0 m ρ c (Proc.devRef .tc main_arg1) := W1_of_ne m ρ c main_arg1 (by decide)
    _ = m ((c : Thread nD τ).loc main_arg1) := rfl

theorem main_arg2_W1 : W1 m ρ c (Proc.devRef .tc main_arg2) = m ((c : Thread nD τ).loc main_arg2) :=
  calc W1 m ρ c (Proc.devRef .tc main_arg2)
    _ = W0 m ρ c (Proc.devRef .tc main_arg2) := W1_of_ne m ρ c main_arg2 (by decide)
    _ = m ((c : Thread nD τ).loc main_arg2) := rfl

theorem main_arg2_W3 : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

theorem main_arg2_W8 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_keeps hostOps3
    _ = W4 m ρ c (Proc.devRef .tc main_arg2) := W5_of_ne m ρ c main_arg2 (by decide)
    _ = W3 m ρ c (Proc.devRef .tc main_arg2) := by host_keeps hostOps2
    _ = W2 m ρ c (Proc.devRef .tc main_arg2) := W3_of_ne m ρ c main_arg2 (by decide)
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

theorem main_arg2_W10 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by host_keeps hostOps5
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_keeps hostOps3
    _ = W4 m ρ c (Proc.devRef .tc main_arg2) := W5_of_ne m ρ c main_arg2 (by decide)
    _ = W3 m ρ c (Proc.devRef .tc main_arg2) := by host_keeps hostOps2
    _ = W2 m ρ c (Proc.devRef .tc main_arg2) := W3_of_ne m ρ c main_arg2 (by decide)
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

theorem main_arg4_W5 : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by host_keeps hostOps2
    _ = W2 m ρ c (Proc.devRef .tc main_arg4) := W3_of_ne m ρ c main_arg4 (by decide)
    _ = W1 m ρ c (Proc.devRef .tc main_arg4) := by host_keeps hostOps1
    _ = W0 m ρ c (Proc.devRef .tc main_arg4) := W1_of_ne m ρ c main_arg4 (by decide)
    _ = m ((c : Thread nD τ).loc main_arg4) := rfl

theorem main_arg5_W7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by host_keeps hostOps3
    _ = W4 m ρ c (Proc.devRef .tc main_arg5) := W5_of_ne m ρ c main_arg5 (by decide)
    _ = W3 m ρ c (Proc.devRef .tc main_arg5) := by host_keeps hostOps2
    _ = W2 m ρ c (Proc.devRef .tc main_arg5) := W3_of_ne m ρ c main_arg5 (by decide)
    _ = W1 m ρ c (Proc.devRef .tc main_arg5) := by host_keeps hostOps1
    _ = W0 m ρ c (Proc.devRef .tc main_arg5) := W1_of_ne m ρ c main_arg5 (by decide)
    _ = m ((c : Thread nD τ).loc main_arg5) := rfl

theorem main_arg6_W12 : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := by host_keeps hostOps6
    _ = W9 m ρ c (Proc.devRef .tc main_arg6) := W10_of_ne m ρ c main_arg6 (by decide)
    _ = W8 m ρ c (Proc.devRef .tc main_arg6) := by host_keeps hostOps5
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := by host_keeps hostOps3
    _ = W4 m ρ c (Proc.devRef .tc main_arg6) := W5_of_ne m ρ c main_arg6 (by decide)
    _ = W3 m ρ c (Proc.devRef .tc main_arg6) := by host_keeps hostOps2
    _ = W2 m ρ c (Proc.devRef .tc main_arg6) := W3_of_ne m ρ c main_arg6 (by decide)
    _ = W1 m ρ c (Proc.devRef .tc main_arg6) := by host_keeps hostOps1
    _ = W0 m ρ c (Proc.devRef .tc main_arg6) := W1_of_ne m ρ c main_arg6 (by decide)
    _ = m ((c : Thread nD τ).loc main_arg6) := rfl

theorem main_v0_0_W3_W1 : W3 m ρ c (Proc.devRef .tc main_v0_0) = W1 m ρ c (Proc.devRef .tc main_v0_0) :=
  calc W3 m ρ c (Proc.devRef .tc main_v0_0)
    _ = W2 m ρ c (Proc.devRef .tc main_v0_0) := W3_of_ne m ρ c main_v0_0 (by decide)
    _ = W1 m ρ c (Proc.devRef .tc main_v0_0) := by host_keeps hostOps1

theorem main_v0_0_W6_W1 : W6 m ρ c (Proc.devRef .tc main_v0_0) = W1 m ρ c (Proc.devRef .tc main_v0_0) :=
  calc W6 m ρ c (Proc.devRef .tc main_v0_0)
    _ = W5 m ρ c (Proc.devRef .tc main_v0_0) := by host_keeps hostOps3
    _ = W4 m ρ c (Proc.devRef .tc main_v0_0) := W5_of_ne m ρ c main_v0_0 (by decide)
    _ = W3 m ρ c (Proc.devRef .tc main_v0_0) := by host_keeps hostOps2
    _ = W2 m ρ c (Proc.devRef .tc main_v0_0) := W3_of_ne m ρ c main_v0_0 (by decide)
    _ = W1 m ρ c (Proc.devRef .tc main_v0_0) := by host_keeps hostOps1

theorem main_v32_0_W4_W3 : W4 m ρ c (Proc.devRef .tc main_v32_0) = W3 m ρ c (Proc.devRef .tc main_v32_0) :=
  calc W4 m ρ c (Proc.devRef .tc main_v32_0)
    _ = W3 m ρ c (Proc.devRef .tc main_v32_0) := by host_keeps hostOps2

theorem main_v32_1_W9_W3 : W9 m ρ c (Proc.devRef .tc main_v32_1) = W3 m ρ c (Proc.devRef .tc main_v32_1) :=
  calc W9 m ρ c (Proc.devRef .tc main_v32_1)
    _ = W8 m ρ c (Proc.devRef .tc main_v32_1) := by host_keeps hostOps5
    _ = W7 m ρ c (Proc.devRef .tc main_v32_1) := W8_of_ne m ρ c main_v32_1 (by decide)
    _ = W6 m ρ c (Proc.devRef .tc main_v32_1) := W7_of_ne m ρ c main_v32_1 (by decide)
    _ = W5 m ρ c (Proc.devRef .tc main_v32_1) := by host_keeps hostOps3
    _ = W4 m ρ c (Proc.devRef .tc main_v32_1) := W5_of_ne m ρ c main_v32_1 (by decide)
    _ = W3 m ρ c (Proc.devRef .tc main_v32_1) := by host_keeps hostOps2

theorem main_v44_W5_W4 : W5 m ρ c (Proc.devRef .tc main_v44) = W4 m ρ c (Proc.devRef .tc main_v44) :=
  calc W5 m ρ c (Proc.devRef .tc main_v44)
    _ = W4 m ρ c (Proc.devRef .tc main_v44) := W5_of_ne m ρ c main_v44 (by decide)

theorem main_v81_0_W10_W8 : W10 m ρ c (Proc.devRef .tc main_v81_0) = W8 m ρ c (Proc.devRef .tc main_v81_0) :=
  calc W10 m ρ c (Proc.devRef .tc main_v81_0)
    _ = W9 m ρ c (Proc.devRef .tc main_v81_0) := W10_of_ne m ρ c main_v81_0 (by decide)
    _ = W8 m ρ c (Proc.devRef .tc main_v81_0) := by host_keeps hostOps5

theorem main_v81_0_W13_W8 : W13 m ρ c (Proc.devRef .tc main_v81_0) = W8 m ρ c (Proc.devRef .tc main_v81_0) :=
  calc W13 m ρ c (Proc.devRef .tc main_v81_0)
    _ = W12 m ρ c (Proc.devRef .tc main_v81_0) := by host_keeps hostOps7
    _ = W11 m ρ c (Proc.devRef .tc main_v81_0) := W12_of_ne m ρ c main_v81_0 (by decide)
    _ = W10 m ρ c (Proc.devRef .tc main_v81_0) := by host_keeps hostOps6
    _ = W9 m ρ c (Proc.devRef .tc main_v81_0) := W10_of_ne m ρ c main_v81_0 (by decide)
    _ = W8 m ρ c (Proc.devRef .tc main_v81_0) := by host_keeps hostOps5

theorem main_v112_0_W11_W10 : W11 m ρ c (Proc.devRef .tc main_v112_0) = W10 m ρ c (Proc.devRef .tc main_v112_0) :=
  calc W11 m ρ c (Proc.devRef .tc main_v112_0)
    _ = W10 m ρ c (Proc.devRef .tc main_v112_0) := by host_keeps hostOps6

theorem main_v124_W12_W11 : W12 m ρ c (Proc.devRef .tc main_v124) = W11 m ρ c (Proc.devRef .tc main_v124) :=
  calc W12 m ρ c (Proc.devRef .tc main_v124)
    _ = W11 m ρ c (Proc.devRef .tc main_v124) := W12_of_ne m ρ c main_v124 (by decide)

/-- The second layer's input `main_v80` is an INPUT array of region 4, which leaves it as it found it. -/
theorem main_v80_W8_W7 : W8 m ρ c (Proc.devRef .tc main_v80) = W7 m ρ c (Proc.devRef .tc main_v80) :=
  (W8_arr m ρ c 0).trans (((dat4 (V7 m ρ) c).arrAt_in 0 rfl _).trans (A_eq4 (V7 m ρ) c 0))

end Cert.KernelIdeal.Carried

end
-- ==== Proof.HostStretch.lean ====
/-
  The host stretches between the kernel's regions, read buffer by buffer. Between two pallas_calls the program runs
  plain array operations: it gathers rows of a node array at the edges' endpoints, reshapes an `[E]` vector to a column
  `[E, 1]` or back, adds the edge weights into the nodes' degrees (`scatter-add`), takes `1/sqrt(deg + 1)`, and so on. Each
  theorem says what ONE buffer holds after a stretch, as the operations' term of what the stretch found — for ANY
  contents `W` at the stretch's entry, so nothing here depends on the regions. The recurring sub-terms have names:
  `nidx` (an endpoint vector as gather / scatter start indices: a negative index counts from the end), `asColumn`,
  `invDeg` (the inverse square root of the weighted degree plus the self loop), `invDegAt` (that, gathered at an
  endpoint, as a column) and `invDegSq` (its square, as a column).
-/
import proofs.«160892_j10402410791110_2_alg».proof.Proof.Gen.KernelIdeal.Launch
import Idealize.ShloMosaic.Lib.StableHlo.Run

noncomputable section

namespace Cert.KernelIdeal.HostStretch

open Idealize.ShloMosaic Idealize.ShloMosaic.TcCoe Idealize.SL.Sem Idealize.ShloMosaic.StableHlo
open Cert.KernelIdeal Cert.KernelIdeal.Gen

variable {F : FTy → Type} [FloatOps F]

/-- An endpoint vector as start indices `[E, 1]`: an index below zero has the node count added (the gather's and the
    scatter's own treatment of what is still out of range comes after). -/
def nidx (x : (⟨S1000000, .i32⟩ : BufTy).Contents (Elt F)) : (⟨S1000000x1, .i32⟩ : BufTy).Contents (Elt F) :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- An `[E]` integer vector as a column `[E, 1]`. -/
def asColumn (x : (⟨S1000000, .i32⟩ : BufTy).Contents (Elt F)) : (⟨S1000000x1, .i32⟩ : BufTy).Contents (Elt F) :=
  fun i => shapeCast S1000000x1 x shapeCasts_S1000000_S1000000x1 i

/-- `1 / sqrt(deg + 1)` per node, `deg` the sum of the edge weights `w` (a column) over the edges starting at the node. -/
def invDeg (w : (⟨S1000000x1, .f32⟩ : BufTy).Contents (Elt F)) (x1 : (⟨S1000000, .i32⟩ : BufTy).Contents (Elt F)) : (⟨S100000, .f32⟩ : BufTy).Contents (Elt F) :=
  Host.rsqrt (addf
    (Host.scatterAdd scatter_S100000_S1000000x1_S1000000_n_0_0_1
      (broadcastInDim S100000 ![] bcast_S_S100000 (constant S_ .f32 0x00000000#32)) (nidx x1)
      (fun i => shapeCast S1000000 w shapeCasts_S1000000x1_S1000000 i))
    (broadcastInDim S100000 ![] bcast_S_S100000 (constant S_ .f32 0x3F800000#32)))

/-- A per-node vector gathered at an endpoint of every edge, as a column. -/
def invDegAt (d : (⟨S100000, .f32⟩ : BufTy).Contents (Elt F)) (x : (⟨S1000000, .i32⟩ : BufTy).Contents (Elt F)) : (⟨S1000000x1, .f32⟩ : BufTy).Contents (Elt F) :=
  fun i => shapeCast S1000000x1 (Host.gather gather_S100000_S1000000x1_S1000000_n_0_n_n_0_1_1 d (nidx x))
    shapeCasts_S1000000_S1000000x1 i

/-- The square of a per-node vector, as a column. -/
def invDegSq (d : (⟨S100000, .f32⟩ : BufTy).Contents (Elt F)) : (⟨S100000x1, .f32⟩ : BufTy).Contents (Elt F) :=
  fun i => shapeCast S100000x1 (mulf d d) shapeCasts_S100000_S100000x1 i

variable (W : Valuation τ sig (Elt F))

theorem ops1_v8 : StableHlo.after (hostOps1 (F := F)) W (Proc.devRef .tc main_v8) = Host.gather gather_S100000x128_S1000000x1_S1000000x128_1_0_n_n_0_1_1128 (W (Proc.devRef .tc main_arg0)) (nidx (W (Proc.devRef .tc main_arg1))) := by
  after_results_simp <;> rfl

theorem ops1_v15 : StableHlo.after (hostOps1 (F := F)) W (Proc.devRef .tc main_v15) = Host.gather gather_S100000x128_S1000000x1_S1000000x128_1_0_n_n_0_1_1128 (W (Proc.devRef .tc main_arg0)) (nidx (W (Proc.devRef .tc main_arg2))) := by
  after_results_simp <;> rfl

theorem ops1_v22 : StableHlo.after (hostOps1 (F := F)) W (Proc.devRef .tc main_v22) = Host.gather gather_S100000x1_S1000000x1_S1000000x1_1_0_n_n_0_1_11 (W (Proc.devRef .tc main_v0_1)) (nidx (W (Proc.devRef .tc main_arg1))) := by
  after_results_simp <;> rfl

theorem ops1_v29 : StableHlo.after (hostOps1 (F := F)) W (Proc.devRef .tc main_v29) = Host.gather gather_S100000x1_S1000000x1_S1000000x1_1_0_n_n_0_1_11 (W (Proc.devRef .tc main_v0_1)) (nidx (W (Proc.devRef .tc main_arg2))) := by
  after_results_simp <;> rfl

theorem ops1_v30 : StableHlo.after (hostOps1 (F := F)) W (Proc.devRef .tc main_v30) = asColumn (W (Proc.devRef .tc main_arg1)) := by
  after_results_simp <;> rfl

theorem ops1_v31 : StableHlo.after (hostOps1 (F := F)) W (Proc.devRef .tc main_v31) = asColumn (W (Proc.devRef .tc main_arg2)) := by
  after_results_simp <;> rfl

theorem ops1_v1 : StableHlo.after (hostOps1 (F := F)) W (Proc.devRef .tc main_v1) = broadcastInDim S1000000x1 ![] bcast_S_S1000000x1 (constant S_ .f32 0x3F800000#32) := by
  after_results_simp <;> rfl

theorem ops2_v44 : StableHlo.after (hostOps2 (F := F)) W (Proc.devRef .tc main_v44) = invDeg (W (Proc.devRef .tc main_v32_0)) (W (Proc.devRef .tc main_arg1)) := by
  after_results_simp <;> rfl

theorem ops2_v52 : StableHlo.after (hostOps2 (F := F)) W (Proc.devRef .tc main_v52) = invDegAt (invDeg (W (Proc.devRef .tc main_v32_0)) (W (Proc.devRef .tc main_arg1))) (W (Proc.devRef .tc main_arg1)) := by
  after_results_simp <;> rfl

theorem ops2_v60 : StableHlo.after (hostOps2 (F := F)) W (Proc.devRef .tc main_v60) = invDegAt (invDeg (W (Proc.devRef .tc main_v32_0)) (W (Proc.devRef .tc main_arg1))) (W (Proc.devRef .tc main_arg2)) := by
  after_results_simp <;> rfl

theorem ops2_v67 : StableHlo.after (hostOps2 (F := F)) W (Proc.devRef .tc main_v67) = Host.gather gather_S100000x256_S1000000x1_S1000000x256_1_0_n_n_0_1_1256 (W (Proc.devRef .tc main_v0_0)) (nidx (W (Proc.devRef .tc main_arg2))) := by
  after_results_simp <;> rfl

theorem ops3_v76 : StableHlo.after (hostOps3 (F := F)) W (Proc.devRef .tc main_v76) = Host.scatterAdd scatter_S100000x256_S1000000x1_S1000000x256_1_0_0_1 (broadcastInDim S100000x256 ![] bcast_S_S100000x256 (constant S_ .f32 0x00000000#32)) (nidx (W (Proc.devRef .tc main_arg1))) (W (Proc.devRef .tc main_v68)) := by
  after_results_simp <;> rfl

theorem ops3_v78 : StableHlo.after (hostOps3 (F := F)) W (Proc.devRef .tc main_v78) = invDegSq (W (Proc.devRef .tc main_v44)) := by
  after_results_simp <;> rfl

theorem ops3_v79 : StableHlo.after (hostOps3 (F := F)) W (Proc.devRef .tc main_v79) = shapeCast S1x256 (W (Proc.devRef .tc main_arg4)) shapeCasts_S256_S1x256 := by
  after_results_simp <;> rfl

theorem ops5_v88 : StableHlo.after (hostOps5 (F := F)) W (Proc.devRef .tc main_v88) = Host.gather gather_S100000x256_S1000000x1_S1000000x256_1_0_n_n_0_1_1256 (W (Proc.devRef .tc main_v80)) (nidx (W (Proc.devRef .tc main_arg1))) := by
  after_results_simp <;> rfl

theorem ops5_v95 : StableHlo.after (hostOps5 (F := F)) W (Proc.devRef .tc main_v95) = Host.gather gather_S100000x256_S1000000x1_S1000000x256_1_0_n_n_0_1_1256 (W (Proc.devRef .tc main_v80)) (nidx (W (Proc.devRef .tc main_arg2))) := by
  after_results_simp <;> rfl

theorem ops5_v102 : StableHlo.after (hostOps5 (F := F)) W (Proc.devRef .tc main_v102) = Host.gather gather_S100000x1_S1000000x1_S1000000x1_1_0_n_n_0_1_11 (W (Proc.devRef .tc main_v81_1)) (nidx (W (Proc.devRef .tc main_arg1))) := by
  after_results_simp <;> rfl

theorem ops5_v109 : StableHlo.after (hostOps5 (F := F)) W (Proc.devRef .tc main_v109) = Host.gather gather_S100000x1_S1000000x1_S1000000x1_1_0_n_n_0_1_11 (W (Proc.devRef .tc main_v81_1)) (nidx (W (Proc.devRef .tc main_arg2))) := by
  after_results_simp <;> rfl

theorem ops5_v110 : StableHlo.after (hostOps5 (F := F)) W (Proc.devRef .tc main_v110) = asColumn (W (Proc.devRef .tc main_arg1)) := by
  after_results_simp <;> rfl

theorem ops5_v111 : StableHlo.after (hostOps5 (F := F)) W (Proc.devRef .tc main_v111) = asColumn (W (Proc.devRef .tc main_arg2)) := by
  after_results_simp <;> rfl

theorem ops6_v124 : StableHlo.after (hostOps6 (F := F)) W (Proc.devRef .tc main_v124) = invDeg (W (Proc.devRef .tc main_v112_0)) (W (Proc.devRef .tc main_arg1)) := by
  after_results_simp <;> rfl

theorem ops6_v132 : StableHlo.after (hostOps6 (F := F)) W (Proc.devRef .tc main_v132) = invDegAt (invDeg (W (Proc.devRef .tc main_v112_0)) (W (Proc.devRef .tc main_arg1))) (W (Proc.devRef .tc main_arg1)) := by
  after_results_simp <;> rfl

theorem ops6_v140 : StableHlo.after (hostOps6 (F := F)) W (Proc.devRef .tc main_v140) = invDegAt (invDeg (W (Proc.devRef .tc main_v112_0)) (W (Proc.devRef .tc main_arg1))) (W (Proc.devRef .tc main_arg2)) := by
  after_results_simp <;> rfl

theorem ops6_v147 : StableHlo.after (hostOps6 (F := F)) W (Proc.devRef .tc main_v147) = Host.gather gather_S100000x40_S1000000x1_S1000000x40_1_0_n_n_0_1_140 (W (Proc.devRef .tc main_v81_0)) (nidx (W (Proc.devRef .tc main_arg2))) := by
  after_results_simp <;> rfl

theorem ops7_v156 : StableHlo.after (hostOps7 (F := F)) W (Proc.devRef .tc main_v156) = Host.scatterAdd scatter_S100000x40_S1000000x1_S1000000x40_1_0_0_1 (broadcastInDim S100000x40 ![] bcast_S_S100000x40 (constant S_ .f32 0x00000000#32)) (nidx (W (Proc.devRef .tc main_arg1))) (W (Proc.devRef .tc main_v148)) := by
  after_results_simp <;> rfl

theorem ops7_v158 : StableHlo.after (hostOps7 (F := F)) W (Proc.devRef .tc main_v158) = invDegSq (W (Proc.devRef .tc main_v124)) := by
  after_results_simp <;> rfl

theorem ops7_v159 : StableHlo.after (hostOps7 (F := F)) W (Proc.devRef .tc main_v159) = shapeCast S1x40 (W (Proc.devRef .tc main_arg6)) shapeCasts_S40_S1x40 := by
  after_results_simp <;> rfl

end Cert.KernelIdeal.HostStretch

end
-- ==== Proof.LibGatherRows.lean ====
/-
  Reading a row gather at an index. `x[idx]` of an array `x : [N, C]` (or a flat `x : [N]`) at an integer vector
  `idx : [E]` lowers to a gather whose start indices are `idx` laid out as `[E, 1]`, with the operand's axis 0
  collapsed and the index vector on axis 1: result row `e` is the operand's row `idx[e, 0]`, read as a signed integer
  and clamped into `[0, N − 1]` (a gather clamps every start index). The two lemmas say exactly that, element by element.
-/
import Idealize.ShloMosaic.Lib.ValueIdx

noncomputable section

namespace Idealize.ShloMosaic.GatherRows

open Idealize.ShloMosaic Idealize.ShloMosaic.ValueIdx

variable {α : Type}

/-- The dimension numbers of a row gather: operand `[N, C]`, start indices `[E, 1]`, result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of a flat array: operand `[N]`, start indices `[E, 1]`, result `[E]`. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row `e`, column `j` of a row gather is the operand at row `idx[e, 0]` (signed, clamped into `[0, N − 1]`),
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowsDims N E C wf).start (ix2 e j) idx 0 + (rowsDims N E C wf).batchCoord (ix2 e j) 0
      + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e j) idx 1 + (rowsDims N E C wf).batchCoord (ix2 e j) 1
      + (rowsDims N E C wf).offCoord (ix2 e j) 1 = j.val
    rw [GatherDims.batchCoord_eq_zero _ _ _ List.not_mem_nil]
    unfold GatherDims.start
    rw [dif_neg (show (1 : Fin 2) ∉ (rowsDims N E C wf).startIndexMap from
      fun h => absurd (congrArg Fin.val (List.mem_singleton.mp h)) Nat.one_ne_zero)]
    simp only [Nat.add_zero, Nat.zero_add]
    rfl

/-- Element `e` of a gather of a flat array is the operand at `idx[e, 0]` (signed, clamped into `[0, N − 1]`). -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibColumns.lean ====
/-
  General facts about column-shaped arrays: a vector [a] recast as a column [a, 1] keeps entry i at (i, 0), and a
  column [a, 1] broadcast along a second axis to [a, b] repeats entry (p, 0) across row p. These are the shapes a
  reduction over the last axis with the axis kept (a row maximum, a row sum) passes through before it meets the rows it
  came from again.
-/
import Idealize.ShloMosaic.Lib.Pipeline.Value
import Idealize.ShloMosaic.Lib.ValueIdx
import Idealize.ShloMosaic.Lib.ValueLayout

noncomputable section

namespace Cert.LibColumns

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns

end
-- ==== Proof.Layer1.lean ====
/-
  Layer 1 of the graph network: the kernel's arrays at its segment boundaries are the
  reference's stages. The kernel computes the node product `x · W1` and the row norms `max(‖x_i‖, ε)` in one region,
  gathers rows and norms at the edges' endpoints on the host, and computes per edge the cosine similarity, the float
  mask and the weight in a second region; the reference does the same with whole-array operations. Entry by entry the
  two agree: the matrix product and the row sums are the same finite sums, a norm stored as a column `[N, 1]` and
  gathered as a column is the norm stored flat and gathered flat, and the float-mask selection is the boolean one.
-/
import proofs.«160892_j10402410791110_2_alg».proof.Proof.Gen.KernelIdeal.Frame
import proofs.«160892_j10402410791110_2_alg».proof.Proof.RefStagesP
import proofs.«160892_j10402410791110_2_alg».proof.Proof.Carried
import proofs.«160892_j10402410791110_2_alg».proof.Proof.HostStretch
import proofs.«160892_j10402410791110_2_alg».proof.Proof.LibGatherRows
import proofs.«160892_j10402410791110_2_alg».proof.Proof.LibColumns
import proofs.«160892_j10402410791110_2_alg».proof.Proof.MaskGate
import proofs.«160892_j10402410791110_2_alg».proof.Proof.RegionFacts
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.HostStretch
open Cert.ReferenceIdeal.ReadP
open Cert.MaskGate

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-- An endpoint vector's start indices are the same term in both programs. -/
theorem nidx_eq (x : (⟨S1000000, .i32⟩ : BufTy).Contents (Elt Ideal)) : val_main_v8 (F := Ideal) x = nidx x := rfl

/-! ## The node product and the row norms (region 0) -/

/-- The kernel's first product array is the reference's `x · W1`: at `(i, j)` both are `∑ k, x[i,k] · W1[k,j]`. -/
theorem product1 (R : Regions) :
    (W1 m ρ c (Proc.devRef .tc main_v0_0) : S100000x256.Idx → EReal) = val_main_v40 (F := Ideal) x0 x3 := by
  funext i
  obtain ⟨a, b, rfl⟩ : ∃ (a : Fin 100000) (b : Fin 256), i = ix2 a b := ⟨i 0, i 1, eq_ix2 i⟩
  have key : dotAt (V0 m ρ c main_arg0 : S100000x128.Idx → EReal) (V0 m ρ c main_arg3 : S128x256.Idx → EReal) a b
      = val_main_v40 (F := Ideal) x0 x3 (ix2 a b) := by
    rw [val_main_v40_apply]
    unfold dotAt
    refine Finset.sum_congr rfl fun k _ => ?_
    have e1 : lidx_main_v40 (ix2 a b) k = ix2 a k := by
      funext d; refine Fin.ext ?_
      match d with
      | ⟨0, _⟩ => rfl
      | ⟨1, _⟩ => rfl
    have e2 : ridx_main_v40 (ix2 a b) k = ix2 k b := by
      funext d; refine Fin.ext ?_
      match d with
      | ⟨0, _⟩ => rfl
      | ⟨1, _⟩ => rfl
    rw [e1, e2]
  exact (congrFun (W1_arr m ρ c 2) (ix2 a b)).trans ((R.prod0 (V0 m ρ) c a b).trans key)

/-- The kernel's norm column is the reference's norm vector: at node `i` both are `max (sqrt (∑ k, x[i,k]²)) ε`. -/
theorem norm1 (R : Regions) (i : Fin 100000) :
    (W1 m ρ c (Proc.devRef .tc main_v0_1) : S100000x1.Idx → EReal) (ix2 i (0 : Fin 1)) = val_main_v2 (F := Ideal) x0 (ix1 i) := by
  have e : ∀ k : Fin 128, idx_main_call0_v1 (ix1 i) k = ix2 i k := fun k => by
    funext d; refine Fin.ext ?_
    match d with
    | ⟨0, _⟩ => rfl
    | ⟨1, _⟩ => rfl
  have key : normAt (V0 m ρ c main_arg0 : S100000x128.Idx → EReal) i = val_main_v2 (F := Ideal) x0 (ix1 i) := by
    rw [val_main_v2_apply, val_main_v0_apply, val_main_call0_v1_apply, val_main_v1_apply]
    unfold normAt
    simp only [Ideal.maximumf_def, Ideal.hostUnary_sqrt_def, val_main_call0_cst_apply, val_main_cst_apply, val_main_call0_v0_apply,
      Ideal.ofBits_def, Ideal.mulf_def, Ideal.ofBits_zero_f32, zero_add, e]
  exact (congrFun (W1_arr m ρ c 3) (ix2 i (0 : Fin 1))).trans ((R.nrm0 (V0 m ρ) c i).trans key)

/-! ## The gathered rows and norms (the first host stretch) -/

/-- Region 1 finds, as its first operand, the rows of `x` gathered at the edges' first endpoints: the reference's. -/
theorem featRow1 : (V2 m ρ c main_v8 : S1000000x128.Idx → EReal) = val_main_v9 (F := Ideal) x0 x1 := by
  show StableHlo.after hostOps1 (W1 m ρ c) (Proc.devRef .tc main_v8) = _
  rw [ops1_v8, Carried.main_arg0_W1, Carried.main_arg1_W1]; rfl

/-- … and, as its second, the rows gathered at the second endpoints. -/
theorem featCol1 : (V2 m ρ c main_v15 : S1000000x128.Idx → EReal) = val_main_v16 (F := Ideal) x0 x2 := by
  show StableHlo.after hostOps1 (W1 m ρ c) (Proc.devRef .tc main_v15) = _
  rw [ops1_v15, Carried.main_arg0_W1, Carried.main_arg2_W1]; rfl

/-- A norm column gathered at an endpoint vector, read at edge `e`: the norm vector gathered flat, at `e`. Both read the
    node the (normalised, clamped) endpoint names. -/
theorem gathered_norm
    (col : S100000x1.Idx → EReal) (flat : S100000.Idx → EReal) (hcf : ∀ i : Fin 100000, col (ix2 i (0 : Fin 1)) = flat (ix1 i))
    (x : (⟨S1000000, .i32⟩ : BufTy).Contents (Elt Ideal)) (e : Fin 1000000) :
    (Host.gather gather_S100000x1_S1000000x1_S1000000x1_1_0_n_n_0_1_11 col (nidx x) : S1000000x1.Idx → EReal) (ix2 e (0 : Fin 1))
      = (Host.gather Cert.ReferenceIdeal.gather_S100000_S1000000x1_S1000000_n_0_n_n_0_1_1 flat (nidx x) : S1000000.Idx → EReal) (ix1 e) := by
  refine (GatherRows.gather_rows_apply (N := 100000) (E := 1000000) (C := 1) (by decide) gather_S100000x1_S1000000x1_S1000000x1_1_0_n_n_0_1_11.wf col (nidx x) e 0).trans ?_
  refine Eq.trans ?_ (GatherRows.gather_flat_apply (N := 100000) (E := 1000000) (by decide)
    Cert.ReferenceIdeal.gather_S100000_S1000000x1_S1000000_n_0_n_n_0_1_1.wf flat (nidx x) e).symm
  exact hcf _

theorem normRow1
    (R : Regions) (e : Fin 1000000) :
    (V2 m ρ c main_v22 : S1000000x1.Idx → EReal) (ix2 e (0 : Fin 1)) = val_main_v25 (F := Ideal) x0 x1 (ix1 e) := by
  have h : (V2 m ρ c main_v22 : S1000000x1.Idx → EReal)
      = Host.gather gather_S100000x1_S1000000x1_S1000000x1_1_0_n_n_0_1_11 (W1 m ρ c (Proc.devRef .tc main_v0_1)) (nidx x1) := by
    show StableHlo.after hostOps1 (W1 m ρ c) (Proc.devRef .tc main_v22) = _
    rw [ops1_v22, Carried.main_arg1_W1]
  rw [h]
  exact gathered_norm _ (val_main_v2 (F := Ideal) x0) (norm1 m ρ c R) x1 e

theorem normCol1
    (R : Regions) (e : Fin 1000000) :
    (V2 m ρ c main_v29 : S1000000x1.Idx → EReal) (ix2 e (0 : Fin 1)) = val_main_v32 (F := Ideal) x0 x2 (ix1 e) := by
  have h : (V2 m ρ c main_v29 : S1000000x1.Idx → EReal)
      = Host.gather gather_S100000x1_S1000000x1_S1000000x1_1_0_n_n_0_1_11 (W1 m ρ c (Proc.devRef .tc main_v0_1)) (nidx x2) := by
    show StableHlo.after hostOps1 (W1 m ρ c) (Proc.devRef .tc main_v29) = _
    rw [ops1_v29, Carried.main_arg2_W1]
  rw [h]
  exact gathered_norm _ (val_main_v2 (F := Ideal) x0) (norm1 m ρ c R) x2 e

/-- The endpoint columns region 1 compares: entry `(e, 0)` is the endpoint of edge `e`. -/
theorem rowCol1 (e : Fin 1000000) :
    (V2 m ρ c main_v30 : S1000000x1.Idx → BitVec 32) (ix2 e (0 : Fin 1)) = x1 (ix1 e) := by
  have h : (V2 m ρ c main_v30 : S1000000x1.Idx → BitVec 32) = asColumn x1 := by
    show StableHlo.after hostOps1 (W1 m ρ c) (Proc.devRef .tc main_v30) = _
    rw [ops1_v30, Carried.main_arg1_W1]
  rw [h]
  exact Cert.LibColumns.shapeCast_a_a1_apply _ _ e 0

theorem colCol1 (e : Fin 1000000) :
    (V2 m ρ c main_v31 : S1000000x1.Idx → BitVec 32) (ix2 e (0 : Fin 1)) = x2 (ix1 e) := by
  have h : (V2 m ρ c main_v31 : S1000000x1.Idx → BitVec 32) = asColumn x2 := by
    show StableHlo.after hostOps1 (W1 m ρ c) (Proc.devRef .tc main_v31) = _
    rw [ops1_v31, Carried.main_arg2_W1]
  rw [h]
  exact Cert.LibColumns.shapeCast_a_a1_apply _ _ e 0

/-- The first layer's previous mask is all ones. -/
theorem ones1 (e : Fin 1000000) :
    (V2 m ρ c main_v1 : S1000000x1.Idx → EReal) (ix2 e (0 : Fin 1)) = Ideal.ofBits .f32 0x3F800000#32 := by
  have h : (V2 m ρ c main_v1 : S1000000x1.Idx → EReal)
      = broadcastInDim S1000000x1 ![] bcast_S_S1000000x1 (constant (F := Ideal) S_ .f32 0x3F800000#32) := by
    show StableHlo.after hostOps1 (W1 m ρ c) (Proc.devRef .tc main_v1) = _
    rw [ops1_v1]
  rw [h]
  exact broadcastInDim_apply _ bcast_S_S1000000x1 _ _ ix0 (fun a => a.elim0)

/-! ## The similarity, the mask and the weight (region 1) -/

/-- The similarity the kernel computes for edge `e` is the reference's quotient `dots / (nrm[row] · nrm[col])`. -/
theorem sim1
    (R : Regions) (e : Fin 1000000) :
    simAt1 (V2 m ρ) c e = val_main_v34 (F := Ideal) x0 x1 x2 (ix1 e) := by
  unfold simAt1 sim
  rw [featRow1, featCol1, normRow1 m ρ c R e, normCol1 m ρ c R e]
  have ei : ∀ k : Fin 128, idx_main_v18 (ix1 e) k = ix2 e k := fun k => by
    funext d; refine Fin.ext ?_
    match d with
    | ⟨0, _⟩ => rfl
    | ⟨1, _⟩ => rfl
  rw [val_main_v34_apply, val_main_v33_apply, val_main_v18_apply]
  simp only [Ideal.hostDivf_def, Ideal.mulf_def, val_main_cst_3_apply, val_main_v17_apply, Ideal.ofBits_def,
    Ideal.ofBits_zero_f32, zero_add, ei]

/-- The weight column after region 1 is the reference's weight vector `where(mask, sims, 0)`. -/
theorem weight1 (R : Regions) (e : Fin 1000000) :
    (W3 m ρ c (Proc.devRef .tc main_v32_0) : S1000000x1.Idx → EReal) (ix2 e (0 : Fin 1)) = val_main_v39 (F := Ideal) x0 x1 x2 (ix1 e) := by
  refine (congrFun (W3_arr m ρ c 7) (ix2 e (0 : Fin 1))).trans ?_
  rw [R.att1w (V2 m ρ) c e]
  unfold maskAt1
  rw [show simAt1 (V2 m ρ) c e = val_main_v34 (F := Ideal) x0 x1 x2 (ix1 e) from sim1 m ρ c R e,
    rowCol1, colCol1, ones1, weight_first]
  show _ = Scalar.select (IntOp.andi (FloatOps.cmpf (F := Ideal) .oge (val_main_v34 (F := Ideal) x0 x1 x2 (ix1 e)) (val_main_v35 (F := Ideal) (ix1 e)))
      (IntOp.cmpi .ne (x1 (ix1 e)) (x2 (ix1 e)))) (val_main_v34 (F := Ideal) x0 x1 x2 (ix1 e)) (val_main_call1_v1 (F := Ideal) (ix1 e))
  rw [val_main_v35_apply, val_main_call1_v1_apply]
  rfl

/-- The float mask after region 1 is the indicator of the reference's boolean mask. -/
theorem mask1 (R : Regions) (e : Fin 1000000) :
    (W3 m ρ c (Proc.devRef .tc main_v32_1) : S1000000x1.Idx → EReal) (ix2 e (0 : Fin 1)) = ind (val_main_v38 (F := Ideal) x0 x1 x2 (ix1 e)) := by
  refine (congrFun (W3_arr m ρ c 8) (ix2 e (0 : Fin 1))).trans ?_
  rw [R.att1m (V2 m ρ) c e]
  unfold maskAt1
  rw [show simAt1 (V2 m ρ) c e = val_main_v34 (F := Ideal) x0 x1 x2 (ix1 e) from sim1 m ρ c R e,
    rowCol1, colCol1, ones1, mask_first]
  show _ = ind (IntOp.andi (FloatOps.cmpf (F := Ideal) .oge (val_main_v34 (F := Ideal) x0 x1 x2 (ix1 e)) (val_main_v35 (F := Ideal) (ix1 e)))
      (IntOp.cmpi .ne (x1 (ix1 e)) (x2 (ix1 e))))
  rw [val_main_v35_apply]
  rfl

/-! ## From the weights to the layer's output

On the host the kernel's program sums the edge weights into node degrees, takes `d = 1/sqrt(deg + 1)`, gathers `d` at both
endpoints of every edge and the product row of the second endpoint; region 2 multiplies `(d[row] · w · d[col])` into that row;
the host adds the weighted rows into the first endpoints' rows; region 3 adds the self loop `d² · h`, the bias, and clamps at
zero. Each host operation is the same operation applied to equal arrays, and each region's entry is, index by index, the
reference's expression (a column `[E, 1]` on one side being the flat vector `[E]` on the other). -/

/-- The weight column read flat is the reference's weight vector. -/
theorem weightFlat1 (R : Regions) :
    (fun i => shapeCast S1000000 (W3 m ρ c (Proc.devRef .tc main_v32_0)) shapeCasts_S1000000x1_S1000000 i)
      = val_main_v39 (F := Ideal) x0 x1 x2 := by
  funext i
  obtain ⟨e, rfl⟩ : ∃ e : Fin 1000000, i = ix1 e := ⟨i 0, eq_ix1 i⟩
  exact (Cert.LibColumns.shapeCast_a1_a_apply _ _ e).trans (weight1 m ρ c R e)

/-- The inverse root degree `1/sqrt(deg + 1)` the kernel's host stretch computes is the reference's. -/
theorem invDeg1 (R : Regions) :
    invDeg (W3 m ρ c (Proc.devRef .tc main_v32_0)) x1 = val_main_v51 (F := Ideal) x0 x1 x2 := by
  unfold invDeg
  rw [weightFlat1 m ρ c R]
  rfl

theorem invDegBuf1 (R : Regions) :
    (W4 m ρ c (Proc.devRef .tc main_v44) : S100000.Idx → EReal) = val_main_v51 (F := Ideal) x0 x1 x2 := by
  show StableHlo.after hostOps2 (W3 m ρ c) (Proc.devRef .tc main_v44) = _
  rw [ops2_v44, Carried.main_arg1_W3]
  exact invDeg1 m ρ c R

/-- The weighted neighbour rows after region 2 are the reference's `norm[:, None] · h[col]`. -/
theorem weighted1 (R : Regions) :
    (W5 m ρ c (Proc.devRef .tc main_v68) : S1000000x256.Idx → EReal) = val_main_v78 (F := Ideal) x0 x1 x2 x3 := by
  funext i
  obtain ⟨e, j, rfl⟩ : ∃ (e : Fin 1000000) (j : Fin 256), i = ix2 e j := ⟨i 0, i 1, eq_ix2 i⟩
  have h52 : (V4 m ρ c main_v52 : S1000000x1.Idx → EReal) (ix2 e (0 : Fin 1)) = val_main_v58 (F := Ideal) x0 x1 x2 (ix1 e) := by
    have h : (V4 m ρ c main_v52 : S1000000x1.Idx → EReal) = invDegAt (val_main_v51 (F := Ideal) x0 x1 x2) x1 := by
      show StableHlo.after hostOps2 (W3 m ρ c) (Proc.devRef .tc main_v52) = _
      rw [ops2_v52, Carried.main_arg1_W3, invDeg1 m ρ c R]
    rw [h]
    exact Cert.LibColumns.shapeCast_a_a1_apply _ _ e 0
  have h60 : (V4 m ρ c main_v60 : S1000000x1.Idx → EReal) (ix2 e (0 : Fin 1)) = val_main_v66 (F := Ideal) x0 x1 x2 (ix1 e) := by
    have h : (V4 m ρ c main_v60 : S1000000x1.Idx → EReal) = invDegAt (val_main_v51 (F := Ideal) x0 x1 x2) x2 := by
      show StableHlo.after hostOps2 (W3 m ρ c) (Proc.devRef .tc main_v60) = _
      rw [ops2_v60, Carried.main_arg1_W3, Carried.main_arg2_W3, invDeg1 m ρ c R]
    rw [h]
    exact Cert.LibColumns.shapeCast_a_a1_apply _ _ e 0
  have hw : (V4 m ρ c main_v32_0 : S1000000x1.Idx → EReal) (ix2 e (0 : Fin 1)) = val_main_v39 (F := Ideal) x0 x1 x2 (ix1 e) :=
    (congrFun (Carried.main_v32_0_W4_W3 m ρ c) (ix2 e (0 : Fin 1))).trans (weight1 m ρ c R e)
  have h67 : (V4 m ρ c main_v67 : S1000000x256.Idx → EReal) = val_main_v76 (F := Ideal) x0 x2 x3 := by
    show StableHlo.after hostOps2 (W3 m ρ c) (Proc.devRef .tc main_v67) = _
    rw [ops2_v67, Carried.main_arg2_W3, Carried.main_v0_0_W3_W1, product1 m ρ c R]
    rfl
  have e1 : idx_main_v69 (idx_main_v77 (ix2 e j)) = ix1 e := by
    funext d; refine Fin.ext ?_
    match d with
    | ⟨0, _⟩ => rfl
  have key : weightedAt (V4 m ρ c main_v52 : S1000000x1.Idx → EReal) (V4 m ρ c main_v32_0 : S1000000x1.Idx → EReal)
      (V4 m ρ c main_v60 : S1000000x1.Idx → EReal) (V4 m ρ c main_v67 : S1000000x256.Idx → EReal) e j
      = val_main_v78 (F := Ideal) x0 x1 x2 x3 (ix2 e j) := by
    unfold weightedAt
    rw [h52, h60, hw, h67]
    rw [val_main_v78_apply, val_main_v77_apply, val_main_v69_apply, e1, val_main_v67_apply, val_main_v59_apply]
    simp only [Ideal.mulf_def]
  exact (congrFun (W5_arr m ρ c 4) (ix2 e j)).trans ((R.wt2 (V4 m ρ) c e j).trans key)

/-- The aggregated rows the kernel's host stretch forms are the reference's scatter-add. -/
theorem aggregated1 (R : Regions) :
    (W6 m ρ c (Proc.devRef .tc main_v76) : S100000x256.Idx → EReal) = val_main_v85 (F := Ideal) x0 x1 x2 x3 := by
  show StableHlo.after hostOps3 (W5 m ρ c) (Proc.devRef .tc main_v76) = _
  rw [ops3_v76, Carried.main_arg1_W5, weighted1 m ρ c R]
  rfl

/-- The first layer's output after region 3 is the reference's `relu(out + d²[:, None] · h + b1)`. -/
theorem output1 (R : Regions) :
    (W7 m ρ c (Proc.devRef .tc main_v80) : S100000x256.Idx → EReal) = val_main_v94 (F := Ideal) x0 x1 x2 x3 x4 := by
  funext i
  obtain ⟨a, j, rfl⟩ : ∃ (a : Fin 100000) (j : Fin 256), i = ix2 a j := ⟨i 0, i 1, eq_ix2 i⟩
  have h76 : (V6 m ρ c main_v76 : S100000x256.Idx → EReal) = val_main_v85 (F := Ideal) x0 x1 x2 x3 :=
    aggregated1 m ρ c R
  have h78 : (V6 m ρ c main_v78 : S100000x1.Idx → EReal) (ix2 a (0 : Fin 1)) = val_main_v86 (F := Ideal) x0 x1 x2 (ix1 a) := by
    have h : (V6 m ρ c main_v78 : S100000x1.Idx → EReal) = invDegSq (val_main_v51 (F := Ideal) x0 x1 x2) := by
      show StableHlo.after hostOps3 (W5 m ρ c) (Proc.devRef .tc main_v78) = _
      rw [ops3_v78, Carried.main_v44_W5_W4, invDegBuf1 m ρ c R]
    rw [h]
    exact Cert.LibColumns.shapeCast_a_a1_apply _ _ a 0
  have h00 : (V6 m ρ c main_v0_0 : S100000x256.Idx → EReal) = val_main_v40 (F := Ideal) x0 x3 :=
    (Carried.main_v0_0_W6_W1 m ρ c).trans (product1 m ρ c R)
  have h79 : (V6 m ρ c main_v79 : S1x256.Idx → EReal) (ix2 (0 : Fin 1) j) = x4 (ix1 j) := by
    have h : (V6 m ρ c main_v79 : S1x256.Idx → EReal) = shapeCast S1x256 x4 shapeCasts_S256_S1x256 := by
      show StableHlo.after hostOps3 (W5 m ρ c) (Proc.devRef .tc main_v79) = _
      rw [ops3_v79, Carried.main_arg4_W5]
    rw [h]
    exact shapeCast_a_1a_apply _ _ 0 j
  have e1 : idx_main_v87 (idx_main_v88 (ix2 a j)) = ix1 a := by
    funext d; refine Fin.ext ?_
    match d with
    | ⟨0, _⟩ => rfl
  have e2 : idx_main_v91 (idx_main_v92 (ix2 a j)) = ix1 j := by
    funext d; refine Fin.ext ?_
    match d with
    | ⟨0, _⟩ => rfl
  have key : max (combineAt (V6 m ρ c main_v76 : S100000x256.Idx → EReal) (V6 m ρ c main_v78 : S100000x1.Idx → EReal)
      (V6 m ρ c main_v0_0 : S100000x256.Idx → EReal) (V6 m ρ c main_v79 : S1x256.Idx → EReal) a j) (Ideal.ofBits .f32 0x00000000#32)
      = val_main_v94 (F := Ideal) x0 x1 x2 x3 x4 (ix2 a j) := by
    unfold combineAt
    rw [h76, h78, h00, h79]
    rw [val_main_v94_apply, val_main_v93_apply, val_main_v90_apply, val_main_v89_apply, val_main_v88_apply, val_main_v87_apply, e1,
      val_main_v92_apply, val_main_v91_apply, e2, val_main_call2_v0_apply]
    simp only [Ideal.maximumf_def, Ideal.addf_def, Ideal.mulf_def, Ideal.ofBits_def, val_main_call2_cst_apply]
  exact (congrFun (W7_arr m ρ c 4) (ix2 a j)).trans ((R.comb3 (V6 m ρ) c a j).trans key)

end Cert.Bridge

end
-- ==== Proof.Layer2.lean ====
/-
  Layer 2 of the graph network, up to the attention weights. The second layer starts from the first layer's output
  `h` (a `[N, 256]` array): one region computes the node product `h · W2` and the row norms `max(‖h_i‖, ε)`, the host
  gathers the rows of `h` and the norms at the edges' endpoints, and a second region computes per edge the cosine
  similarity, the float mask (this layer's condition times the first layer's mask) and the weight. The reference does
  the same with whole-array operations and a boolean mask. Entry by entry the two agree: the matrix product and the row
  sums are the same finite sums over equal arrays, a norm kept as a column and gathered as a column is the norm kept flat
  and gathered flat, and selecting by "the product of the two indicators exceeds one half" is selecting by the
  conjunction of the two conditions.
-/
import proofs.«160892_j10402410791110_2_alg».proof.Proof.Gen.KernelIdeal.Frame
import proofs.«160892_j10402410791110_2_alg».proof.Proof.RefStagesP
import proofs.«160892_j10402410791110_2_alg».proof.Proof.Carried
import proofs.«160892_j10402410791110_2_alg».proof.Proof.HostStretch
import proofs.«160892_j10402410791110_2_alg».proof.Proof.LibGatherRows
import proofs.«160892_j10402410791110_2_alg».proof.Proof.LibColumns
import proofs.«160892_j10402410791110_2_alg».proof.Proof.MaskGate
import proofs.«160892_j10402410791110_2_alg».proof.Proof.Layer1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.HostStretch
open Cert.ReferenceIdeal.ReadP
open Cert.MaskGate

variable (m : (ℓ : Loc nD τ sig) → Buf (Elt Ideal) ℓ) (ρ : Dev nD → PrngReg) (c : Dev nD)

-- the notations below mention the section's variables: they are checked where they are used
set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-! ## The node product and the row norms (region 4) -/

/-- The kernel's second product array is the reference's `h · W2`: at `(i, j)` both are `∑ k, h[i,k] · W2[k,j]`,
    `h` the first layer's output on both sides. -/
theorem product2 (R : Regions) :
    (W8 m ρ c (Proc.devRef .tc main_v81_0) : S100000x40.Idx → EReal) = val_main_v136 (F := Ideal) x0 x1 x2 x3 x4 x5 := by
  funext i
  obtain ⟨a, b, rfl⟩ : ∃ (a : Fin 100000) (b : Fin 40), i = ix2 a b := ⟨i 0, i 1, eq_ix2 i⟩
  have h80 : (V7 m ρ c main_v80 : S100000x256.Idx → EReal) = val_main_v94 (F := Ideal) x0 x1 x2 x3 x4 := output1 m ρ c R
  have h5 : (V7 m ρ c main_arg5 : S256x40.Idx → EReal) = x5 := Carried.main_arg5_W7 m ρ c
  have key : dotAt (V7 m ρ c main_v80 : S100000x256.Idx → EReal) (V7 m ρ c main_arg5 : S256x40.Idx → EReal) a b
      = val_main_v136 (F := Ideal) x0 x1 x2 x3 x4 x5 (ix2 a b) := by
    rw [h80, h5, val_main_v136_apply]
    unfold dotAt
    refine Finset.sum_congr rfl fun k _ => ?_
    have e1 : lidx_main_v136 (ix2 a b) k = ix2 a k := by
      funext d; refine Fin.ext ?_
      match d with
      | ⟨0, _⟩ => rfl
      | ⟨1, _⟩ => rfl
    have e2 : ridx_main_v136 (ix2 a b) k = ix2 k b := by
      funext d; refine Fin.ext ?_
      match d with
      | ⟨0, _⟩ => rfl
      | ⟨1, _⟩ => rfl
    rw [e1, e2]
  exact (congrFun (W8_arr m ρ c 2) (ix2 a b)).trans ((R.prod4 (V7 m ρ) c a b).trans key)

/-- The kernel's second norm column is the reference's norm vector: at node `i` both are
    `max (sqrt (∑ k, h[i,k]²)) ε`. -/
theorem norm2 (R : Regions) (i : Fin 100000) :
    (W8 m ρ c (Proc.devRef .tc main_v81_1) : S100000x1.Idx → EReal) (ix2 i (0 : Fin 1)) = val_main_v97 (F := Ideal) x0 x1 x2 x3 x4 (ix1 i) := by
  have e : ∀ k : Fin 256, idx_main_call3_v1 (ix1 i) k = ix2 i k := fun k => by
    funext d; refine Fin.ext ?_
    match d with
    | ⟨0, _⟩ => rfl
    | ⟨1, _⟩ => rfl
  have h80 : (V7 m ρ c main_v80 : S100000x256.Idx → EReal) = val_main_v94 (F := Ideal) x0 x1 x2 x3 x4 := output1 m ρ c R
  have hs : (∑ k : Fin 256, val_main_v94 (F := Ideal) x0 x1 x2 x3 x4 (ix2 i k) * val_main_v94 (F := Ideal) x0 x1 x2 x3 x4 (ix2 i k))
      = val_main_call3_v1 (F := Ideal) x0 x1 x2 x3 x4 (ix1 i) := by
    rw [val_main_call3_v1_apply, val_main_call3_cst_apply, Ideal.ofBits_def, Ideal.ofBits_zero_f32, zero_add]
    refine Finset.sum_congr rfl fun k _ => ?_
    rw [e k, val_main_call3_v0_apply, Ideal.mulf_def]
  have key : normAt (V7 m ρ c main_v80 : S100000x256.Idx → EReal) i = val_main_v97 (F := Ideal) x0 x1 x2 x3 x4 (ix1 i) := by
    rw [h80]
    unfold normAt
    rw [hs, val_main_v97_apply, val_main_v95_apply, val_main_v96_apply, val_main_cst_23_apply,
      Ideal.maximumf_def, Ideal.hostUnary_sqrt_def, Ideal.ofBits_def]
  exact (congrFun (W8_arr m ρ c 3) (ix2 i (0 : Fin 1))).trans ((R.nrm4 (V7 m ρ) c i).trans key)

/-! ## The gathered rows and norms (the host stretch before region 5) -/

/-- The first layer's output is still in place when the host gathers its rows. -/
theorem input2 (R : Regions) :
    (W8 m ρ c (Proc.devRef .tc main_v80) : S100000x256.Idx → EReal) = val_main_v94 (F := Ideal) x0 x1 x2 x3 x4 :=
  (Carried.main_v80_W8_W7 m ρ c).trans (output1 m ρ c R)

/-- Region 5 finds, as its first operand, the rows of `h` gathered at the edges' first endpoints: the reference's. -/
theorem featRow2 (R : Regions) : (V9 m ρ c main_v88 : S1000000x256.Idx → EReal) = val_main_v104 (F := Ideal) x0 x1 x2 x3 x4 := by
  show StableHlo.after hostOps5 (W8 m ρ c) (Proc.devRef .tc main_v88) = _
  rw [ops5_v88, Carried.main_arg1_W8, input2 m ρ c R]; rfl

/-- … and, as its second, the rows gathered at the second endpoints. -/
theorem featCol2 (R : Regions) : (V9 m ρ c main_v95 : S1000000x256.Idx → EReal) = val_main_v111 (F := Ideal) x0 x1 x2 x3 x4 := by
  show StableHlo.after hostOps5 (W8 m ρ c) (Proc.devRef .tc main_v95) = _
  rw [ops5_v95, Carried.main_arg2_W8, input2 m ρ c R]; rfl

/-- The norm column gathered at the first endpoints, read at edge `e`, is the reference's flat gather at `e`. -/
theorem normRow2 (R : Regions) (e : Fin 1000000) :
    (V9 m ρ c main_v102 : S1000000x1.Idx → EReal) (ix2 e (0 : Fin 1)) = val_main_v120 (F := Ideal) x0 x1 x2 x3 x4 (ix1 e) := by
  have h : (V9 m ρ c main_v102 : S1000000x1.Idx → EReal)
      = Host.gather gather_S100000x1_S1000000x1_S1000000x1_1_0_n_n_0_1_11 (W8 m ρ c (Proc.devRef .tc main_v81_1)) (nidx x1) := by
    show StableHlo.after hostOps5 (W8 m ρ c) (Proc.devRef .tc main_v102) = _
    rw [ops5_v102, Carried.main_arg1_W8]
  rw [h]
  exact gathered_norm _ (val_main_v97 (F := Ideal) x0 x1 x2 x3 x4) (norm2 m ρ c R) x1 e

/-- … and at the second endpoints. -/
theorem normCol2 (R : Regions) (e : Fin 1000000) :
    (V9 m ρ c main_v109 : S1000000x1.Idx → EReal) (ix2 e (0 : Fin 1)) = val_main_v127 (F := Ideal) x0 x1 x2 x3 x4 (ix1 e) := by
  have h : (V9 m ρ c main_v109 : S1000000x1.Idx → EReal)
      = Host.gather gather_S100000x1_S1000000x1_S1000000x1_1_0_n_n_0_1_11 (W8 m ρ c (Proc.devRef .tc main_v81_1)) (nidx x2) := by
    show StableHlo.after hostOps5 (W8 m ρ c) (Proc.devRef .tc main_v109) = _
    rw [ops5_v109, Carried.main_arg2_W8]
  rw [h]
  exact gathered_norm _ (val_main_v97 (F := Ideal) x0 x1 x2 x3 x4) (norm2 m ρ c R) x2 e

/-- The endpoint columns region 5 compares: entry `(e, 0)` is the endpoint of edge `e`. -/
theorem rowCol2 (e : Fin 1000000) :
    (V9 m ρ c main_v110 : S1000000x1.Idx → BitVec 32) (ix2 e (0 : Fin 1)) = x1 (ix1 e) := by
  have h : (V9 m ρ c main_v110 : S1000000x1.Idx → BitVec 32) = asColumn x1 := by
    show StableHlo.after hostOps5 (W8 m ρ c) (Proc.devRef .tc main_v110) = _
    rw [ops5_v110, Carried.main_arg1_W8]
  rw [h]
  exact Cert.LibColumns.shapeCast_a_a1_apply _ _ e 0

theorem colCol2 (e : Fin 1000000) :
    (V9 m ρ c main_v111 : S1000000x1.Idx → BitVec 32) (ix2 e (0 : Fin 1)) = x2 (ix1 e) := by
  have h : (V9 m ρ c main_v111 : S1000000x1.Idx → BitVec 32) = asColumn x2 := by
    show StableHlo.after hostOps5 (W8 m ρ c) (Proc.devRef .tc main_v111) = _
    rw [ops5_v111, Carried.main_arg2_W8]
  rw [h]
  exact Cert.LibColumns.shapeCast_a_a1_apply _ _ e 0

/-- The second layer's previous mask is the first layer's float mask, untouched since region 1: the indicator of the
    reference's first boolean mask. -/
theorem prevMask2 (R : Regions) (e : Fin 1000000) :
    (V9 m ρ c main_v32_1 : S1000000x1.Idx → EReal) (ix2 e (0 : Fin 1)) = ind (val_main_v38 (F := Ideal) x0 x1 x2 (ix1 e)) :=
  (congrFun (Carried.main_v32_1_W9_W3 m ρ c) (ix2 e (0 : Fin 1))).trans (mask1 m ρ c R e)

/-! ## The similarity and the weight (region 5) -/

/-- The similarity the kernel computes for edge `e` in the second layer is the reference's quotient
    `dots / (nrm[row] · nrm[col])`. -/
theorem sim2 (R : Regions) (e : Fin 1000000) :
    simAt5 (V9 m ρ) c e = val_main_v129 (F := Ideal) x0 x1 x2 x3 x4 (ix1 e) := by
  unfold simAt5 sim
  rw [featRow2 m ρ c R, featCol2 m ρ c R, normRow2 m ρ c R e, normCol2 m ρ c R e]
  have ei : ∀ k : Fin 256, idx_main_v113 (ix1 e) k = ix2 e k := fun k => by
    funext d; refine Fin.ext ?_
    match d with
    | ⟨0, _⟩ => rfl
    | ⟨1, _⟩ => rfl
  have hs : (∑ k : Fin 256, val_main_v104 (F := Ideal) x0 x1 x2 x3 x4 (ix2 e k) * val_main_v111 (F := Ideal) x0 x1 x2 x3 x4 (ix2 e k))
      = val_main_v113 (F := Ideal) x0 x1 x2 x3 x4 (ix1 e) := by
    rw [val_main_v113_apply, val_main_cst_28_apply, Ideal.ofBits_def, Ideal.ofBits_zero_f32, zero_add]
    refine Finset.sum_congr rfl fun k _ => ?_
    rw [ei k, val_main_v112_apply, Ideal.mulf_def]
  refine (congrArg (fun s => Ideal.div s (val_main_v120 (F := Ideal) x0 x1 x2 x3 x4 (ix1 e) * val_main_v127 (F := Ideal) x0 x1 x2 x3 x4 (ix1 e))) hs).trans ?_
  rw [val_main_v129_apply, val_main_v128_apply, Ideal.hostDivf_def, Ideal.mulf_def]

/-- The weight column after region 5 is the reference's second weight vector `where(mask2 ∧ mask1, sims, 0)`. -/
theorem weight2 (R : Regions) (e : Fin 1000000) :
    (W10 m ρ c (Proc.devRef .tc main_v112_0) : S1000000x1.Idx → EReal) (ix2 e (0 : Fin 1)) = val_main_v135 (F := Ideal) x0 x1 x2 x3 x4 (ix1 e) := by
  refine (congrFun (W10_arr m ρ c 7) (ix2 e (0 : Fin 1))).trans ?_
  rw [R.att5w (V9 m ρ) c e]
  unfold maskAt5
  rw [show simAt5 (V9 m ρ) c e = val_main_v129 (F := Ideal) x0 x1 x2 x3 x4 (ix1 e) from sim2 m ρ c R e,
    rowCol2, colCol2, prevMask2 m ρ c R e, weight_second]
  show _ = Scalar.select (IntOp.andi (IntOp.andi (FloatOps.cmpf (F := Ideal) .oge (val_main_v129 (F := Ideal) x0 x1 x2 x3 x4 (ix1 e)) (val_main_v130 (F := Ideal) (ix1 e)))
      (IntOp.cmpi .ne (x1 (ix1 e)) (x2 (ix1 e)))) (val_main_v38 (F := Ideal) x0 x1 x2 (ix1 e)))
    (val_main_v129 (F := Ideal) x0 x1 x2 x3 x4 (ix1 e)) (val_main_call4_v1 (F := Ideal) (ix1 e))
  rw [val_main_v130_apply, val_main_call4_v1_apply]
  rfl

/-! ## From the second layer's weights to the network's output

On the host the kernel's program sums the second layer's edge weights into node degrees, takes `d = 1/sqrt(deg + 1)`, gathers
`d` at both endpoints of every edge and the row of the second product at the second endpoint; region 6 multiplies
`(d[row] · w · d[col])` into that row; the host adds the weighted rows into the first endpoints' rows; region 7 adds the self
loop `d² · h` and the bias, with no clamp after it. Each host operation is the same operation applied to equal arrays, and
each region's entry is, index by index, the reference's expression (a column `[E, 1]` on one side being the flat vector
`[E]` on the other). -/

/-- The second layer's weight column read flat is the reference's weight vector. -/
theorem weightFlat2 (R : Regions) :
    (fun i => shapeCast S1000000 (W10 m ρ c (Proc.devRef .tc main_v112_0)) shapeCasts_S1000000x1_S1000000 i)
      = val_main_v135 (F := Ideal) x0 x1 x2 x3 x4 := by
  funext i
  obtain ⟨e, rfl⟩ : ∃ e : Fin 1000000, i = ix1 e := ⟨i 0, eq_ix1 i⟩
  exact (Cert.LibColumns.shapeCast_a1_a_apply _ _ e).trans (weight2 m ρ c R e)

/-- The inverse root degree `1/sqrt(deg + 1)` the kernel's host stretch computes from the second layer's weights is the
    reference's. -/
theorem invDeg2 (R : Regions) :
    invDeg (W10 m ρ c (Proc.devRef .tc main_v112_0)) x1 = val_main_v147 (F := Ideal) x0 x1 x2 x3 x4 := by
  unfold invDeg
  rw [weightFlat2 m ρ c R]
  rfl

/-- The buffer that holds it after the host stretch. -/
theorem invDegBuf2 (R : Regions) :
    (W11 m ρ c (Proc.devRef .tc main_v124) : S100000.Idx → EReal) = val_main_v147 (F := Ideal) x0 x1 x2 x3 x4 := by
  show StableHlo.after hostOps6 (W10 m ρ c) (Proc.devRef .tc main_v124) = _
  rw [ops6_v124, Carried.main_arg1_W10]
  exact invDeg2 m ρ c R

/-- The inverse root degree gathered at the first endpoints, as region 6 finds it: the reference's, at edge `e`. -/
theorem invDegRow2 (R : Regions) (e : Fin 1000000) :
    (V11 m ρ c main_v132 : S1000000x1.Idx → EReal) (ix2 e (0 : Fin 1)) = val_main_v154 (F := Ideal) x0 x1 x2 x3 x4 (ix1 e) := by
  have h : (V11 m ρ c main_v132 : S1000000x1.Idx → EReal) = invDegAt (val_main_v147 (F := Ideal) x0 x1 x2 x3 x4) x1 := by
    show StableHlo.after hostOps6 (W10 m ρ c) (Proc.devRef .tc main_v132) = _
    rw [ops6_v132, Carried.main_arg1_W10, invDeg2 m ρ c R]
  rw [h]
  exact Cert.LibColumns.shapeCast_a_a1_apply _ _ e 0

/-- … and at the second endpoints. -/
theorem invDegCol2 (R : Regions) (e : Fin 1000000) :
    (V11 m ρ c main_v140 : S1000000x1.Idx → EReal) (ix2 e (0 : Fin 1)) = val_main_v162 (F := Ideal) x0 x1 x2 x3 x4 (ix1 e) := by
  have h : (V11 m ρ c main_v140 : S1000000x1.Idx → EReal) = invDegAt (val_main_v147 (F := Ideal) x0 x1 x2 x3 x4) x2 := by
    show StableHlo.after hostOps6 (W10 m ρ c) (Proc.devRef .tc main_v140) = _
    rw [ops6_v140, Carried.main_arg1_W10, Carried.main_arg2_W10, invDeg2 m ρ c R]
  rw [h]
  exact Cert.LibColumns.shapeCast_a_a1_apply _ _ e 0

/-- The weight column is still there at region 6's entry. -/
theorem weightKept2 (R : Regions) (e : Fin 1000000) :
    (V11 m ρ c main_v112_0 : S1000000x1.Idx → EReal) (ix2 e (0 : Fin 1)) = val_main_v135 (F := Ideal) x0 x1 x2 x3 x4 (ix1 e) :=
  (congrFun (Carried.main_v112_0_W11_W10 m ρ c) (ix2 e (0 : Fin 1))).trans (weight2 m ρ c R e)

/-- The rows of the second product gathered at the second endpoints are the reference's. -/
theorem featCol2b (R : Regions) :
    (V11 m ρ c main_v147 : S1000000x40.Idx → EReal) = val_main_v172 (F := Ideal) x0 x1 x2 x3 x4 x5 := by
  show StableHlo.after hostOps6 (W10 m ρ c) (Proc.devRef .tc main_v147) = _
  rw [ops6_v147, Carried.main_arg2_W10, Carried.main_v81_0_W10_W8, product2 m ρ c R]
  rfl

/-- The weighted neighbour rows after region 6 are the reference's `norm[:, None] · h[col]`, `h` the second product. -/
theorem weighted2 (R : Regions) :
    (W12 m ρ c (Proc.devRef .tc main_v148) : S1000000x40.Idx → EReal) = val_main_v174 (F := Ideal) x0 x1 x2 x3 x4 x5 := by
  funext i
  obtain ⟨e, j, rfl⟩ : ∃ (e : Fin 1000000) (j : Fin 40), i = ix2 e j := ⟨i 0, i 1, eq_ix2 i⟩
  have e1 : idx_main_v165 (idx_main_v173 (ix2 e j)) = ix1 e := by
    funext d; refine Fin.ext ?_
    match d with
    | ⟨0, _⟩ => rfl
  have key : weightedAt (V11 m ρ c main_v132 : S1000000x1.Idx → EReal) (V11 m ρ c main_v112_0 : S1000000x1.Idx → EReal)
      (V11 m ρ c main_v140 : S1000000x1.Idx → EReal) (V11 m ρ c main_v147 : S1000000x40.Idx → EReal) e j
      = val_main_v174 (F := Ideal) x0 x1 x2 x3 x4 x5 (ix2 e j) := by
    unfold weightedAt
    rw [invDegRow2 m ρ c R e, invDegCol2 m ρ c R e, weightKept2 m ρ c R e, featCol2b m ρ c R]
    rw [val_main_v174_apply, val_main_v173_apply, val_main_v165_apply, e1, val_main_v163_apply, val_main_v155_apply]
    simp only [Ideal.mulf_def]
  exact (congrFun (W12_arr m ρ c 4) (ix2 e j)).trans ((R.wt6 (V11 m ρ) c e j).trans key)

/-- The aggregated rows the kernel's host stretch forms are the reference's scatter-add. -/
theorem aggregated2 (R : Regions) :
    (W13 m ρ c (Proc.devRef .tc main_v156) : S100000x40.Idx → EReal) = val_main_v181 (F := Ideal) x0 x1 x2 x3 x4 x5 := by
  show StableHlo.after hostOps7 (W12 m ρ c) (Proc.devRef .tc main_v156) = _
  rw [ops7_v156, Carried.main_arg1_W12, weighted2 m ρ c R]
  rfl

/-- The squared inverse root degree as region 7 finds it: the reference's, at node `a`. -/
theorem invDegSq2 (R : Regions) (a : Fin 100000) :
    (V13 m ρ c main_v158 : S100000x1.Idx → EReal) (ix2 a (0 : Fin 1)) = val_main_v182 (F := Ideal) x0 x1 x2 x3 x4 (ix1 a) := by
  have h : (V13 m ρ c main_v158 : S100000x1.Idx → EReal) = invDegSq (val_main_v147 (F := Ideal) x0 x1 x2 x3 x4) := by
    show StableHlo.after hostOps7 (W12 m ρ c) (Proc.devRef .tc main_v158) = _
    rw [ops7_v158, Carried.main_v124_W12_W11, invDegBuf2 m ρ c R]
  rw [h]
  exact Cert.LibColumns.shapeCast_a_a1_apply _ _ a 0

/-- The second product is still there at region 7's entry. -/
theorem productKept2 (R : Regions) :
    (V13 m ρ c main_v81_0 : S100000x40.Idx → EReal) = val_main_v136 (F := Ideal) x0 x1 x2 x3 x4 x5 :=
  (Carried.main_v81_0_W13_W8 m ρ c).trans (product2 m ρ c R)

/-- The bias as a row `[1, 40]`: entry `(0, j)` is the bias's entry `j`. -/
theorem biasRow2 (j : Fin 40) :
    (V13 m ρ c main_v159 : S1x40.Idx → EReal) (ix2 (0 : Fin 1) j) = x6 (ix1 j) := by
  have h : (V13 m ρ c main_v159 : S1x40.Idx → EReal) = shapeCast S1x40 x6 shapeCasts_S40_S1x40 := by
    show StableHlo.after hostOps7 (W12 m ρ c) (Proc.devRef .tc main_v159) = _
    rw [ops7_v159, Carried.main_arg6_W12]
  rw [h]
  exact shapeCast_a_1a_apply _ _ 0 j

/-- The network's output after region 7 is the reference's `out + d²[:, None] · h + b2`. -/
theorem result (R : Regions) :
    (W14 m ρ c (Proc.devRef .tc main_v160) : S100000x40.Idx → EReal) = val_main_v189 (F := Ideal) x0 x1 x2 x3 x4 x5 x6 := by
  funext i
  obtain ⟨a, j, rfl⟩ : ∃ (a : Fin 100000) (j : Fin 40), i = ix2 a j := ⟨i 0, i 1, eq_ix2 i⟩
  have e1 : idx_main_v183 (idx_main_v184 (ix2 a j)) = ix1 a := by
    funext d; refine Fin.ext ?_
    match d with
    | ⟨0, _⟩ => rfl
  have e2 : idx_main_v187 (idx_main_v188 (ix2 a j)) = ix1 j := by
    funext d; refine Fin.ext ?_
    match d with
    | ⟨0, _⟩ => rfl
  have key : combineAt (V13 m ρ c main_v156 : S100000x40.Idx → EReal) (V13 m ρ c main_v158 : S100000x1.Idx → EReal)
      (V13 m ρ c main_v81_0 : S100000x40.Idx → EReal) (V13 m ρ c main_v159 : S1x40.Idx → EReal) a j
      = val_main_v189 (F := Ideal) x0 x1 x2 x3 x4 x5 x6 (ix2 a j) := by
    unfold combineAt
    rw [invDegSq2 m ρ c R a, biasRow2 m ρ c j, productKept2 m ρ c R,
      show (V13 m ρ c main_v156 : S100000x40.Idx → EReal) = val_main_v181 (F := Ideal) x0 x1 x2 x3 x4 x5 from aggregated2 m ρ c R]
    rw [val_main_v189_apply, val_main_v186_apply, val_main_v185_apply, val_main_v184_apply, val_main_v183_apply, e1,
      val_main_v188_apply, val_main_v187_apply, e2]
    simp only [Ideal.addf_def, Ideal.mulf_def]
  exact (congrFun (W14_arr m ρ c 4) (ix2 a j)).trans ((R.comb7 (V13 m ρ) c a j).trans key)

end Cert.Bridge

end
-- ==== Proof.lean ====
/-
  The certificate of the attention-weighted two-layer graph convolution kernel against its reference.

  The kernel's program runs eight pallas_call regions — per layer: the node product with the rows' norms, the per-edge
  cosine similarity with its mask and weight, the degree-normalised weighting of the gathered neighbour rows, and the
  combination with the self loop and the bias — among host stretches that gather node rows at the edges' endpoints and
  add edge rows into node rows. The reference computes the same network with whole-array operations.

  The three frames are the generated ones (the reference's is its generated run with the result dropped). The ideal pass
  rewrote nothing, so there is nothing to preserve. For the value claim, both programs run from memories that agree on
  the arguments: the kernel's result array is the last boundary's contents of its result buffer (ResultRun), those
  contents are the reference's staged term of the arguments (Layer1, Layer2, from the twelve region facts of
  RegionsProved), and the reference's run ends at that term.
-/
import proofs.«160892_j10402410791110_2_alg».proof.Defs
import proofs.«160892_j10402410791110_2_alg».proof.Proof.Gen.Kernel
import proofs.«160892_j10402410791110_2_alg».proof.Proof.Gen.Kernel.Frame
import proofs.«160892_j10402410791110_2_alg».proof.Proof.Gen.KernelIdeal
import proofs.«160892_j10402410791110_2_alg».proof.Proof.Gen.KernelIdeal.Frame
import proofs.«160892_j10402410791110_2_alg».proof.Proof.Gen.ReferenceIdeal
import proofs.«160892_j10402410791110_2_alg».proof.Proof.Gen.Pre_finite_inputs
import proofs.«160892_j10402410791110_2_alg».proof.Proof.RefRunP
import proofs.«160892_j10402410791110_2_alg».proof.Proof.RefStagesP
import proofs.«160892_j10402410791110_2_alg».proof.Proof.ResultRun
import proofs.«160892_j10402410791110_2_alg».proof.Proof.RegionsProved
import proofs.«160892_j10402410791110_2_alg».proof.Proof.Layer2
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with one result array: the kernel's last boundary contents of its result buffer, which is the
    reference's composed term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v160), Cert.KernelIdeal.ResultRun.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1,
    (hagree c).2.2.2.2.1, (hagree c).2.2.2.2.2.1, (hagree c).2.2.2.2.2.2]
  exact (Cert.Bridge.result m ρ c Cert.Bridge.regions).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
